-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S131072x4x128 : Shape := ⟨3, ![131072, 4, 128]⟩
abbrev S131072x4 : Shape := ⟨2, ![131072, 4]⟩
abbrev S384x128 : Shape := ⟨2, ![384, 128]⟩
abbrev S384x256 : Shape := ⟨2, ![384, 256]⟩
abbrev S1x384 : Shape := ⟨2, ![1, 384]⟩
abbrev S128x128 : Shape := ⟨2, ![128, 128]⟩
abbrev S256x256 : Shape := ⟨2, ![256, 256]⟩
abbrev S1x128 : Shape := ⟨2, ![1, 128]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S131072x4x128 : S_.BroadcastsInDim S131072x4x128 (![] : Fin 0 → Fin S131072x4x128.rank)
  reducesTo_S131072x4x128_S_d0_1_2 : S131072x4x128.ReducesTo [0, 1, 2] S_
  bcast_S_S384x128 : S_.BroadcastsInDim S384x128 (![] : Fin 0 → Fin S384x128.rank)
  reducesTo_S384x128_S_d0_1 : S384x128.ReducesTo [0, 1] S_
  bcast_S_S384x256 : S_.BroadcastsInDim S384x256 (![] : Fin 0 → Fin S384x256.rank)
  reducesTo_S384x256_S_d0_1 : S384x256.ReducesTo [0, 1] S_
  bcast_S_S1x384 : S_.BroadcastsInDim S1x384 (![] : Fin 0 → Fin S1x384.rank)
  reducesTo_S1x384_S_d0_1 : S1x384.ReducesTo [0, 1] S_
  bcast_S_S128x128 : S_.BroadcastsInDim S128x128 (![] : Fin 0 → Fin S128x128.rank)
  reducesTo_S128x128_S_d0_1 : S128x128.ReducesTo [0, 1] S_
  bcast_S_S256x256 : S_.BroadcastsInDim S256x256 (![] : Fin 0 → Fin S256x256.rank)
  reducesTo_S256x256_S_d0_1 : S256x256.ReducesTo [0, 1] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_arg19 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg15 : FVec F S128 .f32) (main_arg16 : FVec F S128 .f32) (main_arg17 : FVec F S128 .f32) (main_arg18 : FVec F S128 .f32) (main_arg19 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_v63 main_v67

def fn_part2 {F : FTy → Type} [FloatOps F] (main_arg8 : FVec F S256x256 .f32) (main_arg9 : FVec F S1x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S1x128 .f32 := Host.absf main_arg9
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_v48 main_v49 main_v50

def fn_part1 {F : FTy → Type} [FloatOps F] (main_arg5 : FVec F S384x256 .f32) (main_arg6 : FVec F S1x384 .f32) (main_arg7 : FVec F S128x128 .f32) (main_arg8 : FVec F S256x256 .f32) (main_arg9 : FVec F S1x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384x256 .f32 := Host.absf main_arg5
  let main_cst_6 : FVec F S_ .f32 := constant S_ .f32 0x7F800000#32
  let main_v20 : FVec F S384x256 .f32 := broadcastInDim S384x256 ![] bcast_S_S384x256 main_cst_6
  let main_v21 : IVec S384x256 1 := cmpf .olt main_v19 main_v20
  let main_c_7 : IVec S_ 1 := constantI S_ 1 1#1
  let main_v22 : IVec S_ 1 := (fun x v => Host.reduce IntOp.andi x v reducesTo_S384x256_S_d0_1 h_S_) main_v21 main_c_7
  let main_v23 : IVec S_ 1 := andi main_v18 main_v22
  let main_v24 : FVec F S1x384 .f32 := Host.absf main_arg6
  let main_cst_8 : FVec F S_ .f32 := constant S_ .f32 0x7F800000#32
  let main_v25 : FVec F S1x384 .f32 := broadcastInDim S1x384 ![] bcast_S_S1x384 main_cst_8
  let main_v26 : IVec S1x384 1 := cmpf .olt main_v24 main_v25
  let main_c_9 : IVec S_ 1 := constantI S_ 1 1#1
  let main_v27 : IVec S_ 1 := (fun x v => Host.reduce IntOp.andi x v reducesTo_S1x384_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S131072x128 .f32) (main_arg1 : FVec F S131072x4x128 .f32) (main_arg2 : FVec F S131072x4x128 .f32) (main_arg3 : IVec S131072x4 32) (main_arg4 : FVec F S384x128 .f32) (main_arg5 : FVec F S384x256 .f32) (main_arg6 : FVec F S1x384 .f32) (main_arg7 : FVec F S128x128 .f32) (main_arg8 : FVec F S256x256 .f32) (main_arg9 : FVec F S1x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x4x128 .f32 := Host.absf main_arg1
  let main_cst_0 : FVec F S_ .f32 := constant S_ .f32 0x7F800000#32
  let main_v5 : FVec F S131072x4x128 .f32 := broadcastInDim S131072x4x128 ![] bcast_S_S131072x4x128 main_cst_0
  let main_v6 : IVec S131072x4x128 1 := cmpf .olt main_v4 main_v5
  let main_c_1 : IVec S_ 1 := constantI S_ 1 1#1
  let main_v7 : IVec S_ 1 := (fun x v => Host.reduce IntOp.andi x v reducesTo_S131072x4x128_S_d0_1_2 h_S_) main_v6 main_c_1
  let main_v8 : IVec S_ 1 := andi main_v3 main_v7
  let main_v9 : FVec F S131072x4x128 .f32 := Host.absf main_arg2
  let main_cst_2 : FVec F S_ .f32 := constant S_ .f32 0x7F800000#32
  let main_v10 : FVec F S131072x4x128 .f32 := broadcastInDim S131072x4x128 ![] bcast_S_S131072x4x128 main_cst_2
  let main_v11 : IVec S131072x4x128 1 := cmpf .olt main_v9 main_v10
  let main_c_3 : IVec S_ 1 := constantI S_ 1 1#1
  let main_v12 : IVec S_ 1 := (fun x v => Host.reduce IntOp.andi x v reducesTo_S131072x4x128_S_d0_1_2 h_S_) main_v11 main_c_3
  let main_v13 : IVec S_ 1 := andi main_v8 main_v12
  let main_v14 : FVec F S384x128 .f32 := Host.absf main_arg4
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S131072x128 : Shape := ⟨2, ![131072, 128]⟩
abbrev S131072x4x128 : Shape := ⟨3, ![131072, 4, 128]⟩
abbrev S131072x4 : Shape := ⟨2, ![131072, 4]⟩
abbrev S384x128 : Shape := ⟨2, ![384, 128]⟩
abbrev S384x256 : Shape := ⟨2, ![384, 256]⟩
abbrev S1x384 : Shape := ⟨2, ![1, 384]⟩
abbrev S128x128 : Shape := ⟨2, ![128, 128]⟩
abbrev S256x256 : Shape := ⟨2, ![256, 256]⟩
abbrev S1x128 : Shape := ⟨2, ![1, 128]⟩
abbrev S128 : Shape := ⟨1, ![128]⟩
abbrev S128x384 : Shape := ⟨2, ![128, 384]⟩
abbrev S256x384 : Shape := ⟨2, ![256, 384]⟩
abbrev S128x512 : Shape := ⟨2, ![128, 512]⟩
abbrev S256x640 : Shape := ⟨2, ![256, 640]⟩
abbrev S2x131072x128 : Shape := ⟨3, ![2, 131072, 128]⟩
abbrev S1024x128 : Shape := ⟨2, ![1024, 128]⟩
abbrev S1024x4x128 : Shape := ⟨3, ![1024, 4, 128]⟩
abbrev S1024x4 : Shape := ⟨2, ![1024, 4]⟩
abbrev S2x1024x128 : Shape := ⟨3, ![2, 1024, 128]⟩
abbrev S1024x4x1 : Shape := ⟨3, ![1024, 4, 1]⟩
abbrev S1024x256 : Shape := ⟨2, ![1024, 256]⟩
abbrev S1024x512 : Shape := ⟨2, ![1024, 512]⟩
abbrev S1024x640 : Shape := ⟨2, ![1024, 640]⟩
abbrev S1024x384 : Shape := ⟨2, ![1024, 384]⟩
abbrev S1024 : Shape := ⟨1, ![1024]⟩
abbrev S1024x1 : Shape := ⟨2, ![1024, 1]⟩
abbrev S1x1024x128 : Shape := ⟨3, ![1, 1024, 128]⟩

abbrev nBuf : Space → Nat
  | .hbm => 41
  | .vmem => 24
  | .smem => 0
  | _ => 0

abbrev bufTy : (tb : Table) → Fin (tcTables nBuf tb) → BufTy
  | .hbm, ⟨0, _⟩ => ⟨S131072x128, .f32⟩
  | .hbm, ⟨1, _⟩ => ⟨S131072x4x128, .f32⟩
  | .hbm, ⟨2, _⟩ => ⟨S131072x4x128, .f32⟩
  | .hbm, ⟨3, _⟩ => ⟨S131072x4, .i32⟩
  | .hbm, ⟨4, _⟩ => ⟨S384x128, .f32⟩
  | .hbm, ⟨5, _⟩ => ⟨S384x256, .f32⟩
  | .hbm, ⟨6, _⟩ => ⟨S1x384, .f32⟩
  | .hbm, ⟨7, _⟩ => ⟨S128x128, .f32⟩
  | .hbm, ⟨8, _⟩ => ⟨S256x256, .f32⟩
  | .hbm, ⟨9, _⟩ => ⟨S1x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128x384, .f32⟩
  | .hbm, ⟨21, _⟩ => ⟨S128x384, .bf16⟩
  | .hbm, ⟨22, _⟩ => ⟨S256x384, .f32⟩
  | .hbm, ⟨23, _⟩ => ⟨S256x384, .bf16⟩
  | .hbm, ⟨24, _⟩ => ⟨S128x128, .f32⟩
  | .hbm, ⟨25, _⟩ => ⟨S128x128, .bf16⟩
  | .hbm, ⟨26, _⟩ => ⟨S256x256, .f32⟩
  | .hbm, ⟨27, _⟩ => ⟨S256x256, .bf16⟩
  | .hbm, ⟨28, _⟩ => ⟨S128x512, .bf16⟩
  | .hbm, ⟨29, _⟩ => ⟨S256x640, .bf16⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S2x131072x128, .f32⟩
  | .local _ .vmem, ⟨0, _⟩ => ⟨S1024x128, .f32⟩
  | .local _ .vmem, ⟨1, _⟩ => ⟨S1024x128, .f32⟩
  | .local _ .vmem, ⟨2, _⟩ => ⟨S1024x4x128, .f32⟩
  | .local _ .vmem, ⟨3, _⟩ => ⟨S1024x4x128, .f32⟩
  | .local _ .vmem, ⟨4, _⟩ => ⟨S1024x4x128, .f32⟩
  | .local _ .vmem, ⟨5, _⟩ => ⟨S1024x4x128, .f32⟩
  | .local _ .vmem, ⟨6, _⟩ => ⟨S1024x4, .i32⟩
  | .local _ .vmem, ⟨7, _⟩ => ⟨S1024x4, .i32⟩
  | .local _ .vmem, ⟨8, _⟩ => ⟨S128x512, .bf16⟩
  | .local _ .vmem, ⟨9, _⟩ => ⟨S256x640, .bf16⟩
  | .local _ .vmem, ⟨10, _⟩ => ⟨S1x384, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S2x1024x128, .f32⟩
  | .local _ .vmem, ⟨23, _⟩ => ⟨S2x1024x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg18_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem18_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x4 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S2x1024x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  transposes_S384x128_S128x384_1_0 : S384x128.Transposes [1, 0] S128x384
  bitsLt_bf16_f32 : FTy.bits .bf16 < FTy.bits .f32
  transposes_S384x256_S256x384_1_0 : S384x256.Transposes [1, 0] S256x384
  transposes_S128x128_S128x128_1_0 : S128x128.Transposes [1, 0] S128x128
  transposes_S256x256_S256x256_1_0 : S256x256.Transposes [1, 0] S256x256
  concatenates_S128x128_S128x384_S128x512_d1 : Shape.Concatenates [S128x128, S128x384] S128x512 1
  concatenates_S256x256_S256x384_S256x640_d1 : Shape.Concatenates [S256x256, S256x384] S256x640 1
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  inb_S1024x4x128_S1024x4x128_0_0_0 : ∀ a, (![0, 0, 0] : Fin 3 → Nat) a + S1024x4x128.size a ≤ S1024x4x128.size a
  h_S1024x4x128 : 0 < S1024x4x128.numel
  inb_S1024x4_S1024x4_0_0 : ∀ a, (![0, 0] : Fin 2 → Nat) a + S1024x4.size a ≤ S1024x4.size a
  h_S1024x4 : 0 < S1024x4.numel
  natLt_1_32 : 1 < 32
  shapeCasts_S1024x4_S1024x4x1 : S1024x4.ShapeCasts S1024x4x1
  broadcasts_S1024x4x1_S1024x4x128 : S1024x4x1.Broadcasts S1024x4x128
  reduces_S1024x4x128_S1024x128 : S1024x4x128.Reduces [1] S1024x128
  concatenates_S1024x128_S1024x128_S1024x256_d1 : Shape.Concatenates [S1024x128, S1024x128] S1024x256 1
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S256x640_S256x640_0_0 : ∀ a, (![0, 0] : Fin 2 → Nat) a + S256x640.size a ≤ S256x640.size a
  h_S256x640 : 0 < S256x640.numel
  shapeCasts_S256x640_S256x640 : S256x640.ShapeCasts S256x640
  slices_S1024x512_o0_0_S1024x128 : S1024x512.Slices ![0, 0] S1024x128
  slices_S1024x512_o0_128_S1024x384 : S1024x512.Slices ![0, 128] S1024x384
  slices_S1024x640_o0_0_S1024x256 : S1024x640.Slices ![0, 0] S1024x256
  slices_S1024x640_o0_256_S1024x384 : S1024x640.Slices ![0, 256] S1024x384
  slices_S1024x256_o0_0_S1024x128 : S1024x256.Slices ![0, 0] S1024x128
  slices_S1024x256_o0_128_S1024x128 : S1024x256.Slices ![0, 128] S1024x128
  inb_S1x128_S1x128_0_0 : ∀ a, (![0, 0] : Fin 2 → Nat) a + S1x128.size a ≤ S1x128.size a
  h_S1x128 : 0 < S1x128.numel
  broadcasts_S1x128_S1024x128 : S1x128.Broadcasts S1024x128
  shapeCasts_S1x128_S1x128 : S1x128.ShapeCasts S1x128
  reduces_S1024x128_S1024 : S1024x128.Reduces [1] S1024
  shapeCasts_S1024_S1024x1 : S1024.ShapeCasts S1024x1
  broadcasts_S1024x1_S1024x128 : S1024x1.Broadcasts S1024x128
  inb_S1x384_S1x384_0_0 : ∀ a, (![0, 0] : Fin 2 → Nat) a + S1x384.size a ≤ S1x384.size a
  h_S1x384 : 0 < S1x384.numel
  broadcasts_S1x384_S1024x384 : S1x384.Broadcasts S1024x384
  slices_S1024x384_o0_0_S1024x128 : S1024x384.Slices ![0, 0] S1024x128
  slices_S1024x384_o0_128_S1024x128 : S1024x384.Slices ![0, 128] S1024x128
  slices_S1024x384_o0_256_S1024x128 : S1024x384.Slices ![0, 256] S1024x128
  inb_S2x1024x128_S1x1024x128_0_0_0 : ∀ a, (![0, 0, 0] : Fin 3 → Nat) a + S1x1024x128.size a ≤ S2x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  inb_S2x1024x128_S1x1024x128_1_0_0 : ∀ a, (![1, 0, 0] : Fin 3 → Nat) a + S1x1024x128.size a ≤ S2x1024x128.size a
  dot_S1024x128_S128x512_S1024x512_1_0_0_1_n_n_wf : DotDims.WF S1024x128 S128x512 S1024x512 [1] [0] [0] [1] [] []
  dot_S1024x256_S256x640_S1024x640_1_0_0_1_n_n_wf : DotDims.WF S1024x256 S256x640 S1024x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S131072x128.size a
  hwx0_0 : ∀ i : grid0.Coords, EltTy.bits .f32 = 32 ∨ (Rect.block (s := S131072x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4x128.size a ≤ S131072x4x128.size a
  hwx0_1 : ∀ i : grid0.Coords, EltTy.bits .f32 = 32 ∨ (Rect.block (s := S131072x4x128) S1024x4x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4x128.size a ≤ S131072x4x128.size a
  hwx0_2 : ∀ i : grid0.Coords, EltTy.bits .f32 = 32 ∨ (Rect.block (s := S131072x4x128) S1024x4x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x4.size a ≤ S131072x4.size a
  hwx0_3 : ∀ i : grid0.Coords, EltTy.bits .i32 = 32 ∨ (Rect.block (s := S131072x4) S1024x4.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .bf16 = 32 ∨ (Rect.block (s := S128x512) S128x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x640.size a ≤ S256x640.size a
  hwx0_5 : ∀ i : grid0.Coords, EltTy.bits .bf16 = 32 ∨ (Rect.block (s := S256x640) S256x640.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x128.size a ≤ S1x128.size a
  hwx0_17 : ∀ i : grid0.Coords, EltTy.bits .f32 = 32 ∨ (Rect.block (s := S1x128) S1x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2x1024x128.size a ≤ S2x131072x128.size a
  hwx0_18 : ∀ i : grid0.Coords, EltTy.bits .f32 = 32 ∨ (Rect.block (s := S2x131072x128) S2x1024x128.size (cc0_transform_18 i) (hinb0_18 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x256_S256x640_S1024x640_1_0_0_1_n_n : DotDims S1024x256 S256x640 S1024x640 where
  lhsContracting := [1]
  rhsContracting := [0]
  lhsNonContracting := [0]
  rhsNonContracting := [1]
  lhsBatch := []
  rhsBatch := []
  wf := dot_S1024x256_S256x640_S1024x640_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x4x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x4x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S256x640.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v16) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v17) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v18) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v19) S1x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v20) S2x1024x128.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S131072x128 : Shape := ⟨2, ![131072, 128]⟩
abbrev S131072x4x128 : Shape := ⟨3, ![131072, 4, 128]⟩
abbrev S131072x4 : Shape := ⟨2, ![131072, 4]⟩
abbrev S384x128 : Shape := ⟨2, ![384, 128]⟩
abbrev S384x256 : Shape := ⟨2, ![384, 256]⟩
abbrev S1x384 : Shape := ⟨2, ![1, 384]⟩
abbrev S128x128 : Shape := ⟨2, ![128, 128]⟩
abbrev S256x256 : Shape := ⟨2, ![256, 256]⟩
abbrev S1x128 : Shape := ⟨2, ![1, 128]⟩
abbrev S128 : Shape := ⟨1, ![128]⟩
abbrev S_ : Shape := ⟨0, ![]⟩
abbrev S131072x4x1 : Shape := ⟨3, ![131072, 4, 1]⟩
abbrev S131072x256 : Shape := ⟨2, ![131072, 256]⟩
abbrev S131072x2x128 : Shape := ⟨3, ![131072, 2, 128]⟩
abbrev S131072x1x128 : Shape := ⟨3, ![131072, 1, 128]⟩
abbrev S1x1x128 : Shape := ⟨3, ![1, 1, 128]⟩
abbrev S131072x2 : Shape := ⟨2, ![131072, 2]⟩
abbrev S131072x2x1 : Shape := ⟨3, ![131072, 2, 1]⟩
abbrev S128x384 : Shape := ⟨2, ![128, 384]⟩
abbrev S131072x384 : Shape := ⟨2, ![131072, 384]⟩
abbrev S256x384 : Shape := ⟨2, ![256, 384]⟩
abbrev S131072 : Shape := ⟨1, ![131072]⟩
abbrev S131072x1 : Shape := ⟨2, ![131072, 1]⟩
abbrev S1x131072x128 : Shape := ⟨3, ![1, 131072, 128]⟩
abbrev S2x131072x128 : Shape := ⟨3, ![2, 131072, 128]⟩

abbrev nBuf : Space → Nat
  | .hbm => 241
  | .vmem => 0
  | .smem => 0
  | _ => 0

abbrev hbmTy0_0 (i : Nat) : BufTy := match i % 128 with
  | 0 => ⟨S131072x128, .f32⟩
  | 1 => ⟨S131072x4x128, .f32⟩
  | 2 => ⟨S131072x4x128, .f32⟩
  | 3 => ⟨S131072x4, .i32⟩
  | 4 => ⟨S384x128, .f32⟩
  | 5 => ⟨S384x256, .f32⟩
  | 6 => ⟨S1x384, .f32⟩
  | 7 => ⟨S128x128, .f32⟩
  | 8 => ⟨S256x256, .f32⟩
  | 9 => ⟨S1x128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S_, .i32⟩
  | 21 => ⟨S131072x4, .i32⟩
  | 22 => ⟨S131072x4, .i1⟩
  | 23 => ⟨S131072x4x1, .i1⟩
  | 24 => ⟨S131072x4x1, .f32⟩
  | 25 => ⟨S_, .i32⟩
  | 26 => ⟨S131072x4, .i32⟩
  | 27 => ⟨S131072x4, .i1⟩
  | 28 => ⟨S131072x4x1, .i1⟩
  | 29 => ⟨S131072x4x1, .f32⟩
  | 30 => ⟨S131072x4x128, .f32⟩
  | 31 => ⟨S131072x4x128, .f32⟩
  | 32 => ⟨S_, .f32⟩
  | 33 => ⟨S131072x128, .f32⟩
  | 34 => ⟨S131072x4x128, .f32⟩
  | 35 => ⟨S131072x4x128, .f32⟩
  | 36 => ⟨S_, .f32⟩
  | 37 => ⟨S131072x128, .f32⟩
  | 38 => ⟨S131072x4x128, .f32⟩
  | 39 => ⟨S131072x4x128, .f32⟩
  | 40 => ⟨S_, .f32⟩
  | 41 => ⟨S131072x128, .f32⟩
  | 42 => ⟨S131072x4x128, .f32⟩
  | 43 => ⟨S131072x4x128, .f32⟩
  | 44 => ⟨S_, .f32⟩
  | 45 => ⟨S131072x128, .f32⟩
  | 46 => ⟨S131072x256, .f32⟩
  | 47 => ⟨S256x256, .f32⟩
  | 48 => ⟨S131072x256, .f32⟩
  | 49 => ⟨S131072x2x128, .f32⟩
  | 50 => ⟨S128x128, .f32⟩
  | 51 => ⟨S131072x128, .f32⟩
  | 52 => ⟨S131072x1x128, .f32⟩
  | 53 => ⟨S131072x2x128, .f32⟩
  | 54 => ⟨S131072x2x128, .f32⟩
  | 55 => ⟨S1x1x128, .f32⟩
  | 56 => ⟨S131072x2x128, .f32⟩
  | 57 => ⟨S131072x2x128, .f32⟩
  | 58 => ⟨S_, .f32⟩
  | 59 => ⟨S131072x2, .f32⟩
  | 60 => ⟨S131072x2x1, .f32⟩
  | 61 => ⟨S_, .f32⟩
  | 62 => ⟨S131072x2x1, .f32⟩
  | 63 => ⟨S131072x2x1, .f32⟩
  | 64 => ⟨S131072x2x128, .f32⟩
  | 65 => ⟨S131072x2x128, .f32⟩
  | 66 => ⟨S131072x2x128, .f32⟩
  | 67 => ⟨S_, .f32⟩
  | 68 => ⟨S131072x2, .f32⟩
  | 69 => ⟨S131072x2x1, .f32⟩
  | 70 => ⟨S_, .f32⟩
  | 71 => ⟨S131072x2x1, .f32⟩
  | 72 => ⟨S131072x2x1, .f32⟩
  | 73 => ⟨S_, .f32⟩
  | 74 => ⟨S131072x2x1, .f32⟩
  | 75 => ⟨S131072x2x1, .f32⟩
  | 76 => ⟨S131072x2x1, .f32⟩
  | 77 => ⟨S131072x2x128, .f32⟩
  | 78 => ⟨S131072x2x128, .f32⟩
  | 79 => ⟨S1x1x128, .f32⟩
  | 80 => ⟨S131072x2x128, .f32⟩
  | 81 => ⟨S131072x2x128, .f32⟩
  | 82 => ⟨S1x1x128, .f32⟩
  | 83 => ⟨S131072x2x128, .f32⟩
  | 84 => ⟨S131072x2x128, .f32⟩
  | 85 => ⟨S131072x2x128, .f32⟩
  | 86 => ⟨S131072x2x128, .f32⟩
  | 87 => ⟨S_, .f32⟩
  | 88 => ⟨S131072x2x128, .f32⟩
  | 89 => ⟨S131072x2x128, .f32⟩
  | 90 => ⟨S_, .f32⟩
  | 91 => ⟨S131072x2x128, .f32⟩
  | 92 => ⟨S131072x2x128, .f32⟩
  | 93 => ⟨S131072x1x128, .f32⟩
  | 94 => ⟨S131072x1x128, .f32⟩
  | 95 => ⟨S131072x2x128, .f32⟩
  | 96 => ⟨S131072x2x128, .f32⟩
  | 97 => ⟨S_, .f32⟩
  | 98 => ⟨S131072x128, .f32⟩
  | 99 => ⟨S128x384, .f32⟩
  | 100 => ⟨S131072x384, .f32⟩
  | 101 => ⟨S256x384, .f32⟩
  | 102 => ⟨S131072x384, .f32⟩
  | 103 => ⟨S131072x384, .f32⟩
  | 104 => ⟨S131072x384, .f32⟩
  | 105 => ⟨S131072x384, .f32⟩
  | 106 => ⟨S131072x128, .f32⟩
  | 107 => ⟨S131072x128, .f32⟩
  | 108 => ⟨S131072x128, .f32⟩
  | 109 => ⟨S_, .f32⟩
  | 110 => ⟨S131072, .f32⟩
  | 111 => ⟨S131072x1, .f32⟩
  | 112 => ⟨S_, .f32⟩
  | 113 => ⟨S131072x1, .f32⟩
  | 114 => ⟨S131072x1, .f32⟩
  | 115 => ⟨S131072x128, .f32⟩
  | 116 => ⟨S131072x128, .f32⟩
  | 117 => ⟨S131072x128, .f32⟩
  | 118 => ⟨S_, .f32⟩
  | 119 => ⟨S131072, .f32⟩
  | 120 => ⟨S131072x1, .f32⟩
  | 121 => ⟨S_, .f32⟩
  | 122 => ⟨S131072x1, .f32⟩
  | 123 => ⟨S131072x1, .f32⟩
  | 124 => ⟨S_, .f32⟩
  | 125 => ⟨S131072x1, .f32⟩
  | 126 => ⟨S131072x1, .f32⟩
  | 127 => ⟨S131072x1, .f32⟩
  | _ => ⟨S131072x128, .f32⟩

abbrev hbmTy0_1 (i : Nat) : BufTy := match i % 128 with
  | 0 => ⟨S131072x128, .f32⟩
  | 1 => ⟨S131072x128, .f32⟩
  | 2 => ⟨S1x128, .f32⟩
  | 3 => ⟨S131072x128, .f32⟩
  | 4 => ⟨S131072x128, .f32⟩
  | 5 => ⟨S1x128, .f32⟩
  | 6 => ⟨S131072x128, .f32⟩
  | 7 => ⟨S131072x128, .f32⟩
  | 8 => ⟨S131072x128, .f32⟩
  | 9 => ⟨S131072x128, .f32⟩
  | 10 => ⟨S_, .f32⟩
  | 11 => ⟨S131072x128, .f32⟩
  | 12 => ⟨S131072x128, .f32⟩
  | 13 => ⟨S_, .f32⟩
  | 14 => ⟨S131072x128, .f32⟩
  | 15 => ⟨S131072x128, .f32⟩
  | 16 => ⟨S_, .f32⟩
  | 17 => ⟨S131072, .f32⟩
  | 18 => ⟨S131072x1, .f32⟩
  | 19 => ⟨S_, .f32⟩
  | 20 => ⟨S131072x1, .f32⟩
  | 21 => ⟨S131072x1, .f32⟩
  | 22 => ⟨S131072x128, .f32⟩
  | 23 => ⟨S131072x128, .f32⟩
  | 24 => ⟨S131072x128, .f32⟩
  | 25 => ⟨S_, .f32⟩
  | 26 => ⟨S131072, .f32⟩
  | 27 => ⟨S131072x1, .f32⟩
  | 28 => ⟨S_, .f32⟩
  | 29 => ⟨S131072x1, .f32⟩
  | 30 => ⟨S131072x1, .f32⟩
  | 31 => ⟨S_, .f32⟩
  | 32 => ⟨S131072x1, .f32⟩
  | 33 => ⟨S131072x1, .f32⟩
  | 34 => ⟨S131072x1, .f32⟩
  | 35 => ⟨S131072x128, .f32⟩
  | 36 => ⟨S131072x128, .f32⟩
  | 37 => ⟨S1x128, .f32⟩
  | 38 => ⟨S131072x128, .f32⟩
  | 39 => ⟨S131072x128, .f32⟩
  | 40 => ⟨S1x128, .f32⟩
  | 41 => ⟨S131072x128, .f32⟩
  | 42 => ⟨S131072x128, .f32⟩
  | 43 => ⟨S131072x128, .f32⟩
  | 44 => ⟨S131072x128, .f32⟩
  | 45 => ⟨S_, .f32⟩
  | 46 => ⟨S131072x128, .f32⟩
  | 47 => ⟨S131072x128, .f32⟩
  | 48 => ⟨S_, .f32⟩
  | 49 => ⟨S131072x128, .f32⟩
  | 50 => ⟨S131072x128, .f32⟩
  | 51 => ⟨S_, .f32⟩
  | 52 => ⟨S131072, .f32⟩
  | 53 => ⟨S131072x1, .f32⟩
  | 54 => ⟨S_, .f32⟩
  | 55 => ⟨S131072x1, .f32⟩
  | 56 => ⟨S131072x1, .f32⟩
  | 57 => ⟨S131072x128, .f32⟩
  | 58 => ⟨S131072x128, .f32⟩
  | 59 => ⟨S131072x128, .f32⟩
  | 60 => ⟨S_, .f32⟩
  | 61 => ⟨S131072, .f32⟩
  | 62 => ⟨S131072x1, .f32⟩
  | 63 => ⟨S_, .f32⟩
  | 64 => ⟨S131072x1, .f32⟩
  | 65 => ⟨S131072x1, .f32⟩
  | 66 => ⟨S_, .f32⟩
  | 67 => ⟨S131072x1, .f32⟩
  | 68 => ⟨S131072x1, .f32⟩
  | 69 => ⟨S131072x1, .f32⟩
  | 70 => ⟨S131072x128, .f32⟩
  | 71 => ⟨S131072x128, .f32⟩
  | 72 => ⟨S1x128, .f32⟩
  | 73 => ⟨S131072x128, .f32⟩
  | 74 => ⟨S131072x128, .f32⟩
  | 75 => ⟨S1x128, .f32⟩
  | 76 => ⟨S131072x128, .f32⟩
  | 77 => ⟨S131072x128, .f32⟩
  | 78 => ⟨S131072x128, .f32⟩
  | 79 => ⟨S131072x128, .f32⟩
  | 80 => ⟨S131072x128, .f32⟩
  | 81 => ⟨S_, .f32⟩
  | 82 => ⟨S131072, .f32⟩
  | 83 => ⟨S131072x1, .f32⟩
  | 84 => ⟨S_, .f32⟩
  | 85 => ⟨S131072x1, .f32⟩
  | 86 => ⟨S131072x1, .f32⟩
  | 87 => ⟨S131072x128, .f32⟩
  | 88 => ⟨S131072x128, .f32⟩
  | 89 => ⟨S131072x128, .f32⟩
  | 90 => ⟨S_, .f32⟩
  | 91 => ⟨S131072, .f32⟩
  | 92 => ⟨S131072x1, .f32⟩
  | 93 => ⟨S_, .f32⟩
  | 94 => ⟨S131072x1, .f32⟩
  | 95 => ⟨S131072x1, .f32⟩
  | 96 => ⟨S_, .f32⟩
  | 97 => ⟨S131072x1, .f32⟩
  | 98 => ⟨S131072x1, .f32⟩
  | 99 => ⟨S131072x1, .f32⟩
  | 100 => ⟨S131072x128, .f32⟩
  | 101 => ⟨S131072x128, .f32⟩
  | 102 => ⟨S1x128, .f32⟩
  | 103 => ⟨S131072x128, .f32⟩
  | 104 => ⟨S131072x128, .f32⟩
  | 105 => ⟨S1x128, .f32⟩
  | 106 => ⟨S131072x128, .f32⟩
  | 107 => ⟨S131072x128, .f32⟩
  | 108 => ⟨S131072x128, .f32⟩
  | 109 => ⟨S131072x128, .f32⟩
  | 110 => ⟨S1x131072x128, .f32⟩
  | 111 => ⟨S1x131072x128, .f32⟩
  | 112 => ⟨S2x131072x128, .f32⟩
  | _ => ⟨S131072x128, .f32⟩

abbrev hbmTy (i : Nat) : BufTy := match i / 128 with
  | 0 => hbmTy0_0 i
  | 1 => hbmTy0_1 i
  | _ => ⟨S131072x128, .f32⟩

abbrev bufTy : (tb : Table) → Fin (tcTables nBuf tb) → BufTy
  | .hbm, ⟨i, _⟩ => hbmTy i
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_1 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_2 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_3 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_4 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_12 : Ref sig .tc := ⟨.hbm, 109, rfl⟩
abbrev main_v75 : Ref sig .tc := ⟨.hbm, 110, rfl⟩
abbrev main_v76 : Ref sig .tc := ⟨.hbm, 111, rfl⟩
abbrev main_cst_13 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_14 : Ref sig .tc := ⟨.hbm, 118, rfl⟩
abbrev main_v82 : Ref sig .tc := ⟨.hbm, 119, rfl⟩
abbrev main_v83 : Ref sig .tc := ⟨.hbm, 120, rfl⟩
abbrev main_cst_15 : Ref sig .tc := ⟨.hbm, 121, rfl⟩
abbrev main_v84 : Ref sig .tc := ⟨.hbm, 122, rfl⟩
abbrev main_v85 : Ref sig .tc := ⟨.hbm, 123, rfl⟩
abbrev main_cst_16 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_17 : Ref sig .tc := ⟨.hbm, 138, rfl⟩
abbrev main_v99 : Ref sig .tc := ⟨.hbm, 139, rfl⟩
abbrev main_v100 : Ref sig .tc := ⟨.hbm, 140, rfl⟩
abbrev main_cst_18 : Ref sig .tc := ⟨.hbm, 141, rfl⟩
abbrev main_v101 : Ref sig .tc := ⟨.hbm, 142, rfl⟩
abbrev main_v102 : Ref sig .tc := ⟨.hbm, 143, rfl⟩
abbrev main_cst_19 : Ref sig .tc := ⟨.hbm, 144, rfl⟩
abbrev main_v103 : Ref sig .tc := ⟨.hbm, 145, rfl⟩
abbrev main_v104 : Ref sig .tc := ⟨.hbm, 146, rfl⟩
abbrev main_cst_20 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_21 : Ref sig .tc := ⟨.hbm, 153, rfl⟩
abbrev main_v110 : Ref sig .tc := ⟨.hbm, 154, rfl⟩
abbrev main_v111 : Ref sig .tc := ⟨.hbm, 155, rfl⟩
abbrev main_cst_22 : Ref sig .tc := ⟨.hbm, 156, rfl⟩
abbrev main_v112 : Ref sig .tc := ⟨.hbm, 157, rfl⟩
abbrev main_v113 : Ref sig .tc := ⟨.hbm, 158, rfl⟩
abbrev main_cst_23 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_24 : Ref sig .tc := ⟨.hbm, 173, rfl⟩
abbrev main_v127 : Ref sig .tc := ⟨.hbm, 174, rfl⟩
abbrev main_v128 : Ref sig .tc := ⟨.hbm, 175, rfl⟩
abbrev main_cst_25 : Ref sig .tc := ⟨.hbm, 176, rfl⟩
abbrev main_v129 : Ref sig .tc := ⟨.hbm, 177, rfl⟩
abbrev main_v130 : Ref sig .tc := ⟨.hbm, 178, rfl⟩
abbrev main_cst_26 : Ref sig .tc := ⟨.hbm, 179, rfl⟩
abbrev main_v131 : Ref sig .tc := ⟨.hbm, 180, rfl⟩
abbrev main_v132 : Ref sig .tc := ⟨.hbm, 181, rfl⟩
abbrev main_cst_27 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_cst_28 : Ref sig .tc := ⟨.hbm, 188, rfl⟩
abbrev main_v138 : Ref sig .tc := ⟨.hbm, 189, rfl⟩
abbrev main_v139 : Ref sig .tc := ⟨.hbm, 190, rfl⟩
abbrev main_cst_29 : Ref sig .tc := ⟨.hbm, 191, rfl⟩
abbrev main_v140 : Ref sig .tc := ⟨.hbm, 192, rfl⟩
abbrev main_v141 : Ref sig .tc := ⟨.hbm, 193, rfl⟩
abbrev main_cst_30 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_cst_31 : Ref sig .tc := ⟨.hbm, 209, rfl⟩
abbrev main_v156 : Ref sig .tc := ⟨.hbm, 210, rfl⟩
abbrev main_v157 : Ref sig .tc := ⟨.hbm, 211, rfl⟩
abbrev main_cst_32 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_cst_33 : Ref sig .tc := ⟨.hbm, 218, rfl⟩
abbrev main_v163 : Ref sig .tc := ⟨.hbm, 219, rfl⟩
abbrev main_v164 : Ref sig .tc := ⟨.hbm, 220, rfl⟩
abbrev main_cst_34 : Ref sig .tc := ⟨.hbm, 221, rfl⟩
abbrev main_v165 : Ref sig .tc := ⟨.hbm, 222, rfl⟩
abbrev main_v166 : Ref sig .tc := ⟨.hbm, 223, rfl⟩
abbrev main_cst_35 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩

abbrev nD : Nat := 1
abbrev τ : Topo := Topo.v7x

variable {F : FTy → Type} [FloatOps F]

class Facts₀ : Prop where
  bcast_S_S131072x4 : S_.BroadcastsInDim S131072x4 (![] : Fin 0 → Fin S131072x4.rank)
  bcast_S131072x4_S131072x4x1_0_1 : S131072x4.BroadcastsInDim S131072x4x1 (![0, 1] : Fin 2 → Fin S131072x4x1.rank)
  bcast_S131072x4x1_S131072x4x128_0_1_2 : S131072x4x1.BroadcastsInDim S131072x4x128 (![0, 1, 2] : Fin 3 → Fin S131072x4x128.rank)
  reducesTo_S131072x4x128_S131072x128_d1 : S131072x4x128.ReducesTo [1] S131072x128
  h_S_ : 0 < S_.numel
  concatenates_S131072x128_S131072x128_S131072x256_d1 : Shape.Concatenates [S131072x128, S131072x128] S131072x256 1
  transposes_S256x256_S256x256_1_0 : S256x256.Transposes [1, 0] S256x256
  shapeCasts_S131072x256_S131072x2x128 : S131072x256.ShapeCasts S131072x2x128
  transposes_S128x128_S128x128_1_0 : S128x128.Transposes [1, 0] S128x128
  bcast_S131072x128_S131072x1x128_0_2 : S131072x128.BroadcastsInDim S131072x1x128 (![0, 2] : Fin 2 → Fin S131072x1x128.rank)
  bcast_S131072x1x128_S131072x2x128_0_1_2 : S131072x1x128.BroadcastsInDim S131072x2x128 (![0, 1, 2] : Fin 3 → Fin S131072x2x128.rank)
  bcast_S1x128_S1x1x128_1_2 : S1x128.BroadcastsInDim S1x1x128 (![1, 2] : Fin 2 → Fin S1x1x128.rank)
  bcast_S1x1x128_S131072x2x128_0_1_2 : S1x1x128.BroadcastsInDim S131072x2x128 (![0, 1, 2] : Fin 3 → Fin S131072x2x128.rank)
  reducesTo_S131072x2x128_S131072x2_d2 : S131072x2x128.ReducesTo [2] S131072x2
  bcast_S131072x2_S131072x2x1_0_1 : S131072x2.BroadcastsInDim S131072x2x1 (![0, 1] : Fin 2 → Fin S131072x2x1.rank)
  bcast_S_S131072x2x1 : S_.BroadcastsInDim S131072x2x1 (![] : Fin 0 → Fin S131072x2x1.rank)
  bcast_S131072x2x1_S131072x2x128_0_1_2 : S131072x2x1.BroadcastsInDim S131072x2x128 (![0, 1, 2] : Fin 3 → Fin S131072x2x128.rank)
  bcast_S128_S1x1x128_2 : S128.BroadcastsInDim S1x1x128 (![2] : Fin 1 → Fin S1x1x128.rank)
  bcast_S_S131072x2x128 : S_.BroadcastsInDim S131072x2x128 (![] : Fin 0 → Fin S131072x2x128.rank)
  concatenates_S131072x1x128_S131072x1x128_S131072x2x128_d1 : Shape.Concatenates [S131072x1x128, S131072x1x128] S131072x2x128 1
  reducesTo_S131072x2x128_S131072x128_d1 : S131072x2x128.ReducesTo [1] S131072x128
  transposes_S384x128_S128x384_1_0 : S384x128.Transposes [1, 0] S128x384
  transposes_S384x256_S256x384_1_0 : S384x256.Transposes [1, 0] S256x384
  bcast_S1x384_S131072x384_0_1 : S1x384.BroadcastsInDim S131072x384 (![0, 1] : Fin 2 → Fin S131072x384.rank)
  slices_S131072x384_S131072x128_0_0 : S131072x384.Slices ![0, 0] S131072x128
  slices_S131072x384_S131072x128_0_128 : S131072x384.Slices ![0, 128] S131072x128
  slices_S131072x384_S131072x128_0_256 : S131072x384.Slices ![0, 256] S131072x128
  reducesTo_S131072x128_S131072_d1 : S131072x128.ReducesTo [1] S131072
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x128_0_1 : S131072x1.BroadcastsInDim S131072x128 (![0, 1] : Fin 2 → Fin S131072x128.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S131072x128_S1x131072x128_1_2 : S131072x128.BroadcastsInDim S1x131072x128 (![1, 2] : Fin 2 → Fin S1x131072x128.rank)
  concatenates_S1x131072x128_S1x131072x128_S2x131072x128_d0 : Shape.Concatenates [S1x131072x128, S1x131072x128] S2x131072x128 0
  dot_S131072x256_S256x256_S131072x256_1_0_0_1_n_n_wf : DotDims.WF S131072x256 S256x256 S131072x256 [1] [0] [0] [1] [] []
  dot_S131072x128_S128x128_S131072x128_1_0_0_1_n_n_wf : DotDims.WF S131072x128 S128x128 S131072x128 [1] [0] [0] [1] [] []
  dot_S131072x128_S128x384_S131072x384_1_0_0_1_n_n_wf : DotDims.WF S131072x128 S128x384 S131072x384 [1] [0] [0] [1] [] []
  dot_S131072x256_S256x384_S131072x384_1_0_0_1_n_n_wf : DotDims.WF S131072x256 S256x384 S131072x384 [1] [0] [0] [1] [] []

variable [Facts₀]

def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def dot_S131072x128_S128x384_S131072x384_1_0_0_1_n_n : DotDims S131072x128 S128x384 S131072x384 where
  lhsContracting := [1]
  rhsContracting := [0]
  lhsNonContracting := [0]
  rhsNonContracting := [1]
  lhsBatch := []
  rhsBatch := []
  wf := dot_S131072x128_S128x384_S131072x384_1_0_0_1_n_n_wf
def dot_S131072x256_S256x384_S131072x384_1_0_0_1_n_n : DotDims S131072x256 S256x384 S131072x384 where
  lhsContracting := [1]
  rhsContracting := [0]
  lhsNonContracting := [0]
  rhsNonContracting := [1]
  lhsBatch := []
  rhsBatch := []
  wf := dot_S131072x256_S256x384_S131072x384_1_0_0_1_n_n_wf

class Facts : Prop extends Facts₀ where

variable [Facts]
-- ==== Proof.Spec.lean ====
/-
  The tree-structured LSTM cell, one node at a time, on the extended reals.

  A node has an embedding row e (128 numbers), four children with hidden rows hc and cell rows cc (128 numbers
  each) and a type word per child. The children are pooled by type: for type t the pooled row is the sum over the
  four children of the child's row times 1 when the child's type is t and 0 otherwise (agg). The two pooled hidden
  rows side by side form a row of 256 numbers (hio). Every projection is a plain sum of products against a weight
  matrix stored [out, in]. A layer normalisation of a row of 128 numbers subtracts the row's mean, divides by the
  square root of the mean square of the centred row plus a small constant, scales by a gain and adds a bias (ln).
  The two forget gates, one per type, are the logistic function of the normalised sum of the embedding's projection,
  the pooled hidden row's projection and a bias; the carried cell is the forget gates times the pooled cell rows,
  added. The input, output and update rows come from one projection of 384 numbers cut in three; the new cell is
  logistic(ln input) * tanh(ln update) + carried cell, and the new hidden row is
  logistic(ln output) * tanh(ln new cell).

  Nothing here mentions a program: the two programs are each shown to compute out, row by row.
-/
import Idealize.ShloMosaic.PureOps.Ideal
import Idealize.ShloMosaic.PureOps.Ideal.Laws
import Idealize.ShloMosaic.Lib.ValueIdx

noncomputable section

namespace Cert.TreeCell

open Idealize.ShloMosaic Idealize.ShloMosaic.ValueIdx

/-- The divisor of a mean over 128 numbers, as the programs spell it. -/
def c128 : EReal := Ideal.ofBits .f32 0x43000000#32
/-- The small constant under the square root, as the programs spell it. -/
def ceps : EReal := Ideal.ofBits .f32 0x3727C5AC#32

/-- The pattern of 1.0 denotes the real 1. -/
theorem ofBits_one32 : Ideal.ofBits .f32 0x3F800000#32 = 1 := by
  simp [Ideal.ofBits, Ideal.ieee, -EReal.coe_mul]; norm_num

/-- A row minus its mean. -/
def ctr (x : Fin 128 → EReal) (q : Fin 128) : EReal := x q - Ideal.div (∑ k : Fin 128, x k) c128

/-- A centred row divided by the root of its mean square plus the small constant, scaled and shifted. -/
def scl (xc g b : Fin 128 → EReal) (q : Fin 128) : EReal :=
  xc q * Ideal.rsqrt (Ideal.div (∑ k : Fin 128, xc k * xc k) c128 + ceps) * g q + b q

/-- Layer normalisation of a row. -/
def ln (x g b : Fin 128 → EReal) (q : Fin 128) : EReal := scl (ctr x) g b q

/-- 1 when the word n equals the word c, else 0. -/
def msk (c n : BitVec 32) : EReal := (((IntOp.cmpi .eq n c).toNat : ℝ) : EReal)

/-- A one-bit word widened to 32 bits and read as a signed integer is the bit read as a natural number. -/
theorem toInt_setWidth_one (b : BitVec 1) : (((b.setWidth 32).toInt : ℝ) : EReal) = ((b.toNat : ℝ) : EReal) := by
  have h : ∀ b : BitVec 1, (b.setWidth 32).toInt = (b.toNat : ℤ) := by decide
  rw [h b]; norm_cast

/-- The weights, each matrix stored [out, in]. -/
structure Wts where
  Wiou : Fin 384 → Fin 128 → EReal
  Uiou : Fin 384 → Fin 256 → EReal
  biou : Fin 384 → EReal
  Wf : Fin 128 → Fin 128 → EReal
  Uf : Fin 256 → Fin 256 → EReal
  bf : Fin 128 → EReal
  gi : Fin 128 → EReal
  bi : Fin 128 → EReal
  go : Fin 128 → EReal
  bo : Fin 128 → EReal
  gu : Fin 128 → EReal
  bu : Fin 128 → EReal
  gnf : Fin 128 → EReal
  bnf : Fin 128 → EReal
  gnc : Fin 128 → EReal
  bnc : Fin 128 → EReal

/-- One node's data: its embedding, its children's hidden and cell rows, and each child's two type indicators. -/
structure Row where
  e : Fin 128 → EReal
  hc : Fin 4 → Fin 128 → EReal
  cc : Fin 4 → Fin 128 → EReal
  w0 : Fin 4 → EReal
  w1 : Fin 4 → EReal

/-- Column q of block s of a row of 256. -/
def off2 (s : Fin 2) (q : Fin 128) : Fin 256 := ⟨s.val * 128 + q.val, by have := s.isLt; have := q.isLt; omega⟩
/-- Column q of block s of a row of 384. -/
def off3 (s : Fin 3) (q : Fin 128) : Fin 384 := ⟨s.val * 128 + q.val, by have := s.isLt; have := q.isLt; omega⟩

/-- Two rows of 128 side by side. -/
def cat (a b : Fin 128 → EReal) (k : Fin 256) : EReal :=
  if h : k.val < 128 then a ⟨k.val, h⟩ else b ⟨k.val - 128, by have := k.isLt; omega⟩

/-- The children's rows pooled with the indicators w. -/
def agg (x : Fin 4 → Fin 128 → EReal) (w : Fin 4 → EReal) (q : Fin 128) : EReal := ∑ k : Fin 4, x k q * w k

/-- The two pooled hidden rows side by side. -/
def hio (r : Row) : Fin 256 → EReal := cat (agg r.hc r.w0) (agg r.hc r.w1)

/-- The forget gate's argument for type s, before normalisation. -/
def pre (W : Wts) (r : Row) (s : Fin 2) (q : Fin 128) : EReal :=
  (∑ k : Fin 128, r.e k * W.Wf q k) + (∑ k : Fin 256, hio r k * W.Uf (off2 s q) k) + W.bf q

/-- The forget gate for type s. -/
def fgate (W : Wts) (r : Row) (s : Fin 2) (q : Fin 128) : EReal := Ideal.logistic (ln (pre W r s) W.gnf W.bnf q)

/-- The cell carried over from the children. -/
def ccell (W : Wts) (r : Row) (q : Fin 128) : EReal :=
  fgate W r 0 q * agg r.cc r.w0 q + fgate W r 1 q * agg r.cc r.w1 q

/-- Block s (input, output, update) of the joint projection, before normalisation. -/
def iou (W : Wts) (r : Row) (s : Fin 3) (q : Fin 128) : EReal :=
  (∑ k : Fin 128, r.e k * W.Wiou (off3 s q) k) + (∑ k : Fin 256, hio r k * W.Uiou (off3 s q) k) + W.biou (off3 s q)

/-- The new cell row. -/
def cnew (W : Wts) (r : Row) (q : Fin 128) : EReal :=
  Ideal.logistic (ln (iou W r 0) W.gi W.bi q) * Ideal.tanh (ln (iou W r 2) W.gu W.bu q) + ccell W r q

/-- The new hidden row. -/
def hnew (W : Wts) (r : Row) (q : Fin 128) : EReal :=
  Ideal.logistic (ln (iou W r 1) W.go W.bo q) * Ideal.tanh (ln (cnew W r) W.gnc W.bnc q)

/-- The result: the hidden row at 0, the cell row at 1. -/
def out (W : Wts) (r : Row) (s : Fin 2) (q : Fin 128) : EReal := if s.val = 0 then hnew W r q else cnew W r q

/-- Row n of arrays of N nodes. -/
def rowOf {N : ℕ} (emb : (⟨2, ![N, 128]⟩ : Shape).Idx → EReal) (hch cch : (⟨3, ![N, 4, 128]⟩ : Shape).Idx → EReal)
    (nty : (⟨2, ![N, 4]⟩ : Shape).Idx → BitVec 32) (n : Fin N) : Row where
  e k := emb (ix2 n k)
  hc k q := hch (ix3 n k q)
  cc k q := cch (ix3 n k q)
  w0 k := msk 0#32 (nty (ix2 n k))
  w1 k := msk 1#32 (nty (ix2 n k))

/-- The weights from the argument arrays. -/
def wtsOf (Wiou : (⟨2, ![384, 128]⟩ : Shape).Idx → EReal) (Uiou : (⟨2, ![384, 256]⟩ : Shape).Idx → EReal)
    (biou : (⟨2, ![1, 384]⟩ : Shape).Idx → EReal) (Wf : (⟨2, ![128, 128]⟩ : Shape).Idx → EReal)
    (Uf : (⟨2, ![256, 256]⟩ : Shape).Idx → EReal) (bf : (⟨2, ![1, 128]⟩ : Shape).Idx → EReal)
    (gi bi go bo gu bu gnf bnf gnc bnc : (⟨1, ![128]⟩ : Shape).Idx → EReal) : Wts where
  Wiou j k := Wiou (ix2 j k)
  Uiou j k := Uiou (ix2 j k)
  biou j := biou (ix2 (0 : Fin 1) j)
  Wf j k := Wf (ix2 j k)
  Uf j k := Uf (ix2 j k)
  bf q := bf (ix2 (0 : Fin 1) q)
  gi q := gi (ix1 q)
  bi q := bi (ix1 q)
  go q := go (ix1 q)
  bo q := bo (ix1 q)
  gu q := gu (ix1 q)
  bu q := bu (ix1 q)
  gnf q := gnf (ix1 q)
  bnf q := bnf (ix1 q)
  gnc q := gnc (ix1 q)
  bnc q := bnc (ix1 q)

/-- The whole result array [2, N, 128] from the argument arrays. -/
def G {N : ℕ} (W : Wts) (emb : (⟨2, ![N, 128]⟩ : Shape).Idx → EReal) (hch cch : (⟨3, ![N, 4, 128]⟩ : Shape).Idx → EReal)
    (nty : (⟨2, ![N, 4]⟩ : Shape).Idx → BitVec 32) : (⟨3, ![2, N, 128]⟩ : Shape).Idx → EReal :=
  fun i => out W (rowOf emb hch cch nty (i 1)) (i 0) (i 2)

/-- The weights as one grid point's body finds them: the two projections of the embedding fused column-wise into a
    [128, 512] matrix stored [in, out] (forget gate first, then input/output/update), the two projections of the pooled
    hidden row fused into a [256, 640] matrix likewise, the biases and the gains as rows. -/
def wtsK (x4 : (⟨2, ![128, 512]⟩ : Shape).Idx → EReal) (x5 : (⟨2, ![256, 640]⟩ : Shape).Idx → EReal)
    (x6 : (⟨2, ![1, 384]⟩ : Shape).Idx → EReal)
    (x7 x8 x9 x10 x11 x12 x13 x14 x15 x16 x17 : (⟨2, ![1, 128]⟩ : Shape).Idx → EReal) : Wts where
  Wiou j k := x4 (ix2 k (⟨128 + j.val, by have := j.isLt; omega⟩ : Fin 512))
  Uiou j k := x5 (ix2 k (⟨256 + j.val, by have := j.isLt; omega⟩ : Fin 640))
  biou j := x6 (ix2 (0 : Fin 1) j)
  Wf j k := x4 (ix2 k (⟨j.val, by have := j.isLt; omega⟩ : Fin 512))
  Uf j k := x5 (ix2 k (⟨j.val, by have := j.isLt; omega⟩ : Fin 640))
  bf q := x7 (ix2 (0 : Fin 1) q)
  gi q := x8 (ix2 (0 : Fin 1) q)
  bi q := x9 (ix2 (0 : Fin 1) q)
  go q := x10 (ix2 (0 : Fin 1) q)
  bo q := x11 (ix2 (0 : Fin 1) q)
  gu q := x12 (ix2 (0 : Fin 1) q)
  bu q := x13 (ix2 (0 : Fin 1) q)
  gnf q := x14 (ix2 (0 : Fin 1) q)
  bnf q := x15 (ix2 (0 : Fin 1) q)
  gnc q := x16 (ix2 (0 : Fin 1) q)
  bnc q := x17 (ix2 (0 : Fin 1) q)

end Cert.TreeCell

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.KBody1.lean ====
import proofs.«150032_j36447092473860_2_alg».proof.Proof.Gen.KernelIdeal.Skeleton
import proofs.«150032_j36447092473860_2_alg».proof.Proof.Spec
import proofs.«150032_j36447092473860_2_alg».proof.Proof.LibColumnLayout
import proofs.«150032_j36447092473860_2_alg».proof.Proof.LibPlainProduct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelSide

open Idealize.ShloMosaic Idealize.ShloMosaic.ValueIdx Cert.KernelIdeal Cert.KernelIdeal.Gen Cert.TreeCell

/-- The scaled, shifted and squashed row: the centred row times the reciprocal root, times the gain, plus the bias. -/
theorem pay26_apply (v110 v112 : FVec Ideal S1x128 .f32) (v118 : FVec Ideal S1024x128 .f32) (v123 : FVec Ideal S1024x1 .f32)
    (cst : Ideal .f32) (p : Fin 1024) (q : Fin 128) :
    k0_pay26 v110 v112 v118 v123 cst (ix2 p q)
      = Ideal.logistic (v118 (ix2 p q) * Ideal.rsqrt (v123 (ix2 p (0 : Fin 1)) + cst) * v110 (ix2 (0 : Fin 1) q) + v112 (ix2 (0 : Fin 1) q)) := by
  unfold k0_pay26
  simp only [logistic, rsqrt, mulf_apply, addf_apply, ColumnLayout.broadcastTo_a1_ab_apply, broadcastTo_1b_ab_apply,
    broadcast_apply, Ideal.logistic_def, Ideal.rsqrt_def]

/-- A lane sum of a [1024, 128] block at row p is the sum of the row. -/
theorem rowsum_apply (x : FVec Ideal S1024x128 .f32) (h : S1024x128.Reduces [1] S1024)
    (hacc : (0x00000000#32 : BitVec 32) = 0x00000000#32) (p : Fin 1024) :
    multiReduction .add [1] S1024 x 0x00000000#32 h (.inl rfl) hacc (ix1 p) = ∑ k : Fin 128, x (ix2 p k) := by
  refine (Ideal.multiReduction_add_single x 0x00000000#32 h (.inl rfl) hacc (ix1 p)).trans ?_
  refine Finset.sum_congr rfl fun k _ => congrArg x ?_
  funext a
  match a with
  | ⟨0, _⟩ => rfl
  | ⟨1, _⟩ => rfl

/-- Columns o … o+m-1 of a matrix: entry (a, j) of the cut is entry (a, o + j) of the source. -/
theorem sliceCols {n0 n1 m : ℕ} (o : ℕ) (hb : o + m ≤ n1) (X : (⟨2, ![n0, n1]⟩ : Shape).Idx → EReal)
    (h : (⟨2, ![n0, n1]⟩ : Shape).Slices ![0, o] ⟨2, ![n0, m]⟩) (a : Fin n0) (j : Fin m) :
    extractStridedSlice ⟨2, ![n0, m]⟩ ![0, o] X h (ix2 a j) = X (ix2 a (⟨o + j.val, by have := j.isLt; omega⟩ : Fin n1)) :=
  slice2_axis1_apply o X h a j _ rfl

/-- Columns 0 … m-1 of a matrix: entry (a, j) of the cut is entry (a, j) of the source. -/
theorem sliceCols0 {n0 n1 m : ℕ} (hb : m ≤ n1) (X : (⟨2, ![n0, n1]⟩ : Shape).Idx → EReal)
    (h : (⟨2, ![n0, n1]⟩ : Shape).Slices ![0, 0] ⟨2, ![n0, m]⟩) (a : Fin n0) (j : Fin m) :
    extractStridedSlice ⟨2, ![n0, m]⟩ ![0, 0] X h (ix2 a j) = X (ix2 a (⟨j.val, by have := j.isLt; omega⟩ : Fin n1)) :=
  slice2_axis1_apply 0 X h a j _ (Nat.zero_add _).symm

theorem slice384_0 (X : FVec Ideal S1024x384 .f32) (h : S1024x384.Slices ![0, 0] S1024x128) (p : Fin 1024) (q : Fin 128) :
    extractStridedSlice S1024x128 ![0, 0] X h (ix2 p q) = X (ix2 p (⟨q.val, by have := q.isLt; omega⟩ : Fin 384)) :=
  sliceCols0 (by omega) X h p q
theorem slice384_128 (X : FVec Ideal S1024x384 .f32) (h : S1024x384.Slices ![0, 128] S1024x128) (p : Fin 1024) (q : Fin 128) :
    extractStridedSlice S1024x128 ![0, 128] X h (ix2 p q) = X (ix2 p (⟨128 + q.val, by have := q.isLt; omega⟩ : Fin 384)) :=
  sliceCols 128 (by omega) X h p q
theorem slice384_256 (X : FVec Ideal S1024x384 .f32) (h : S1024x384.Slices ![0, 256] S1024x128) (p : Fin 1024) (q : Fin 128) :
    extractStridedSlice S1024x128 ![0, 256] X h (ix2 p q) = X (ix2 p (⟨256 + q.val, by have := q.isLt; omega⟩ : Fin 384)) :=
  sliceCols 256 (by omega) X h p q
theorem slice512_0 (X : FVec Ideal S1024x512 .f32) (h : S1024x512.Slices ![0, 0] S1024x128) (p : Fin 1024) (q : Fin 128) :
    extractStridedSlice S1024x128 ![0, 0] X h (ix2 p q) = X (ix2 p (⟨q.val, by have := q.isLt; omega⟩ : Fin 512)) :=
  sliceCols0 (by omega) X h p q
theorem slice512_128 (X : FVec Ideal S1024x512 .f32) (h : S1024x512.Slices ![0, 128] S1024x384) (p : Fin 1024) (q : Fin 384) :
    extractStridedSlice S1024x384 ![0, 128] X h (ix2 p q) = X (ix2 p (⟨128 + q.val, by have := q.isLt; omega⟩ : Fin 512)) :=
  sliceCols 128 (by omega) X h p q
theorem slice640_0 (X : FVec Ideal S1024x640 .f32) (h : S1024x640.Slices ![0, 0] S1024x256) (p : Fin 1024) (q : Fin 256) :
    extractStridedSlice S1024x256 ![0, 0] X h (ix2 p q) = X (ix2 p (⟨q.val, by have := q.isLt; omega⟩ : Fin 640)) :=
  sliceCols0 (by omega) X h p q
theorem slice640_256 (X : FVec Ideal S1024x640 .f32) (h : S1024x640.Slices ![0, 256] S1024x384) (p : Fin 1024) (q : Fin 384) :
    extractStridedSlice S1024x384 ![0, 256] X h (ix2 p q) = X (ix2 p (⟨256 + q.val, by have := q.isLt; omega⟩ : Fin 640)) :=
  sliceCols 256 (by omega) X h p q
theorem slice256_0 (X : FVec Ideal S1024x256 .f32) (h : S1024x256.Slices ![0, 0] S1024x128) (p : Fin 1024) (q : Fin 128) :
    extractStridedSlice S1024x128 ![0, 0] X h (ix2 p q) = X (ix2 p (⟨q.val, by have := q.isLt; omega⟩ : Fin 256)) :=
  sliceCols0 (by omega) X h p q
theorem slice256_128 (X : FVec Ideal S1024x256 .f32) (h : S1024x256.Slices ![0, 128] S1024x128) (p : Fin 1024) (q : Fin 128) :
    extractStridedSlice S1024x128 ![0, 128] X h (ix2 p q) = X (ix2 p (⟨128 + q.val, by have := q.isLt; omega⟩ : Fin 256)) :=
  sliceCols 128 (by omega) X h p q

/-- Read a block expression at an index: push the index through the pointwise operations, the column and row
    broadcasts, the casts and the slices; turn each lane sum into the sum of its row; and once more for a sum nested
    inside a sum. -/
syntax "rows" "[" Lean.Parser.Tactic.simpLemma,* "]" : tactic
macro_rules
  | `(tactic| rows [$ls,*]) => `(tactic| (
      simp only [logistic, rsqrt, tanh, subf_apply, divf_apply, addf_apply, mulf_apply,
        Cert.ColumnLayout.broadcastTo_a1_ab_apply, Cert.ColumnLayout.shapeCast_a_a1_apply, broadcast_apply,
        broadcastTo_1b_ab_apply, shapeCast_self, slice384_0, slice384_128, slice384_256, slice512_0, slice512_128,
        slice640_0, slice640_256, slice256_0, slice256_128, Ideal.logistic_def, Ideal.rsqrt_def, Ideal.tanh_def, $ls,*]
      repeat rw [rowsum_apply]
      try simp only [logistic, rsqrt, tanh, subf_apply, divf_apply, addf_apply, mulf_apply,
        Cert.ColumnLayout.broadcastTo_a1_ab_apply, Cert.ColumnLayout.shapeCast_a_a1_apply, broadcast_apply,
        broadcastTo_1b_ab_apply, shapeCast_self, slice384_0, slice384_128, slice384_256, slice512_0, slice512_128,
        slice640_0, slice640_256, slice256_0, slice256_128, Ideal.logistic_def, Ideal.rsqrt_def, Ideal.tanh_def, $ls,*]
      repeat rw [rowsum_apply]
      try simp only [logistic, rsqrt, tanh, subf_apply, divf_apply, addf_apply, mulf_apply,
        Cert.ColumnLayout.broadcastTo_a1_ab_apply, Cert.ColumnLayout.shapeCast_a_a1_apply, broadcast_apply,
        broadcastTo_1b_ab_apply, shapeCast_self, slice384_0, slice384_128, slice384_256, slice512_0, slice512_128,
        slice640_0, slice640_256, slice256_0, slice256_128, Ideal.logistic_def, Ideal.rsqrt_def, Ideal.tanh_def, $ls,*]))

theorem pay24_apply (v36 v38 : FVec Ideal S1024x384 .f32) (v103 : FVec Ideal S1x384 .f32) (p : Fin 1024) (q : Fin 128) :
    k0_pay24 v36 v38 v103 (ix2 p q)
      = ctr (fun k : Fin 128 => v36 (ix2 p (⟨k.val, by have := k.isLt; omega⟩ : Fin 384)) + v38 (ix2 p (⟨k.val, by have := k.isLt; omega⟩ : Fin 384)) + v103 (ix2 (0 : Fin 1) (⟨k.val, by have := k.isLt; omega⟩ : Fin 384))) q := by
  unfold k0_pay24 k0_pay19
  rows []
  rfl

/-! ## The remaining normalisation payloads -/

/-- The mean square of the centred input row. -/
theorem pay25_apply (v36 v38 : FVec Ideal S1024x384 .f32) (v103 : FVec Ideal S1x384 .f32) (p : Fin 1024) (u : Fin 1) :
    k0_pay25 v36 v38 v103 (ix2 p u)
      = Ideal.div (∑ k : Fin 128, k0_pay24 v36 v38 v103 (ix2 p k) * k0_pay24 v36 v38 v103 (ix2 p k)) c128 := by
  unfold k0_pay25
  rows []
  rfl

theorem pay20_apply (v36 v38 : FVec Ideal S1024x384 .f32) (v103 : FVec Ideal S1x384 .f32) (p : Fin 1024) (q : Fin 128) :
    k0_pay20 v36 v38 v103 (ix2 p q)
      = v36 (ix2 p (⟨128 + q.val, by have := q.isLt; omega⟩ : Fin 384)) + v38 (ix2 p (⟨128 + q.val, by have := q.isLt; omega⟩ : Fin 384)) + v103 (ix2 (0 : Fin 1) (⟨128 + q.val, by have := q.isLt; omega⟩ : Fin 384)) := by
  unfold k0_pay20 k0_pay19
  rows []

theorem pay21_apply (v36 v38 : FVec Ideal S1024x384 .f32) (v103 : FVec Ideal S1x384 .f32) (p : Fin 1024) (q : Fin 128) :
    k0_pay21 v36 v38 v103 (ix2 p q)
      = v36 (ix2 p (⟨256 + q.val, by have := q.isLt; omega⟩ : Fin 384)) + v38 (ix2 p (⟨256 + q.val, by have := q.isLt; omega⟩ : Fin 384)) + v103 (ix2 (0 : Fin 1) (⟨256 + q.val, by have := q.isLt; omega⟩ : Fin 384)) := by
  unfold k0_pay21 k0_pay19
  rows []

/-- The output gate: the logistic function of the normalised row. -/
theorem pay27_apply (v107 : FVec Ideal S1024x128 .f32) (v134 v136 : Vec Ideal S1x128 .f32) (p : Fin 1024) (q : Fin 128) :
    k0_pay27 (F := Ideal) v107 v134 v136 (ix2 p q)
      = Ideal.logistic (ln (fun k => v107 (ix2 p k)) (fun k => v134 (ix2 (0 : Fin 1) k)) (fun k => v136 (ix2 (0 : Fin 1) k)) q) := by
  unfold k0_pay27
  rows []
  rfl

/-- The update row, centred. -/
theorem pay30_apply (v108 : FVec Ideal S1024x128 .f32) (p : Fin 1024) (q : Fin 128) :
    k0_pay30 (F := Ideal) v108 (ix2 p q) = ctr (fun k => v108 (ix2 p k)) q := by
  unfold k0_pay30
  rows []
  rfl

/-- The new cell row from the input gate, the centred update row and the carried cell. -/
theorem pay31_apply (v101 v133 v168 : FVec Ideal S1024x128 .f32) (v160 v162 : FVec Ideal S1x128 .f32) (p : Fin 1024) (q : Fin 128) :
    k0_pay31 (F := Ideal) v101 v133 v160 v162 v168 (ix2 p q)
      = v133 (ix2 p q) * Ideal.tanh (scl (fun k => v168 (ix2 p k)) (fun k => v160 (ix2 (0 : Fin 1) k)) (fun k => v162 (ix2 (0 : Fin 1) k)) q) + v101 (ix2 p q) := by
  unfold k0_pay31
  rows []
  rfl

/-- The new hidden row from the output gate and the new cell row. -/
theorem pay32_apply (v101 v133 v158 v168 : FVec Ideal S1024x128 .f32) (v160 v162 : FVec Ideal S1x128 .f32) (v186 v188 : Vec Ideal S1x128 .f32)
    (p : Fin 1024) (q : Fin 128) :
    k0_pay32 (F := Ideal) v101 v133 v158 v160 v162 v168 v186 v188 (ix2 p q)
      = v158 (ix2 p q) * Ideal.tanh (ln (fun k => k0_pay31 (F := Ideal) v101 v133 v160 v162 v168 (ix2 p k)) (fun k => v186 (ix2 (0 : Fin 1) k)) (fun k => v188 (ix2 (0 : Fin 1) k)) q) := by
  unfold k0_pay32
  rows []
  rfl

/-! ## The forget gates -/

theorem pay11_apply (v34 : FVec Ideal S1024x640 .f32) (p : Fin 1024) (j : Fin 256) :
    k0_pay11 (F := Ideal) v34 (ix2 p j) = v34 (ix2 p (⟨j.val, by have := j.isLt; omega⟩ : Fin 640)) := by
  unfold k0_pay11
  rows []

theorem pay12_apply (v34 : FVec Ideal S1024x640 .f32) (p : Fin 1024) (j : Fin 384) :
    k0_pay12 (F := Ideal) v34 (ix2 p j) = v34 (ix2 p (⟨256 + j.val, by have := j.isLt; omega⟩ : Fin 640)) := by
  unfold k0_pay12
  rows []

/-- The forget gate's argument for type 1. -/
theorem pay13_apply (v34 : FVec Ideal S1024x640 .f32) (v35 : FVec Ideal S1024x128 .f32) (v46 : Vec Ideal S1x128 .f32) (p : Fin 1024) (q : Fin 128) :
    k0_pay13 (F := Ideal) v34 v35 v46 (ix2 p q)
      = v35 (ix2 p q) + v34 (ix2 p (⟨128 + q.val, by have := q.isLt; omega⟩ : Fin 640)) + v46 (ix2 (0 : Fin 1) q) := by
  unfold k0_pay13
  rows [pay11_apply]

/-- The forget gate for type 0. -/
theorem pay14_apply (v34 : FVec Ideal S1024x640 .f32) (v35 : FVec Ideal S1024x128 .f32) (v42 v49 v51 : Vec Ideal S1x128 .f32) (p : Fin 1024) (q : Fin 128) :
    k0_pay14 (F := Ideal) v34 v35 v42 v49 v51 (ix2 p q)
      = Ideal.logistic (ln (fun k : Fin 128 => v35 (ix2 p k) + v34 (ix2 p (⟨k.val, by have := k.isLt; omega⟩ : Fin 640)) + v42 (ix2 (0 : Fin 1) k))
          (fun k => v49 (ix2 (0 : Fin 1) k)) (fun k => v51 (ix2 (0 : Fin 1) k)) q) := by
  unfold k0_pay14
  rows [pay11_apply]
  rfl

/-- The sum of the type-1 forget gate's argument row. -/
theorem pay17_apply (v34 : FVec Ideal S1024x640 .f32) (v35 : FVec Ideal S1024x128 .f32) (v46 : Vec Ideal S1x128 .f32) (p : Fin 1024) :
    k0_pay17 (F := Ideal) v34 v35 v46 (ix1 p) = ∑ k : Fin 128, k0_pay13 (F := Ideal) v34 v35 v46 (ix2 p k) := by
  unfold k0_pay17
  rw [rowsum_apply]

/-- The carried cell: the two forget gates times the two pooled cell rows. -/
theorem pay18_apply (v19 v25 v48 v73 : FVec Ideal S1024x128 .f32) (v75 v77 : FVec Ideal S1x128 .f32) (v78 : FVec Ideal S1024 .f32)
    (p : Fin 1024) (q : Fin 128) :
    k0_pay18 (F := Ideal) v19 v25 v48 v73 v75 v77 v78 (ix2 p q)
      = v73 (ix2 p q) * v19 (ix2 p q)
        + Ideal.logistic (scl (fun k => v48 (ix2 p k) - Ideal.div (v78 (ix1 p)) c128) (fun k => v75 (ix2 (0 : Fin 1) k)) (fun k => v77 (ix2 (0 : Fin 1) k)) q)
          * v25 (ix2 p q) := by
  unfold k0_pay18
  rows []
  rfl

end Cert.KernelSide

end
-- ==== Proof.KBody2.lean ====
import proofs.«150032_j36447092473860_2_alg».proof.Proof.Gen.KernelIdeal.Skeleton
import proofs.«150032_j36447092473860_2_alg».proof.Proof.Spec
import proofs.«150032_j36447092473860_2_alg».proof.Proof.LibColumnLayout
import proofs.«150032_j36447092473860_2_alg».proof.Proof.LibPlainProduct
import proofs.«150032_j36447092473860_2_alg».proof.Proof.KBody1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelSide

open Idealize.ShloMosaic Idealize.ShloMosaic.ValueIdx Cert.KernelIdeal Cert.KernelIdeal.Gen Cert.TreeCell

/-! ## The typed pooling of the children and the two fused products -/

/-- The indicator of child type 0 in a block, at (p, k). -/
theorem pay3_apply (x3 : Vec Ideal S1024x4 .i32) (p : Fin 1024) (k : Fin 4) (u : Fin 1) :
    k0_pay3 (F := Ideal) x3 (ix3 p k u) = msk 0#32 (x3 (ix2 p k)) := by
  unfold k0_pay3
  refine (shapeCast_apply _ _ (ix3 p k u) (ix2 p k) ?_).trans ?_
  · have hu : u.val = 0 := by omega
    rw [Shape.rowMajor_val_two, Shape.rowMajor_val_three]
    show p.val * 4 + k.val = (p.val * 4 + k.val) * 1 + u.val
    omega
  · exact toInt_setWidth_one _

/-- The indicator of child type 1 in a block, at (p, k). -/
theorem pay4_apply (x3 : Vec Ideal S1024x4 .i32) (p : Fin 1024) (k : Fin 4) (u : Fin 1) :
    k0_pay4 (F := Ideal) x3 (ix3 p k u) = msk 1#32 (x3 (ix2 p k)) := by
  unfold k0_pay4
  refine (shapeCast_apply _ _ (ix3 p k u) (ix2 p k) ?_).trans ?_
  · have hu : u.val = 0 := by omega
    rw [Shape.rowMajor_val_two, Shape.rowMajor_val_three]
    show p.val * 4 + k.val = (p.val * 4 + k.val) * 1 + u.val
    omega
  · exact toInt_setWidth_one _

/-- A [1024, 4, 1] array broadcast along the last axis reads, at (p, k, q), its entry (p, k, 0). -/
theorem bcast_child (w : FVec Ideal S1024x4x1 .f32) (h : S1024x4x1.Broadcasts S1024x4x128) (p : Fin 1024) (k : Fin 4) (q : Fin 128) :
    broadcastTo S1024x4x128 w h (ix3 p k q) = w (ix3 p k (0 : Fin 1)) := by
  refine broadcastTo_apply w h (ix3 p k q) (ix3 p k (0 : Fin 1)) fun ax => ?_
  match ax with
  | ⟨0, _⟩ => rfl
  | ⟨1, _⟩ => rfl
  | ⟨2, _⟩ => rfl

/-- The sum over the four children of a [1024, 4, 128] block at (p, q). -/
theorem childsum_apply (x : FVec Ideal S1024x4x128 .f32) (h : S1024x4x128.Reduces [1] S1024x128)
    (hacc : (0x00000000#32 : BitVec 32) = 0x00000000#32) (p : Fin 1024) (q : Fin 128) :
    multiReduction .add [1] S1024x128 x 0x00000000#32 h (.inl rfl) hacc (ix2 p q) = ∑ k : Fin 4, x (ix3 p k q) := by
  refine (Ideal.multiReduction_add_single x 0x00000000#32 h (.inl rfl) hacc (ix2 p q)).trans ?_
  refine Finset.sum_congr rfl fun k _ => congrArg x ?_
  funext a
  match a with
  | ⟨0, _⟩ => rfl
  | ⟨1, _⟩ => rfl
  | ⟨2, _⟩ => rfl

/-- The pooled cell row of type 0. -/
theorem pay5_apply (x0 : Vec Ideal S1024x128 .f32) (x1 x2 : Vec Ideal S1024x4x128 .f32) (x3 : Vec Ideal S1024x4 .i32) (p : Fin 1024) (q : Fin 128) :
    k0_pay5 (F := Ideal) x2 x3 (ix2 p q) = agg (rowOf x0 x1 x2 x3 p).cc (rowOf x0 x1 x2 x3 p).w0 q := by
  unfold k0_pay5
  rw [childsum_apply]
  simp only [mulf_apply, bcast_child, pay3_apply]
  rfl

/-- The pooled cell row of type 1. -/
theorem pay6_apply (x0 : Vec Ideal S1024x128 .f32) (x1 x2 : Vec Ideal S1024x4x128 .f32) (x3 : Vec Ideal S1024x4 .i32) (p : Fin 1024) (q : Fin 128) :
    k0_pay6 (F := Ideal) x2 x3 (ix2 p q) = agg (rowOf x0 x1 x2 x3 p).cc (rowOf x0 x1 x2 x3 p).w1 q := by
  unfold k0_pay6
  rw [childsum_apply]
  simp only [mulf_apply, bcast_child, pay4_apply]
  rfl

/-- Two [1024, 128] blocks side by side, read at (p, k). -/
theorem concat_apply (a b : FVec Ideal S1024x128 .f32) (h : Shape.Concatenates [S1024x128, S1024x128] S1024x256 1) (p : Fin 1024) (k : Fin 256) :
    concatenate S1024x256 1 [⟨S1024x128, a⟩, ⟨S1024x128, b⟩] h (ix2 p k) = cat (fun q => a (ix2 p q)) (fun q => b (ix2 p q)) k := by
  unfold cat
  split
  · next hk =>
    refine concatenate_pair_apply_left (1 : Fin 2) a b h (ix2 p k) rfl (ix2 p ⟨k.val, hk⟩) fun ax => ?_
    match ax with
    | ⟨0, _⟩ => rfl
    | ⟨1, _⟩ => rfl
  · next hk =>
    refine concatenate_pair_apply_right (1 : Fin 2) a b h (ix2 p k) rfl rfl (ix2 p ⟨k.val - 128, by have := k.isLt; omega⟩) (fun ax hne => ?_) ?_
    · match ax with
      | ⟨0, _⟩ => rfl
      | ⟨1, _⟩ => exact absurd rfl hne
    · show (k.val - 128) + 128 = k.val
      omega

/-- The embedding's fused projection at (p, c). -/
theorem pay7_apply (x0 : Vec Ideal S1024x128 .f32) (x4 : Vec Ideal S128x512 .bf16) (p : Fin 1024) (c : Fin 512) :
    k0_pay7 (F := Ideal) x0 x4 (ix2 p c) = ∑ k : Fin 128, x0 (ix2 p k) * x4 (ix2 k c) := by
  unfold k0_pay7
  rw [shapeCast_self]
  exact PlainProduct.matmul_zero_entry dot_S1024x128_S128x512_S1024x512_1_0_0_1_n_n rfl rfl (fun _ _ => rfl) (fun _ _ => rfl) (fun _ _ => rfl) (fun _ _ => rfl) _ _ p c

/-- The pooled hidden row's fused projection at (p, c). -/
theorem pay8_apply (x0 : Vec Ideal S1024x128 .f32) (x1 x2 : Vec Ideal S1024x4x128 .f32) (x3 : Vec Ideal S1024x4 .i32) (x5 : Vec Ideal S256x640 .bf16) (p : Fin 1024) (c : Fin 640) :
    k0_pay8 (F := Ideal) x1 x3 x5 (ix2 p c) = ∑ k : Fin 256, hio (rowOf x0 x1 x2 x3 p) k * x5 (ix2 k c) := by
  unfold k0_pay8
  rw [shapeCast_self]
  refine (PlainProduct.matmul_zero_entry (φ₁ := .bf16) (φ₂ := .bf16) dot_S1024x256_S256x640_S1024x640_1_0_0_1_n_n rfl rfl (fun _ _ => rfl) (fun _ _ => rfl) (fun _ _ => rfl) (fun _ _ => rfl) _ x5 p c).trans ?_
  refine Finset.sum_congr rfl fun k _ => congrArg (· * x5 (ix2 k c)) ?_
  rw [truncf_apply, concat_apply]
  unfold hio
  congr 1
  · funext q
    rw [childsum_apply]
    simp only [mulf_apply, bcast_child, pay3_apply]
    rfl
  · funext q
    rw [childsum_apply]
    simp only [mulf_apply, bcast_child, pay4_apply]
    rfl

end Cert.KernelSide

end
-- ==== Proof.KBody3.lean ====
import proofs.«150032_j36447092473860_2_alg».proof.Proof.Gen.KernelIdeal.Skeleton
import proofs.«150032_j36447092473860_2_alg».proof.Proof.Spec
import proofs.«150032_j36447092473860_2_alg».proof.Proof.LibColumnLayout
import proofs.«150032_j36447092473860_2_alg».proof.Proof.LibPlainProduct
import proofs.«150032_j36447092473860_2_alg».proof.Proof.KBody1
import proofs.«150032_j36447092473860_2_alg».proof.Proof.KBody2
import proofs.«150032_j36447092473860_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelSide

open Idealize.ShloMosaic Idealize.ShloMosaic.ValueIdx Cert.KernelIdeal Cert.KernelIdeal.Gen Cert.TreeCell

/-! ## One grid point's body computes the cell, row by row

The body's stored values are read at a row p of the block and a column q and recognised, stage by stage, as the
specification's functions of row p's data and of the weights as the body finds them. -/

theorem off3_0 (q : Fin 128) : off3 0 q = (⟨q.val, by have := q.isLt; omega⟩ : Fin 384) := Fin.ext (by show 0 * 128 + q.val = q.val; omega)
theorem off3_1 (q : Fin 128) : off3 1 q = (⟨128 + q.val, by have := q.isLt; omega⟩ : Fin 384) := Fin.ext (by show 1 * 128 + q.val = 128 + q.val; omega)
theorem off3_2 (q : Fin 128) : off3 2 q = (⟨256 + q.val, by have := q.isLt; omega⟩ : Fin 384) := Fin.ext (by show 2 * 128 + q.val = 256 + q.val; omega)
theorem off2_0 (q : Fin 128) : off2 0 q = (⟨q.val, by have := q.isLt; omega⟩ : Fin 256) := Fin.ext (by show 0 * 128 + q.val = q.val; omega)
theorem off2_1 (q : Fin 128) : off2 1 q = (⟨128 + q.val, by have := q.isLt; omega⟩ : Fin 256) := Fin.ext (by show 1 * 128 + q.val = 128 + q.val; omega)

section Body

variable (x0 : Vec Ideal S1024x128 .f32) (x1 x2 : Vec Ideal S1024x4x128 .f32) (x3 : Vec Ideal S1024x4 .i32)
  (x4 : Vec Ideal S128x512 .bf16) (x5 : Vec Ideal S256x640 .bf16) (x6 : Vec Ideal S1x384 .f32)
  (x7 x8 x9 x10 x11 x12 x13 x14 x15 x16 x17 : Vec Ideal S1x128 .f32) (p : Fin 1024)

local notation "W" => wtsK x4 x5 x6 x7 x8 x9 x10 x11 x12 x13 x14 x15 x16 x17
local notation "R" => rowOf x0 x1 x2 x3 p

/-- The joint projection before normalisation, at column j of 384. -/
theorem iouK (j : Fin 384) :
    k0_pay10 (F := Ideal) x0 x4 (ix2 p j) + k0_pay12 (F := Ideal) (k0_pay8 (F := Ideal) x1 x3 x5) (ix2 p j) + x6 (ix2 (0 : Fin 1) j)
      = (∑ k : Fin 128, (R).e k * (W).Wiou j k) + (∑ k : Fin 256, hio R k * (W).Uiou j k) + (W).biou j := by
  unfold k0_pay10
  rw [slice512_128, pay7_apply, pay12_apply, pay8_apply x0 x1 x2 x3 x5]
  rfl

/-- The forget gate's argument, at type s and column q. -/
theorem preK (c : Fin 256) (q : Fin 128) :
    k0_pay9 (F := Ideal) x0 x4 (ix2 p q) + k0_pay8 (F := Ideal) x1 x3 x5 (ix2 p (⟨c.val, by have := c.isLt; omega⟩ : Fin 640)) + x7 (ix2 (0 : Fin 1) q)
      = (∑ k : Fin 128, (R).e k * (W).Wf q k) + (∑ k : Fin 256, hio R k * (W).Uf c k) + (W).bf q := by
  unfold k0_pay9
  rw [slice512_0, pay7_apply, pay8_apply x0 x1 x2 x3 x5]
  rfl

local notation "V34" => k0_pay8 (F := Ideal) x1 x3 x5
local notation "V35" => k0_pay9 (F := Ideal) x0 x4
local notation "V36" => k0_pay10 (F := Ideal) x0 x4
local notation "V38" => k0_pay12 (F := Ideal) (k0_pay8 (F := Ideal) x1 x3 x5)

theorem iou0 : (fun k : Fin 128 => V36 (ix2 p (⟨k.val, by have := k.isLt; omega⟩ : Fin 384)) + V38 (ix2 p (⟨k.val, by have := k.isLt; omega⟩ : Fin 384)) + x6 (ix2 (0 : Fin 1) (⟨k.val, by have := k.isLt; omega⟩ : Fin 384))) = iou W R 0 := by
  funext k
  refine (iouK x0 x1 x2 x3 x4 x5 x6 x7 x8 x9 x10 x11 x12 x13 x14 x15 x16 x17 p _).trans ?_
  unfold iou
  rw [off3_0]

theorem iou1 : (fun k : Fin 128 => V36 (ix2 p (⟨128 + k.val, by have := k.isLt; omega⟩ : Fin 384)) + V38 (ix2 p (⟨128 + k.val, by have := k.isLt; omega⟩ : Fin 384)) + x6 (ix2 (0 : Fin 1) (⟨128 + k.val, by have := k.isLt; omega⟩ : Fin 384))) = iou W R 1 := by
  funext k
  refine (iouK x0 x1 x2 x3 x4 x5 x6 x7 x8 x9 x10 x11 x12 x13 x14 x15 x16 x17 p _).trans ?_
  unfold iou
  rw [off3_1]

theorem iou2 : (fun k : Fin 128 => V36 (ix2 p (⟨256 + k.val, by have := k.isLt; omega⟩ : Fin 384)) + V38 (ix2 p (⟨256 + k.val, by have := k.isLt; omega⟩ : Fin 384)) + x6 (ix2 (0 : Fin 1) (⟨256 + k.val, by have := k.isLt; omega⟩ : Fin 384))) = iou W R 2 := by
  funext k
  refine (iouK x0 x1 x2 x3 x4 x5 x6 x7 x8 x9 x10 x11 x12 x13 x14 x15 x16 x17 p _).trans ?_
  unfold iou
  rw [off3_2]

theorem pre0 : (fun k : Fin 128 => V35 (ix2 p k) + V34 (ix2 p (⟨k.val, by have := k.isLt; omega⟩ : Fin 640)) + x7 (ix2 (0 : Fin 1) k)) = pre W R 0 := by
  funext k
  refine (preK x0 x1 x2 x3 x4 x5 x6 x7 x8 x9 x10 x11 x12 x13 x14 x15 x16 x17 p (⟨k.val, by have := k.isLt; omega⟩ : Fin 256) k).trans ?_
  unfold pre
  rw [off2_0]

theorem pre1 (k : Fin 128) : k0_pay13 (F := Ideal) V34 V35 x7 (ix2 p k) = pre W R 1 k := by
  rw [pay13_apply]
  refine (preK x0 x1 x2 x3 x4 x5 x6 x7 x8 x9 x10 x11 x12 x13 x14 x15 x16 x17 p (⟨128 + k.val, by have := k.isLt; omega⟩ : Fin 256) k).trans ?_
  unfold pre
  rw [off2_1]

/-- The input gate. -/
theorem gateI (q : Fin 128) :
    k0_pay26 (F := Ideal) (k0_pay22 (F := Ideal) x8) (k0_pay23 (F := Ideal) x9) (k0_pay24 (F := Ideal) V36 V38 x6) (k0_pay25 (F := Ideal) V36 V38 x6) (Scalar.ofBits .f32 0x3727C5AC#32) (ix2 p q)
      = Ideal.logistic (ln (iou W R 0) (W).gi (W).bi q) := by
  rw [pay26_apply, pay25_apply]
  simp only [pay24_apply]
  rw [iou0 x0 x1 x2 x3 x4 x5 x6 x7 x8 x9 x10 x11 x12 x13 x14 x15 x16 x17 p]
  unfold k0_pay22 k0_pay23
  simp only [shapeCast_self]
  rfl

/-- The output gate. -/
theorem gateO (q : Fin 128) :
    k0_pay27 (F := Ideal) (k0_pay20 (F := Ideal) V36 V38 x6) x10 x11 (ix2 p q) = Ideal.logistic (ln (iou W R 1) (W).go (W).bo q) := by
  rw [pay27_apply]
  simp only [pay20_apply]
  rw [iou1 x0 x1 x2 x3 x4 x5 x6 x7 x8 x9 x10 x11 x12 x13 x14 x15 x16 x17 p]
  rfl

/-- The update row, centred. -/
theorem updC (q : Fin 128) :
    k0_pay30 (F := Ideal) (k0_pay21 (F := Ideal) V36 V38 x6) (ix2 p q) = ctr (iou W R 2) q := by
  rw [pay30_apply]
  simp only [pay21_apply]
  rw [iou2 x0 x1 x2 x3 x4 x5 x6 x7 x8 x9 x10 x11 x12 x13 x14 x15 x16 x17 p]

/-- The carried cell. -/
theorem ccellK (q : Fin 128) :
    k0_pay18 (F := Ideal) (k0_pay5 (F := Ideal) x2 x3) (k0_pay6 (F := Ideal) x2 x3) (k0_pay13 (F := Ideal) V34 V35 x7) (k0_pay14 (F := Ideal) V34 V35 x7 x14 x15)
        (k0_pay15 (F := Ideal) x14) (k0_pay16 (F := Ideal) x15) (k0_pay17 (F := Ideal) V34 V35 x7) (ix2 p q)
      = ccell W R q := by
  rw [pay18_apply, pay5_apply x0 x1 x2 x3, pay6_apply x0 x1 x2 x3, pay14_apply, pay17_apply]
  simp only [pre1 x0 x1 x2 x3 x4 x5 x6 x7 x8 x9 x10 x11 x12 x13 x14 x15 x16 x17 p]
  rw [pre0 x0 x1 x2 x3 x4 x5 x6 x7 x8 x9 x10 x11 x12 x13 x14 x15 x16 x17 p]
  unfold k0_pay15 k0_pay16
  simp only [shapeCast_self]
  rfl

local notation "CC" => k0_pay18 (F := Ideal) (k0_pay5 (F := Ideal) x2 x3) (k0_pay6 (F := Ideal) x2 x3) (k0_pay13 (F := Ideal) V34 V35 x7) (k0_pay14 (F := Ideal) V34 V35 x7 x14 x15) (k0_pay15 (F := Ideal) x14) (k0_pay16 (F := Ideal) x15) (k0_pay17 (F := Ideal) V34 V35 x7)
local notation "GI" => k0_pay26 (F := Ideal) (k0_pay22 (F := Ideal) x8) (k0_pay23 (F := Ideal) x9) (k0_pay24 (F := Ideal) V36 V38 x6) (k0_pay25 (F := Ideal) V36 V38 x6) (Scalar.ofBits FTy.f32 0x3727C5AC#32)
local notation "UC" => k0_pay30 (F := Ideal) (k0_pay21 (F := Ideal) V36 V38 x6)

/-- The new cell row. -/
theorem cnewK (q : Fin 128) :
    k0_pay31 (F := Ideal) CC GI (k0_pay28 (F := Ideal) x12) (k0_pay29 (F := Ideal) x13) UC (ix2 p q) = cnew W R q := by
  rw [pay31_apply, gateI x0 x1 x2 x3 x4 x5 x6 x7 x8 x9 x10 x11 x12 x13 x14 x15 x16 x17 p, ccellK x0 x1 x2 x3 x4 x5 x6 x7 x8 x9 x10 x11 x12 x13 x14 x15 x16 x17 p]
  simp only [updC x0 x1 x2 x3 x4 x5 x6 x7 x8 x9 x10 x11 x12 x13 x14 x15 x16 x17 p]
  unfold k0_pay28 k0_pay29
  simp only [shapeCast_self]
  rfl

/-- The new hidden row. -/
theorem hnewK (q : Fin 128) :
    k0_pay32 (F := Ideal) CC GI (k0_pay27 (F := Ideal) (k0_pay20 (F := Ideal) V36 V38 x6) x10 x11) (k0_pay28 (F := Ideal) x12) (k0_pay29 (F := Ideal) x13) UC x16 x17 (ix2 p q)
      = hnew W R q := by
  rw [pay32_apply, gateO x0 x1 x2 x3 x4 x5 x6 x7 x8 x9 x10 x11 x12 x13 x14 x15 x16 x17 p]
  simp only [cnewK x0 x1 x2 x3 x4 x5 x6 x7 x8 x9 x10 x11 x12 x13 x14 x15 x16 x17 p]
  rfl

end Body

/-! ## The two stores together are the block of the result -/

theorem hz2 : (![0, 0] : Fin 2 → ℕ) = fun _ => 0 := funext fun a => by fin_cases a <;> rfl
theorem hz3 : (![0, 0, 0] : Fin 3 → ℕ) = fun _ => 0 := funext fun a => by fin_cases a <;> rfl

/-- The store of the cell rows goes to the block's second plane. -/
theorem emb_cell (u : Fin 1) (a : Fin 1024) (b : Fin 128) :
    (r0_8).emb (ix3 u a b : S1x1024x128.Idx) = (ix3 (1 : Fin 2) a b : S2x1024x128.Idx) := by
  funext ax
  apply Fin.ext
  have hu : u.val = 0 := by omega
  match ax with
  | ⟨0, _⟩ => show 1 + 1 * u.val = 1; omega
  | ⟨1, _⟩ => show 0 + 1 * a.val = a.val; omega
  | ⟨2, _⟩ => show 0 + 1 * b.val = b.val; omega

/-- The store of the hidden rows goes to the block's first plane. -/
theorem emb_hidden (u : Fin 1) (a : Fin 1024) (b : Fin 128) :
    (r0_7).emb (ix3 u a b : S1x1024x128.Idx) = (ix3 (0 : Fin 2) a b : S2x1024x128.Idx) := by
  funext ax
  apply Fin.ext
  have hu : u.val = 0 := by omega
  match ax with
  | ⟨0, _⟩ => show 0 + 1 * u.val = 0; omega
  | ⟨1, _⟩ => show 0 + 1 * a.val = a.val; omega
  | ⟨2, _⟩ => show 0 + 1 * b.val = b.val; omega

/-- What one grid point's body leaves in the result's block: the cell of every row of the block, the hidden rows in
    the first plane and the cell rows in the second. -/
theorem block_eq (x0 : Vec Ideal S1024x128 .f32) (x1 x2 : Vec Ideal S1024x4x128 .f32) (x3 : Vec Ideal S1024x4 .i32)
    (x4 : Vec Ideal S128x512 .bf16) (x5 : Vec Ideal S256x640 .bf16) (x6 : Vec Ideal S1x384 .f32)
    (x7 x8 x9 x10 x11 x12 x13 x14 x15 x16 x17 : Vec Ideal S1x128 .f32) :
    out0_18 x0 x1 x2 x3 x4 x5 x6 x7 x8 x9 x10 x11 x12 x13 x14 x15 x16 x17
      = G (wtsK x4 x5 x6 x7 x8 x9 x10 x11 x12 x13 x14 x15 x16 x17) x0 x1 x2 x3 := by
  funext y
  unfold out0_18
  refine View.canon_apply_of_pieces (Val := Elt Ideal) (G (wtsK x4 x5 x6 x7 x8 x9 x10 x11 x12 x13 x14 x15 x16 x17) x0 x1 x2 x3) _ ?_ y (cover0_18 _ _ y)
  intro pc hpc x
  simp only [List.mem_cons, List.not_mem_nil, or_false] at hpc
  rcases hpc with rfl | rfl
  · obtain ⟨u, a, b, rfl⟩ : ∃ (u : Fin 1) (a : Fin 1024) (b : Fin 128), x = (ix3 u a b : S1x1024x128.Idx) := ⟨x 0, x 1, x 2, eq_ix3 x⟩
    dsimp only
    rw [emb_cell u a b]
    simp only [View.ld_unit_zero (S := S1024x128) hz2, View.ld_unit_zero (S := S1024x4x128) hz3, View.ld_unit_zero (S := S1024x4) hz2,
      View.ld_unit_zero (S := S128x512) hz2, View.ld_unit_zero (S := S256x640) hz2, View.ld_unit_zero (S := S1x128) hz2,
      View.ld_unit_zero (S := S1x384) hz2]
    unfold k0_pay2
    rw [shapeCast_ab_1ab_apply]
    show _ = out (wtsK x4 x5 x6 x7 x8 x9 x10 x11 x12 x13 x14 x15 x16 x17) (rowOf x0 x1 x2 x3 a) (1 : Fin 2) b
    unfold out
    rw [if_neg (by decide)]
    exact cnewK x0 x1 x2 x3 x4 x5 x6 x7 x8 x9 x10 x11 x12 x13 x14 x15 x16 x17 a b
  · obtain ⟨u, a, b, rfl⟩ : ∃ (u : Fin 1) (a : Fin 1024) (b : Fin 128), x = (ix3 u a b : S1x1024x128.Idx) := ⟨x 0, x 1, x 2, eq_ix3 x⟩
    dsimp only
    rw [emb_hidden u a b]
    simp only [View.ld_unit_zero (S := S1024x128) hz2, View.ld_unit_zero (S := S1024x4x128) hz3, View.ld_unit_zero (S := S1024x4) hz2,
      View.ld_unit_zero (S := S128x512) hz2, View.ld_unit_zero (S := S256x640) hz2, View.ld_unit_zero (S := S1x128) hz2,
      View.ld_unit_zero (S := S1x384) hz2]
    unfold k0_pay1
    rw [shapeCast_ab_1ab_apply]
    show _ = out (wtsK x4 x5 x6 x7 x8 x9 x10 x11 x12 x13 x14 x15 x16 x17) (rowOf x0 x1 x2 x3 a) (0 : Fin 2) b
    unfold out
    rw [if_pos (show ((0 : Fin 2).val = 0) from rfl)]
    exact hnewK x0 x1 x2 x3 x4 x5 x6 x7 x8 x9 x10 x11 x12 x13 x14 x15 x16 x17 a b

end Cert.KernelSide

end
-- ==== Proof.KernelArrBlocks.lean ====
/-
  Each window's block at a grid point, read at an index.

  The kernel runs over 128 grid points. The four node arrays (embeddings, children's hidden rows, children's cell
  rows, type words) are cut into blocks of 1024 rows and point t is given block t: its row p is row 1024 t + p of the
  argument. The fourteen weight arrays are not cut: every point is given the whole array.
-/
import proofs.«150032_j36447092473860_2_alg».proof.Proof.Gen.KernelIdeal.Value
import proofs.«150032_j36447092473860_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelSide

open Idealize.ShloMosaic Idealize.ShloMosaic.TcCoe Idealize.SL.Sem Idealize.ShloMosaic.ValueIdx
open Cert.KernelIdeal Cert.KernelIdeal.Gen Cert.TreeCell
open Idealize.ShloMosaic.Pipeline (Dat)

variable (m : (ℓ : Loc nD τ sig) → Buf (Elt Ideal) ℓ)

/-! ## Where each window's block sits at a grid point -/

/-- The block index of the node arrays' windows and of the result's at every grid point: they move with the point
    along the row axis. -/
theorem idx_moving : ∀ t : Fin cfg0.N,
    (win0_0.index t (0 : Fin 2) = t.val ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 2) = t.val ∧ win0_3.index t (1 : Fin 2) = 0)
    ∧ (win0_18.index t (0 : Fin 3) = 0 ∧ win0_18.index t (1 : Fin 3) = t.val ∧ win0_18.index t (2 : Fin 3) = 0) :=
  (by decide +kernel : ∀ t : Fin grid0.N, _)

/-- The block index of the weight arrays' windows at every grid point: zero on both axes. -/
theorem idx_fixed : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0)
    ∧ (win0_17.index t (0 : Fin 2) = 0 ∧ win0_17.index t (1 : Fin 2) = 0) :=
  (by decide +kernel : ∀ t : Fin grid0.N, _)

/-! ## The node arrays' blocks: rows 1024 t + p of the arguments -/

/-- Row p of the embeddings' block at point t is row 1024 t + p of the embeddings. -/
theorem iblk0_apply (c : Dev nD) (t : Fin cfg0.N) (p : Fin 1024) (q : Fin 128) (h : t.val * 1024 + p.val < 131072) :
    (iblk m c 0 t : Vec Ideal S1024x128 .f32) (ix2 p q)
      = (m ((c : Thread nD τ).loc main_arg0) : S131072x128.Idx → EReal) (ix2 ⟨t.val * 1024 + p.val, h⟩ q) := by
  have hi := (idx_moving t).1
  unfold iblk
  rw [View.read_apply]
  show (V m c main_arg0 : S131072x128.Idx → EReal) _ = _
  rw [V_main_arg0]
  congr 1
  funext a
  apply Fin.ext
  match a with
  | ⟨0, _⟩ => show win0_0.index t (0 : Fin 2) * 1024 + 1 * p.val = t.val * 1024 + p.val; rw [hi.1]; omega
  | ⟨1, _⟩ => show win0_0.index t (1 : Fin 2) * 128 + 1 * q.val = q.val; rw [hi.2]; omega

/-- Row p of the children's hidden rows' block at point t is row 1024 t + p of the argument. -/
theorem iblk1_apply (c : Dev nD) (t : Fin cfg0.N) (p : Fin 1024) (k : Fin 4) (q : Fin 128) (h : t.val * 1024 + p.val < 131072) :
    (iblk m c 1 t : Vec Ideal S1024x4x128 .f32) (ix3 p k q)
      = (m ((c : Thread nD τ).loc main_arg1) : S131072x4x128.Idx → EReal) (ix3 ⟨t.val * 1024 + p.val, h⟩ k q) := by
  have hi := (idx_moving t).2.1
  unfold iblk
  rw [View.read_apply]
  show (V m c main_arg1 : S131072x4x128.Idx → EReal) _ = _
  rw [V_main_arg1]
  congr 1
  funext a
  apply Fin.ext
  match a with
  | ⟨0, _⟩ => show win0_1.index t (0 : Fin 3) * 1024 + 1 * p.val = t.val * 1024 + p.val; rw [hi.1]; omega
  | ⟨1, _⟩ => show win0_1.index t (1 : Fin 3) * 4 + 1 * k.val = k.val; rw [hi.2.1]; omega
  | ⟨2, _⟩ => show win0_1.index t (2 : Fin 3) * 128 + 1 * q.val = q.val; rw [hi.2.2]; omega

/-- Row p of the children's cell rows' block at point t is row 1024 t + p of the argument. -/
theorem iblk2_apply (c : Dev nD) (t : Fin cfg0.N) (p : Fin 1024) (k : Fin 4) (q : Fin 128) (h : t.val * 1024 + p.val < 131072) :
    (iblk m c 2 t : Vec Ideal S1024x4x128 .f32) (ix3 p k q)
      = (m ((c : Thread nD τ).loc main_arg2) : S131072x4x128.Idx → EReal) (ix3 ⟨t.val * 1024 + p.val, h⟩ k q) := by
  have hi := (idx_moving t).2.2.1
  unfold iblk
  rw [View.read_apply]
  show (V m c main_arg2 : S131072x4x128.Idx → EReal) _ = _
  rw [V_main_arg2]
  congr 1
  funext a
  apply Fin.ext
  match a with
  | ⟨0, _⟩ => show win0_2.index t (0 : Fin 3) * 1024 + 1 * p.val = t.val * 1024 + p.val; rw [hi.1]; omega
  | ⟨1, _⟩ => show win0_2.index t (1 : Fin 3) * 4 + 1 * k.val = k.val; rw [hi.2.1]; omega
  | ⟨2, _⟩ => show win0_2.index t (2 : Fin 3) * 128 + 1 * q.val = q.val; rw [hi.2.2]; omega

/-- Row p of the type words' block at point t is row 1024 t + p of the type words. -/
theorem iblk3_apply (c : Dev nD) (t : Fin cfg0.N) (p : Fin 1024) (k : Fin 4) (h : t.val * 1024 + p.val < 131072) :
    (iblk m c 3 t : Vec Ideal S1024x4 .i32) (ix2 p k)
      = (m ((c : Thread nD τ).loc main_arg3) : S131072x4.Idx → BitVec 32) (ix2 ⟨t.val * 1024 + p.val, h⟩ k) := by
  have hi := (idx_moving t).2.2.2.1
  unfold iblk
  rw [View.read_apply]
  show (V m c main_arg3 : S131072x4.Idx → BitVec 32) _ = _
  rw [V_main_arg3]
  congr 1
  funext a
  apply Fin.ext
  match a with
  | ⟨0, _⟩ => show win0_3.index t (0 : Fin 2) * 1024 + 1 * p.val = t.val * 1024 + p.val; rw [hi.1]; omega
  | ⟨1, _⟩ => show win0_3.index t (1 : Fin 2) * 4 + 1 * k.val = k.val; rw [hi.2]; omega

/-! ## The weight arrays' blocks: the whole arrays as the region finds them -/

theorem iblk4_apply (c : Dev nD) (t : Fin cfg0.N) (p : Fin 128) (q : Fin 512) :
    (iblk m c 4 t : Vec Ideal S128x512 .bf16) (ix2 p q) = (V m c main_v8 : S128x512.Idx → EReal) (ix2 p q) := by
  have hi := (idx_fixed t).1
  unfold iblk
  rw [View.read_apply]
  show (V m c main_v8 : S128x512.Idx → EReal) _ = (V m c main_v8 : S128x512.Idx → EReal) _
  congr 1
  funext a
  apply Fin.ext
  match a with
  | ⟨0, _⟩ => show win0_4.index t (0 : Fin 2) * 128 + 1 * p.val = p.val; rw [hi.1]; omega
  | ⟨1, _⟩ => show win0_4.index t (1 : Fin 2) * 512 + 1 * q.val = q.val; rw [hi.2]; omega

theorem iblk5_apply (c : Dev nD) (t : Fin cfg0.N) (p : Fin 256) (q : Fin 640) :
    (iblk m c 5 t : Vec Ideal S256x640 .bf16) (ix2 p q) = (V m c main_v9 : S256x640.Idx → EReal) (ix2 p q) := by
  have hi := (idx_fixed t).2.1
  unfold iblk
  rw [View.read_apply]
  show (V m c main_v9 : S256x640.Idx → EReal) _ = (V m c main_v9 : S256x640.Idx → EReal) _
  congr 1
  funext a
  apply Fin.ext
  match a with
  | ⟨0, _⟩ => show win0_5.index t (0 : Fin 2) * 256 + 1 * p.val = p.val; rw [hi.1]; omega
  | ⟨1, _⟩ => show win0_5.index t (1 : Fin 2) * 640 + 1 * q.val = q.val; rw [hi.2]; omega

theorem iblk6_apply (c : Dev nD) (t : Fin cfg0.N) (p : Fin 1) (q : Fin 384) :
    (iblk m c 6 t : Vec Ideal S1x384 .f32) (ix2 p q) = (V m c main_arg6 : S1x384.Idx → EReal) (ix2 p q) := by
  have hi := (idx_fixed t).2.2.1
  unfold iblk
  rw [View.read_apply]
  show (V m c main_arg6 : S1x384.Idx → EReal) _ = (V m c main_arg6 : S1x384.Idx → EReal) _
  congr 1
  funext a
  apply Fin.ext
  match a with
  | ⟨0, _⟩ => show win0_6.index t (0 : Fin 2) * 1 + 1 * p.val = p.val; rw [hi.1]; omega
  | ⟨1, _⟩ => show win0_6.index t (1 : Fin 2) * 384 + 1 * q.val = q.val; rw [hi.2]; omega

theorem iblk7_apply (c : Dev nD) (t : Fin cfg0.N) (p : Fin 1) (q : Fin 128) :
    (iblk m c 7 t : Vec Ideal S1x128 .f32) (ix2 p q) = (V m c main_arg9 : S1x128.Idx → EReal) (ix2 p q) := by
  have hi := (idx_fixed t).2.2.2.1
  unfold iblk
  rw [View.read_apply]
  show (V m c main_arg9 : S1x128.Idx → EReal) _ = (V m c main_arg9 : S1x128.Idx → EReal) _
  congr 1
  funext a
  apply Fin.ext
  match a with
  | ⟨0, _⟩ => show win0_7.index t (0 : Fin 2) * 1 + 1 * p.val = p.val; rw [hi.1]; omega
  | ⟨1, _⟩ => show win0_7.index t (1 : Fin 2) * 128 + 1 * q.val = q.val; rw [hi.2]; omega

theorem iblk8_apply (c : Dev nD) (t : Fin cfg0.N) (p : Fin 1) (q : Fin 128) :
    (iblk m c 8 t : Vec Ideal S1x128 .f32) (ix2 p q) = (V m c main_v10 : S1x128.Idx → EReal) (ix2 p q) := by
  have hi := (idx_fixed t).2.2.2.2.1
  unfold iblk
  rw [View.read_apply]
  show (V m c main_v10 : S1x128.Idx → EReal) _ = (V m c main_v10 : S1x128.Idx → EReal) _
  congr 1
  funext a
  apply Fin.ext
  match a with
  | ⟨0, _⟩ => show win0_8.index t (0 : Fin 2) * 1 + 1 * p.val = p.val; rw [hi.1]; omega
  | ⟨1, _⟩ => show win0_8.index t (1 : Fin 2) * 128 + 1 * q.val = q.val; rw [hi.2]; omega

theorem iblk9_apply (c : Dev nD) (t : Fin cfg0.N) (p : Fin 1) (q : Fin 128) :
    (iblk m c 9 t : Vec Ideal S1x128 .f32) (ix2 p q) = (V m c main_v11 : S1x128.Idx → EReal) (ix2 p q) := by
  have hi := (idx_fixed t).2.2.2.2.2.1
  unfold iblk
  rw [View.read_apply]
  show (V m c main_v11 : S1x128.Idx → EReal) _ = (V m c main_v11 : S1x128.Idx → EReal) _
  congr 1
  funext a
  apply Fin.ext
  match a with
  | ⟨0, _⟩ => show win0_9.index t (0 : Fin 2) * 1 + 1 * p.val = p.val; rw [hi.1]; omega
  | ⟨1, _⟩ => show win0_9.index t (1 : Fin 2) * 128 + 1 * q.val = q.val; rw [hi.2]; omega

theorem iblk10_apply (c : Dev nD) (t : Fin cfg0.N) (p : Fin 1) (q : Fin 128) :
    (iblk m c 10 t : Vec Ideal S1x128 .f32) (ix2 p q) = (V m c main_v12 : S1x128.Idx → EReal) (ix2 p q) := by
  have hi := (idx_fixed t).2.2.2.2.2.2.1
  unfold iblk
  rw [View.read_apply]
  show (V m c main_v12 : S1x128.Idx → EReal) _ = (V m c main_v12 : S1x128.Idx → EReal) _
  congr 1
  funext a
  apply Fin.ext
  match a with
  | ⟨0, _⟩ => show win0_10.index t (0 : Fin 2) * 1 + 1 * p.val = p.val; rw [hi.1]; omega
  | ⟨1, _⟩ => show win0_10.index t (1 : Fin 2) * 128 + 1 * q.val = q.val; rw [hi.2]; omega

theorem iblk11_apply (c : Dev nD) (t : Fin cfg0.N) (p : Fin 1) (q : Fin 128) :
    (iblk m c 11 t : Vec Ideal S1x128 .f32) (ix2 p q) = (V m c main_v13 : S1x128.Idx → EReal) (ix2 p q) := by
  have hi := (idx_fixed t).2.2.2.2.2.2.2.1
  unfold iblk
  rw [View.read_apply]
  show (V m c main_v13 : S1x128.Idx → EReal) _ = (V m c main_v13 : S1x128.Idx → EReal) _
  congr 1
  funext a
  apply Fin.ext
  match a with
  | ⟨0, _⟩ => show win0_11.index t (0 : Fin 2) * 1 + 1 * p.val = p.val; rw [hi.1]; omega
  | ⟨1, _⟩ => show win0_11.index t (1 : Fin 2) * 128 + 1 * q.val = q.val; rw [hi.2]; omega

theorem iblk12_apply (c : Dev nD) (t : Fin cfg0.N) (p : Fin 1) (q : Fin 128) :
    (iblk m c 12 t : Vec Ideal S1x128 .f32) (ix2 p q) = (V m c main_v14 : S1x128.Idx → EReal) (ix2 p q) := by
  have hi := (idx_fixed t).2.2.2.2.2.2.2.2.1
  unfold iblk
  rw [View.read_apply]
  show (V m c main_v14 : S1x128.Idx → EReal) _ = (V m c main_v14 : S1x128.Idx → EReal) _
  congr 1
  funext a
  apply Fin.ext
  match a with
  | ⟨0, _⟩ => show win0_12.index t (0 : Fin 2) * 1 + 1 * p.val = p.val; rw [hi.1]; omega
  | ⟨1, _⟩ => show win0_12.index t (1 : Fin 2) * 128 + 1 * q.val = q.val; rw [hi.2]; omega

theorem iblk13_apply (c : Dev nD) (t : Fin cfg0.N) (p : Fin 1) (q : Fin 128) :
    (iblk m c 13 t : Vec Ideal S1x128 .f32) (ix2 p q) = (V m c main_v15 : S1x128.Idx → EReal) (ix2 p q) := by
  have hi := (idx_fixed t).2.2.2.2.2.2.2.2.2.1
  unfold iblk
  rw [View.read_apply]
  show (V m c main_v15 : S1x128.Idx → EReal) _ = (V m c main_v15 : S1x128.Idx → EReal) _
  congr 1
  funext a
  apply Fin.ext
  match a with
  | ⟨0, _⟩ => show win0_13.index t (0 : Fin 2) * 1 + 1 * p.val = p.val; rw [hi.1]; omega
  | ⟨1, _⟩ => show win0_13.index t (1 : Fin 2) * 128 + 1 * q.val = q.val; rw [hi.2]; omega

theorem iblk14_apply (c : Dev nD) (t : Fin cfg0.N) (p : Fin 1) (q : Fin 128) :
    (iblk m c 14 t : Vec Ideal S1x128 .f32) (ix2 p q) = (V m c main_v16 : S1x128.Idx → EReal) (ix2 p q) := by
  have hi := (idx_fixed t).2.2.2.2.2.2.2.2.2.2.1
  unfold iblk
  rw [View.read_apply]
  show (V m c main_v16 : S1x128.Idx → EReal) _ = (V m c main_v16 : S1x128.Idx → EReal) _
  congr 1
  funext a
  apply Fin.ext
  match a with
  | ⟨0, _⟩ => show win0_14.index t (0 : Fin 2) * 1 + 1 * p.val = p.val; rw [hi.1]; omega
  | ⟨1, _⟩ => show win0_14.index t (1 : Fin 2) * 128 + 1 * q.val = q.val; rw [hi.2]; omega

theorem iblk15_apply (c : Dev nD) (t : Fin cfg0.N) (p : Fin 1) (q : Fin 128) :
    (iblk m c 15 t : Vec Ideal S1x128 .f32) (ix2 p q) = (V m c main_v17 : S1x128.Idx → EReal) (ix2 p q) := by
  have hi := (idx_fixed t).2.2.2.2.2.2.2.2.2.2.2.1
  unfold iblk
  rw [View.read_apply]
  show (V m c main_v17 : S1x128.Idx → EReal) _ = (V m c main_v17 : S1x128.Idx → EReal) _
  congr 1
  funext a
  apply Fin.ext
  match a with
  | ⟨0, _⟩ => show win0_15.index t (0 : Fin 2) * 1 + 1 * p.val = p.val; rw [hi.1]; omega
  | ⟨1, _⟩ => show win0_15.index t (1 : Fin 2) * 128 + 1 * q.val = q.val; rw [hi.2]; omega

theorem iblk16_apply (c : Dev nD) (t : Fin cfg0.N) (p : Fin 1) (q : Fin 128) :
    (iblk m c 16 t : Vec Ideal S1x128 .f32) (ix2 p q) = (V m c main_v18 : S1x128.Idx → EReal) (ix2 p q) := by
  have hi := (idx_fixed t).2.2.2.2.2.2.2.2.2.2.2.2.1
  unfold iblk
  rw [View.read_apply]
  show (V m c main_v18 : S1x128.Idx → EReal) _ = (V m c main_v18 : S1x128.Idx → EReal) _
  congr 1
  funext a
  apply Fin.ext
  match a with
  | ⟨0, _⟩ => show win0_16.index t (0 : Fin 2) * 1 + 1 * p.val = p.val; rw [hi.1]; omega
  | ⟨1, _⟩ => show win0_16.index t (1 : Fin 2) * 128 + 1 * q.val = q.val; rw [hi.2]; omega

theorem iblk17_apply (c : Dev nD) (t : Fin cfg0.N) (p : Fin 1) (q : Fin 128) :
    (iblk m c 17 t : Vec Ideal S1x128 .f32) (ix2 p q) = (V m c main_v19 : S1x128.Idx → EReal) (ix2 p q) := by
  have hi := (idx_fixed t).2.2.2.2.2.2.2.2.2.2.2.2.2
  unfold iblk
  rw [View.read_apply]
  show (V m c main_v19 : S1x128.Idx → EReal) _ = (V m c main_v19 : S1x128.Idx → EReal) _
  congr 1
  funext a
  apply Fin.ext
  match a with
  | ⟨0, _⟩ => show win0_17.index t (0 : Fin 2) * 1 + 1 * p.val = p.val; rw [hi.1]; omega
  | ⟨1, _⟩ => show win0_17.index t (1 : Fin 2) * 128 + 1 * q.val = q.val; rw [hi.2]; omega

end Cert.KernelSide

end
-- ==== Proof.KernelArrHost.lean ====
/-
  The arrays the host writes before the call, read at an index.

  Before the call the host transposes the four projection matrices (stored [out, in]) to [in, out], converts them to a
  shorter float format (which changes nothing on the extended reals), puts the forget gate's matrix and the joint
  one side by side along the columns, and reshapes each of the ten gain and bias rows from [128] to [1, 128].
-/
import proofs.«150032_j36447092473860_2_alg».proof.Proof.Gen.KernelIdeal.Value
import proofs.«150032_j36447092473860_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelSide

open Idealize.ShloMosaic Idealize.ShloMosaic.TcCoe Idealize.SL.Sem Idealize.ShloMosaic.ValueIdx
open Cert.KernelIdeal Cert.KernelIdeal.Gen Cert.TreeCell
open Idealize.ShloMosaic.Pipeline (Dat)

variable (m : (ℓ : Loc nD τ sig) → Buf (Elt Ideal) ℓ)

/-! ## The arrays the host wrote before the call, read at an index -/

/-- Two matrices side by side: a column below the first one's width reads the first. -/
theorem concat_cols_left {α : Type} {A B1 B2 C : ℕ} (x₁ : (⟨2, ![A, B1]⟩ : Shape).Idx → α) (x₂ : (⟨2, ![A, B2]⟩ : Shape).Idx → α)
    (h : Shape.Concatenates [(⟨2, ![A, B1]⟩ : Shape), ⟨2, ![A, B2]⟩] ⟨2, ![A, C]⟩ (1 : Fin 2)) (p : Fin A) (q : Fin C) (q' : Fin B1)
    (hq : q'.val = q.val) :
    concatenate ⟨2, ![A, C]⟩ (1 : Fin 2) [⟨⟨2, ![A, B1]⟩, x₁⟩, ⟨⟨2, ![A, B2]⟩, x₂⟩] h (ix2 p q) = x₁ (ix2 p q') :=
  concatenate_pair_apply_left (1 : Fin 2) x₁ x₂ h (ix2 p q) rfl (ix2 p q') fun b => match b with
    | ⟨0, _⟩ => rfl
    | ⟨1, _⟩ => hq

/-- Two matrices side by side: a column at or past the first one's width reads the second, the width less. -/
theorem concat_cols_right {α : Type} {A B1 B2 C : ℕ} (x₁ : (⟨2, ![A, B1]⟩ : Shape).Idx → α) (x₂ : (⟨2, ![A, B2]⟩ : Shape).Idx → α)
    (h : Shape.Concatenates [(⟨2, ![A, B1]⟩ : Shape), ⟨2, ![A, B2]⟩] ⟨2, ![A, C]⟩ (1 : Fin 2)) (p : Fin A) (q : Fin C) (q' : Fin B2)
    (hq : q'.val + B1 = q.val) :
    concatenate ⟨2, ![A, C]⟩ (1 : Fin 2) [⟨⟨2, ![A, B1]⟩, x₁⟩, ⟨⟨2, ![A, B2]⟩, x₂⟩] h (ix2 p q) = x₂ (ix2 p q') :=
  concatenate_pair_apply_right (1 : Fin 2) x₁ x₂ h (ix2 p q) rfl rfl (ix2 p q') (fun b => match b with
    | ⟨0, _⟩ => fun _ => rfl
    | ⟨1, _⟩ => fun hne => absurd rfl hne) hq

/-- The fused embedding projections: the forget gate's matrix transposed, then the joint one's transposed. -/
theorem V8_eq (c : Dev nD) : (V m c main_v8 : S128x512.Idx → EReal)
    = concatenate S128x512 1 [⟨S128x128, truncf (F := Ideal) .bf16 (transpose S128x128 [1, 0] (m ((c : Thread nD τ).loc main_arg7)) transposes_S128x128_S128x128_1_0) bitsLt_bf16_f32⟩,
        ⟨S128x384, truncf (F := Ideal) .bf16 (transpose S128x384 [1, 0] (m ((c : Thread nD τ).loc main_arg4)) transposes_S384x128_S128x384_1_0) bitsLt_bf16_f32⟩] concatenates_S128x128_S128x384_S128x512_d1 := by
  dsimp only [Gen.V, Gen.hostOps0]
  after_results

/-- The fused pooled-row projections: the forget gate's matrix transposed, then the joint one's transposed. -/
theorem V9_eq (c : Dev nD) : (V m c main_v9 : S256x640.Idx → EReal)
    = concatenate S256x640 1 [⟨S256x256, truncf (F := Ideal) .bf16 (transpose S256x256 [1, 0] (m ((c : Thread nD τ).loc main_arg8)) transposes_S256x256_S256x256_1_0) bitsLt_bf16_f32⟩,
        ⟨S256x384, truncf (F := Ideal) .bf16 (transpose S256x384 [1, 0] (m ((c : Thread nD τ).loc main_arg5)) transposes_S384x256_S256x384_1_0) bitsLt_bf16_f32⟩] concatenates_S256x256_S256x384_S256x640_d1 := by
  dsimp only [Gen.V, Gen.hostOps0]
  after_results

theorem V10_eq (c : Dev nD) : (V m c main_v10 : S1x128.Idx → EReal)
    = shapeCast S1x128 (m ((c : Thread nD τ).loc main_arg10)) shapeCasts_S128_S1x128 := by
  dsimp only [Gen.V, Gen.hostOps0]
  after_results
  rfl

theorem V11_eq (c : Dev nD) : (V m c main_v11 : S1x128.Idx → EReal)
    = shapeCast S1x128 (m ((c : Thread nD τ).loc main_arg11)) shapeCasts_S128_S1x128 := by
  dsimp only [Gen.V, Gen.hostOps0]
  after_results
  rfl

theorem V12_eq (c : Dev nD) : (V m c main_v12 : S1x128.Idx → EReal)
    = shapeCast S1x128 (m ((c : Thread nD τ).loc main_arg12)) shapeCasts_S128_S1x128 := by
  dsimp only [Gen.V, Gen.hostOps0]
  after_results
  rfl

theorem V13_eq (c : Dev nD) : (V m c main_v13 : S1x128.Idx → EReal)
    = shapeCast S1x128 (m ((c : Thread nD τ).loc main_arg13)) shapeCasts_S128_S1x128 := by
  dsimp only [Gen.V, Gen.hostOps0]
  after_results
  rfl

theorem V14_eq (c : Dev nD) : (V m c main_v14 : S1x128.Idx → EReal)
    = shapeCast S1x128 (m ((c : Thread nD τ).loc main_arg14)) shapeCasts_S128_S1x128 := by
  dsimp only [Gen.V, Gen.hostOps0]
  after_results
  rfl

theorem V15_eq (c : Dev nD) : (V m c main_v15 : S1x128.Idx → EReal)
    = shapeCast S1x128 (m ((c : Thread nD τ).loc main_arg15)) shapeCasts_S128_S1x128 := by
  dsimp only [Gen.V, Gen.hostOps0]
  after_results
  rfl

theorem V16_eq (c : Dev nD) : (V m c main_v16 : S1x128.Idx → EReal)
    = shapeCast S1x128 (m ((c : Thread nD τ).loc main_arg16)) shapeCasts_S128_S1x128 := by
  dsimp only [Gen.V, Gen.hostOps0]
  after_results
  rfl

theorem V17_eq (c : Dev nD) : (V m c main_v17 : S1x128.Idx → EReal)
    = shapeCast S1x128 (m ((c : Thread nD τ).loc main_arg17)) shapeCasts_S128_S1x128 := by
  dsimp only [Gen.V, Gen.hostOps0]
  after_results
  rfl

theorem V18_eq (c : Dev nD) : (V m c main_v18 : S1x128.Idx → EReal)
    = shapeCast S1x128 (m ((c : Thread nD τ).loc main_arg18)) shapeCasts_S128_S1x128 := by
  dsimp only [Gen.V, Gen.hostOps0]
  after_results
  rfl

theorem V19_eq (c : Dev nD) : (V m c main_v19 : S1x128.Idx → EReal)
    = shapeCast S1x128 (m ((c : Thread nD τ).loc main_arg19)) shapeCasts_S128_S1x128 := by
  dsimp only [Gen.V, Gen.hostOps0]
  after_results
  rfl

end Cert.KernelSide

end
-- ==== Proof.KernelArray.lean ====
/-
  The kernel's grid points put together into the whole result array.

  The kernel runs over 128 grid points; point t works on rows 1024 t … 1024 t + 1023 of the node arrays and on the
  whole of every weight array, and writes back rows 1024 t … 1024 t + 1023 of both halves of the result. Given that one
  point's body computes the tree cell on its 1024 rows (BlockEq), the whole result array is the tree cell on all
  131072 rows: the weights each point finds are the argument weights (transposed, fused side by side and reshaped by
  the host before the call, which wtsK undoes), the rows each point finds are the argument rows at 1024 t + p, and the
  points' blocks cover the result.
-/
import proofs.«150032_j36447092473860_2_alg».proof.Proof.Gen.KernelIdeal.Value
import proofs.«150032_j36447092473860_2_alg».proof.Proof.Spec
import proofs.«150032_j36447092473860_2_alg».proof.Proof.KernelArrBlocks
import proofs.«150032_j36447092473860_2_alg».proof.Proof.KernelArrHost
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelSide

open Idealize.ShloMosaic Idealize.ShloMosaic.TcCoe Idealize.SL.Sem Idealize.ShloMosaic.ValueIdx
open Cert.KernelIdeal Cert.KernelIdeal.Gen Cert.TreeCell
open Idealize.ShloMosaic.Pipeline (Dat)

/-- One grid point's body computes the tree cell on its 1024 rows, with the weights as it finds them. -/
abbrev BlockEq : Prop := ∀ (x0 : Vec Ideal S1024x128 .f32) (x1 x2 : Vec Ideal S1024x4x128 .f32) (x3 : Vec Ideal S1024x4 .i32)
    (x4 : Vec Ideal S128x512 .bf16) (x5 : Vec Ideal S256x640 .bf16) (x6 : Vec Ideal S1x384 .f32)
    (x7 x8 x9 x10 x11 x12 x13 x14 x15 x16 x17 : Vec Ideal S1x128 .f32),
    out0_18 x0 x1 x2 x3 x4 x5 x6 x7 x8 x9 x10 x11 x12 x13 x14 x15 x16 x17
      = G (wtsK x4 x5 x6 x7 x8 x9 x10 x11 x12 x13 x14 x15 x16 x17) x0 x1 x2 x3

variable (m : (ℓ : Loc nD τ sig) → Buf (Elt Ideal) ℓ)

/-- The weights from the argument arrays in a memory. -/
abbrev Wm (c : Dev nD) : Wts :=
  wtsOf (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15))
    (m ((c : Thread nD τ).loc main_arg16)) (m ((c : Thread nD τ).loc main_arg17)) (m ((c : Thread nD τ).loc main_arg18))
    (m ((c : Thread nD τ).loc main_arg19))

/-- The whole result array from the argument arrays in a memory. -/
abbrev Gm (c : Dev nD) : S2x131072x128.Idx → EReal :=
  G (Wm m c) (m ((c : Thread nD τ).loc main_arg0)) (m ((c : Thread nD τ).loc main_arg1)) (m ((c : Thread nD τ).loc main_arg2))
    (m ((c : Thread nD τ).loc main_arg3))
/-! ## The weights as a grid point finds them -/

/-- The joint embedding projection, entry (j, k): column 128 + j, row k of the fused matrix. -/
theorem wiou_read (c : Dev nD) (t : Fin cfg0.N) (j : Fin 384) (k : Fin 128) (h : 128 + j.val < 512) :
    (iblk m c 4 t : Vec Ideal S128x512 .bf16) (ix2 k (⟨128 + j.val, h⟩ : Fin 512))
      = (m ((c : Thread nD τ).loc main_arg4) : S384x128.Idx → EReal) (ix2 j k) := by
  rw [iblk4_apply, V8_eq]
  refine (concat_cols_right _ _ _ k (⟨128 + j.val, h⟩ : Fin 512) j (by show j.val + 128 = 128 + j.val; omega)).trans ?_
  show transpose S128x384 [1, 0] (m ((c : Thread nD τ).loc main_arg4)) transposes_S384x128_S128x384_1_0 (ix2 k j) = _
  exact transpose_ix2_apply _ _ k j

/-- The forget gate's embedding projection, entry (j, k): column j, row k of the fused matrix. -/
theorem wf_read (c : Dev nD) (t : Fin cfg0.N) (j : Fin 128) (k : Fin 128) (h : j.val < 512) :
    (iblk m c 4 t : Vec Ideal S128x512 .bf16) (ix2 k (⟨j.val, h⟩ : Fin 512))
      = (m ((c : Thread nD τ).loc main_arg7) : S128x128.Idx → EReal) (ix2 j k) := by
  rw [iblk4_apply, V8_eq]
  refine (concat_cols_left _ _ _ k (⟨j.val, h⟩ : Fin 512) j rfl).trans ?_
  show transpose S128x128 [1, 0] (m ((c : Thread nD τ).loc main_arg7)) transposes_S128x128_S128x128_1_0 (ix2 k j) = _
  exact transpose_ix2_apply _ _ k j

/-- The joint pooled-row projection, entry (j, k): column 256 + j, row k of the fused matrix. -/
theorem uiou_read (c : Dev nD) (t : Fin cfg0.N) (j : Fin 384) (k : Fin 256) (h : 256 + j.val < 640) :
    (iblk m c 5 t : Vec Ideal S256x640 .bf16) (ix2 k (⟨256 + j.val, h⟩ : Fin 640))
      = (m ((c : Thread nD τ).loc main_arg5) : S384x256.Idx → EReal) (ix2 j k) := by
  rw [iblk5_apply, V9_eq]
  refine (concat_cols_right _ _ _ k (⟨256 + j.val, h⟩ : Fin 640) j (by show j.val + 256 = 256 + j.val; omega)).trans ?_
  show transpose S256x384 [1, 0] (m ((c : Thread nD τ).loc main_arg5)) transposes_S384x256_S256x384_1_0 (ix2 k j) = _
  exact transpose_ix2_apply _ _ k j

/-- The forget gate's pooled-row projection, entry (j, k): column j, row k of the fused matrix. -/
theorem uf_read (c : Dev nD) (t : Fin cfg0.N) (j : Fin 256) (k : Fin 256) (h : j.val < 640) :
    (iblk m c 5 t : Vec Ideal S256x640 .bf16) (ix2 k (⟨j.val, h⟩ : Fin 640))
      = (m ((c : Thread nD τ).loc main_arg8) : S256x256.Idx → EReal) (ix2 j k) := by
  rw [iblk5_apply, V9_eq]
  refine (concat_cols_left _ _ _ k (⟨j.val, h⟩ : Fin 640) j rfl).trans ?_
  show transpose S256x256 [1, 0] (m ((c : Thread nD τ).loc main_arg8)) transposes_S256x256_S256x256_1_0 (ix2 k j) = _
  exact transpose_ix2_apply _ _ k j

/-- The joint bias. -/
theorem biou_read (c : Dev nD) (t : Fin cfg0.N) (j : Fin 384) :
    (iblk m c 6 t : Vec Ideal S1x384 .f32) (ix2 (0 : Fin 1) j) = (m ((c : Thread nD τ).loc main_arg6) : S1x384.Idx → EReal) (ix2 (0 : Fin 1) j) := by
  rw [iblk6_apply, V_main_arg6]

/-- The forget gate's bias. -/
theorem bf_read (c : Dev nD) (t : Fin cfg0.N) (q : Fin 128) :
    (iblk m c 7 t : Vec Ideal S1x128 .f32) (ix2 (0 : Fin 1) q) = (m ((c : Thread nD τ).loc main_arg9) : S1x128.Idx → EReal) (ix2 (0 : Fin 1) q) := by
  rw [iblk7_apply, V_main_arg9]

theorem row8_read (c : Dev nD) (t : Fin cfg0.N) (q : Fin 128) :
    (iblk m c 8 t : Vec Ideal S1x128 .f32) (ix2 (0 : Fin 1) q) = (m ((c : Thread nD τ).loc main_arg10) : S128.Idx → EReal) (ix1 q) := by
  rw [iblk8_apply, V10_eq]
  exact shapeCast_a_1a_apply _ _ (0 : Fin 1) q

theorem row9_read (c : Dev nD) (t : Fin cfg0.N) (q : Fin 128) :
    (iblk m c 9 t : Vec Ideal S1x128 .f32) (ix2 (0 : Fin 1) q) = (m ((c : Thread nD τ).loc main_arg11) : S128.Idx → EReal) (ix1 q) := by
  rw [iblk9_apply, V11_eq]
  exact shapeCast_a_1a_apply _ _ (0 : Fin 1) q

theorem row10_read (c : Dev nD) (t : Fin cfg0.N) (q : Fin 128) :
    (iblk m c 10 t : Vec Ideal S1x128 .f32) (ix2 (0 : Fin 1) q) = (m ((c : Thread nD τ).loc main_arg12) : S128.Idx → EReal) (ix1 q) := by
  rw [iblk10_apply, V12_eq]
  exact shapeCast_a_1a_apply _ _ (0 : Fin 1) q

theorem row11_read (c : Dev nD) (t : Fin cfg0.N) (q : Fin 128) :
    (iblk m c 11 t : Vec Ideal S1x128 .f32) (ix2 (0 : Fin 1) q) = (m ((c : Thread nD τ).loc main_arg13) : S128.Idx → EReal) (ix1 q) := by
  rw [iblk11_apply, V13_eq]
  exact shapeCast_a_1a_apply _ _ (0 : Fin 1) q

theorem row12_read (c : Dev nD) (t : Fin cfg0.N) (q : Fin 128) :
    (iblk m c 12 t : Vec Ideal S1x128 .f32) (ix2 (0 : Fin 1) q) = (m ((c : Thread nD τ).loc main_arg14) : S128.Idx → EReal) (ix1 q) := by
  rw [iblk12_apply, V14_eq]
  exact shapeCast_a_1a_apply _ _ (0 : Fin 1) q

theorem row13_read (c : Dev nD) (t : Fin cfg0.N) (q : Fin 128) :
    (iblk m c 13 t : Vec Ideal S1x128 .f32) (ix2 (0 : Fin 1) q) = (m ((c : Thread nD τ).loc main_arg15) : S128.Idx → EReal) (ix1 q) := by
  rw [iblk13_apply, V15_eq]
  exact shapeCast_a_1a_apply _ _ (0 : Fin 1) q

theorem row14_read (c : Dev nD) (t : Fin cfg0.N) (q : Fin 128) :
    (iblk m c 14 t : Vec Ideal S1x128 .f32) (ix2 (0 : Fin 1) q) = (m ((c : Thread nD τ).loc main_arg16) : S128.Idx → EReal) (ix1 q) := by
  rw [iblk14_apply, V16_eq]
  exact shapeCast_a_1a_apply _ _ (0 : Fin 1) q

theorem row15_read (c : Dev nD) (t : Fin cfg0.N) (q : Fin 128) :
    (iblk m c 15 t : Vec Ideal S1x128 .f32) (ix2 (0 : Fin 1) q) = (m ((c : Thread nD τ).loc main_arg17) : S128.Idx → EReal) (ix1 q) := by
  rw [iblk15_apply, V17_eq]
  exact shapeCast_a_1a_apply _ _ (0 : Fin 1) q

theorem row16_read (c : Dev nD) (t : Fin cfg0.N) (q : Fin 128) :
    (iblk m c 16 t : Vec Ideal S1x128 .f32) (ix2 (0 : Fin 1) q) = (m ((c : Thread nD τ).loc main_arg18) : S128.Idx → EReal) (ix1 q) := by
  rw [iblk16_apply, V18_eq]
  exact shapeCast_a_1a_apply _ _ (0 : Fin 1) q

theorem row17_read (c : Dev nD) (t : Fin cfg0.N) (q : Fin 128) :
    (iblk m c 17 t : Vec Ideal S1x128 .f32) (ix2 (0 : Fin 1) q) = (m ((c : Thread nD τ).loc main_arg19) : S128.Idx → EReal) (ix1 q) := by
  rw [iblk17_apply, V19_eq]
  exact shapeCast_a_1a_apply _ _ (0 : Fin 1) q

/-- The weights un-fused from a grid point's blocks are a given weight record as soon as each entry is. -/
theorem wtsK_eq (x4 : Vec Ideal S128x512 .bf16) (x5 : Vec Ideal S256x640 .bf16) (x6 : Vec Ideal S1x384 .f32)
    (x7 x8 x9 x10 x11 x12 x13 x14 x15 x16 x17 : Vec Ideal S1x128 .f32) (W : Wts)
    (h1 : ∀ (j : Fin 384) (k : Fin 128) (h : 128 + j.val < 512), x4 (ix2 k (⟨128 + j.val, h⟩ : Fin 512)) = W.Wiou j k)
    (h2 : ∀ (j : Fin 384) (k : Fin 256) (h : 256 + j.val < 640), x5 (ix2 k (⟨256 + j.val, h⟩ : Fin 640)) = W.Uiou j k)
    (h3 : ∀ j : Fin 384, x6 (ix2 (0 : Fin 1) j) = W.biou j)
    (h4 : ∀ (j : Fin 128) (k : Fin 128) (h : j.val < 512), x4 (ix2 k (⟨j.val, h⟩ : Fin 512)) = W.Wf j k)
    (h5 : ∀ (j : Fin 256) (k : Fin 256) (h : j.val < 640), x5 (ix2 k (⟨j.val, h⟩ : Fin 640)) = W.Uf j k)
    (h6 : ∀ q : Fin 128, x7 (ix2 (0 : Fin 1) q) = W.bf q) (h7 : ∀ q : Fin 128, x8 (ix2 (0 : Fin 1) q) = W.gi q)
    (h8 : ∀ q : Fin 128, x9 (ix2 (0 : Fin 1) q) = W.bi q) (h9 : ∀ q : Fin 128, x10 (ix2 (0 : Fin 1) q) = W.go q)
    (h10 : ∀ q : Fin 128, x11 (ix2 (0 : Fin 1) q) = W.bo q) (h11 : ∀ q : Fin 128, x12 (ix2 (0 : Fin 1) q) = W.gu q)
    (h12 : ∀ q : Fin 128, x13 (ix2 (0 : Fin 1) q) = W.bu q) (h13 : ∀ q : Fin 128, x14 (ix2 (0 : Fin 1) q) = W.gnf q)
    (h14 : ∀ q : Fin 128, x15 (ix2 (0 : Fin 1) q) = W.bnf q) (h15 : ∀ q : Fin 128, x16 (ix2 (0 : Fin 1) q) = W.gnc q)
    (h16 : ∀ q : Fin 128, x17 (ix2 (0 : Fin 1) q) = W.bnc q) :
    wtsK x4 x5 x6 x7 x8 x9 x10 x11 x12 x13 x14 x15 x16 x17 = W := by
  cases W
  unfold wtsK
  simp only [Wts.mk.injEq]
  exact ⟨funext fun j => funext fun k => h1 j k _, funext fun j => funext fun k => h2 j k _, funext h3,
    funext fun j => funext fun k => h4 j k _, funext fun j => funext fun k => h5 j k _, funext h6, funext h7, funext h8, funext h9,
    funext h10, funext h11, funext h12, funext h13, funext h14, funext h15, funext h16⟩

/-- Two node records with the same entries are the same. -/
theorem row_ext (A B : Row) (h1 : ∀ k, A.e k = B.e k) (h2 : ∀ k q, A.hc k q = B.hc k q) (h3 : ∀ k q, A.cc k q = B.cc k q)
    (h4 : ∀ k, A.w0 k = B.w0 k) (h5 : ∀ k, A.w1 k = B.w1 k) : A = B := by
  cases A; cases B
  simp only [Row.mk.injEq]
  exact ⟨funext h1, funext fun k => funext fun q => h2 k q, funext fun k => funext fun q => h3 k q, funext h4, funext h5⟩

/-- THE WEIGHTS AS THE POINTS FIND THEM: at every grid point, un-fusing the blocks of the weight windows gives the
    argument weights. -/
theorem wts_eq (c : Dev nD) (t : Fin cfg0.N) :
    wtsK (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) = Wm m c :=
  wtsK_eq _ _ _ _ _ _ _ _ _ _ _ _ _ _ (Wm m c) (fun j k h => wiou_read m c t j k h) (fun j k h => uiou_read m c t j k h)
    (fun j => biou_read m c t j) (fun j k h => wf_read m c t j k h) (fun j k h => uf_read m c t j k h) (fun q => bf_read m c t q)
    (fun q => row8_read m c t q) (fun q => row9_read m c t q) (fun q => row10_read m c t q) (fun q => row11_read m c t q)
    (fun q => row12_read m c t q) (fun q => row13_read m c t q) (fun q => row14_read m c t q) (fun q => row15_read m c t q)
    (fun q => row16_read m c t q) (fun q => row17_read m c t q)

/-- THE ROWS AS POINT t FINDS THEM: node p of point t's blocks is node 1024 t + p of the arguments. -/
theorem rows_eq (c : Dev nD) (t : Fin cfg0.N) (p : Fin 1024) (h : t.val * 1024 + p.val < 131072) :
    rowOf (N := 1024) (iblk m c 0 t) (iblk m c 1 t) (iblk m c 2 t) (iblk m c 3 t) p
      = rowOf (N := 131072) (m ((c : Thread nD τ).loc main_arg0)) (m ((c : Thread nD τ).loc main_arg1)) (m ((c : Thread nD τ).loc main_arg2)) (m ((c : Thread nD τ).loc main_arg3)) ⟨t.val * 1024 + p.val, h⟩ :=
  row_ext _ _ (fun k => iblk0_apply m c t p k h) (fun k q => iblk1_apply m c t p k q h) (fun k q => iblk2_apply m c t p k q h)
    (fun k => congrArg (msk 0#32) (iblk3_apply m c t p k h)) (fun k => congrArg (msk 1#32) (iblk3_apply m c t p k h))

/-! ## What a point writes back, the cover, the whole array -/

/-- A grid point is one of 128. -/
theorem point_lt (t : Fin cfg0.N) : t.val < 128 := by
  have h := t.isLt
  have hN : cfg0.N = 128 := N_0
  omega

/-- Where the result's block at point t puts its entry (s, p, q): at (s, 1024 t + p, q). -/
theorem emb18 (t : Fin cfg0.N) (s : Fin 2) (p : Fin 1024) (q : Fin 128) (h : t.val * 1024 + p.val < 131072) :
    ((cfg0.win 18).blk t).view.emb (ix3 s p q) = (ix3 s (⟨t.val * 1024 + p.val, h⟩ : Fin 131072) q : S2x131072x128.Idx) := by
  have hi := (idx_moving t).2.2.2.2
  funext a
  apply Fin.ext
  match a with
  | ⟨0, _⟩ => show win0_18.index t (0 : Fin 3) * 2 + 1 * s.val = s.val; rw [hi.1]; omega
  | ⟨1, _⟩ => show win0_18.index t (1 : Fin 3) * 1024 + 1 * p.val = t.val * 1024 + p.val; rw [hi.2.1]; omega
  | ⟨2, _⟩ => show win0_18.index t (2 : Fin 3) * 128 + 1 * q.val = q.val; rw [hi.2.2]; omega

/-- WHAT POINT t WRITES BACK is block t of the tree cell on all the rows. -/
theorem flushed_eq (hb : BlockEq) (c : Dev nD) (t : Fin cfg0.N) :
    (dats m 0 c).flushed 18 t = ((cfg0.win 18).blk t).view.read (Elt Ideal) (Gm m c) := by
  rw [Value.flushed18, hb]
  funext y
  obtain ⟨s, p, q, rfl⟩ : ∃ (s : Fin 2) (p : Fin 1024) (q : Fin 128), y = ix3 s p q :=
    ⟨y 0, y 1, y 2, eq_ix3 (n0 := 2) (n1 := 1024) (n2 := 128) y⟩
  have h : t.val * 1024 + p.val < 131072 := by have := point_lt t; have := p.isLt; omega
  rw [View.read_apply]
  refine Eq.trans ?_ (congrArg (Gm m c) (emb18 t s p q h)).symm
  show out (wtsK (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) (rowOf (N := 1024) (iblk m c 0 t) (iblk m c 1 t) (iblk m c 2 t) (iblk m c 3 t) p) s q
    = out (Wm m c) (rowOf (N := 131072) (m ((c : Thread nD τ).loc main_arg0)) (m ((c : Thread nD τ).loc main_arg1)) (m ((c : Thread nD τ).loc main_arg2)) (m ((c : Thread nD τ).loc main_arg3)) ⟨t.val * 1024 + p.val, h⟩) s q
  rw [wts_eq, rows_eq m c t p h]

/-- An index of the result is in point t's block iff each coordinate is in the block's range on its axis. -/
theorem mem_blk18 (t : Fin cfg0.N) (i : S2x131072x128.Idx) :
    i ∈ ((cfg0.win 18).blk t).view.set ↔ ∀ a : Fin 3, win0_18.index t a * S2x1024x128.size a ≤ (i a).val ∧ (i a).val < win0_18.index t a * S2x1024x128.size a + S2x1024x128.size a := by
  show i ∈ ((View.whole main_v20).slice (win0_18.rect t)).set ↔ _
  rw [View.set_slice_whole, Rect.mem_set_unit]
  exact Iff.rfl

/-- THE COVER: every index of the result lies in the block of the point its row divided by 1024 names. -/
theorem cover (i : S2x131072x128.Idx) : ∃ t : Fin cfg0.N, (cfg0.win 18).flush t = true ∧ i ∈ ((cfg0.win 18).blk t).view.set := by
  have h0 : (i 0).val < 2 := (i 0).isLt
  have h1 : (i 1).val < 131072 := (i 1).isLt
  have h2 : (i 2).val < 128 := (i 2).isLt
  have hN : cfg0.N = 128 := N_0
  let t : Fin cfg0.N := ⟨(i 1).val / 1024, by rw [hN]; omega⟩
  have ht : t.val = (i 1).val / 1024 := rfl
  have hi := (idx_moving t).2.2.2.2
  refine ⟨t, flush0_18 t, ?_⟩
  rw [mem_blk18]
  intro a
  match a with
  | ⟨0, _⟩ => show win0_18.index t (0 : Fin 3) * 2 ≤ (i 0).val ∧ (i 0).val < win0_18.index t (0 : Fin 3) * 2 + 2; rw [hi.1]; omega
  | ⟨1, _⟩ => show win0_18.index t (1 : Fin 3) * 1024 ≤ (i 1).val ∧ (i 1).val < win0_18.index t (1 : Fin 3) * 1024 + 1024; rw [hi.2.1, ht]; omega
  | ⟨2, _⟩ => show win0_18.index t (2 : Fin 3) * 128 ≤ (i 2).val ∧ (i 2).val < win0_18.index t (2 : Fin 3) * 128 + 128; rw [hi.2.2]; omega

/-- THE WHOLE RESULT ARRAY after the run is the tree cell on all the rows. -/
theorem final (hb : BlockEq) (c : Dev nD) : (dats m 0 c).arrAt 18 cfg0.N = Gm m c :=
  (dats m 0 c).arrAt_eq_of_cover 18 (Gm m c) (fun t _ => flushed_eq m hb c t) cover

/-- THE RUN, READ: the result array at the tree cell of the arguments, the arguments unchanged. -/
theorem run (hb : BlockEq) (ρ : Dev nD → PrngReg) : θ_run defs (onTc (τ := τ) (main (F := Ideal))) ⟨m, fun _ => 0, ρ⟩ fun r => ∀ c : Dev nD,
      r.2.mem ((c : Thread nD τ).loc main_v20) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun r h c => ⟨(h c).1.trans (final m hb c), (h c).2⟩) (Value.run_blocks m ρ)

end Cert.KernelSide

end
-- ==== Proof.LibHostLayout.lean ====
/-
  The host's broadcasts of a vector along the rows or along the columns of a matrix, read at an entry.

  A length-a vector placed as an a × 1 column and that column repeated across b columns holds, at (p, c), the vector's
  entry p. A length-b vector placed as a 1 × b row and that row repeated down a rows holds, at (p, c), the vector's
  entry c. These are the forms a per-row quantity (a row maximum, a row sum) and a bias take when they are combined
  with a matrix entry by entry.
-/
import Idealize.ShloMosaic.Lib.Pipeline.Value
import Idealize.ShloMosaic.Lib.ValueIdx

namespace Cert.HostLayout

open Idealize.ShloMosaic Idealize.ShloMosaic.ValueIdx

variable {α : Type}

/-- An `[a]` array broadcast in dimension 0 to `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An `[a, 1]` column broadcast in dimensions (0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` array broadcast in dimension 1 to `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A `[1, b]` row broadcast in dimensions (0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A rank-0 array broadcast to any shape reads, everywhere, its one entry. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

end Cert.HostLayout
-- ==== Proof.LibHostProduct.lean ====
/-
  A plain matrix product computed on the host, read at one entry.

  For a matrix `l` of shape `[M, K]` and a matrix `r` of shape `[K, N]`, contracted over `l`'s second axis and `r`'s first,
  the host's product has no accumulator: its entry `(p, c)` on the extended reals is `∑ k, l[p, k] · r[k, c]`. The
  contraction index has a single axis of extent `K` and is traded for its one coordinate `k`, and the operand indices at
  the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.HostProduct

open Idealize.ShloMosaic Idealize.ShloMosaic.ValueIdx

/-- Entry `(p, c)` of the host's `[M, K]` by `[K, N]` product is `∑ k, l[p, k] · r[k, c]`, for any dimension numbers `D`
    whose contraction has the one axis of extent `K` and whose operand indices read `(p, k)` and `(k, c)`. -/
theorem dotGeneral_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    Host.dotGeneral (F := Ideal) D none l r (ix2 p c) = ∑ k : Fin K, l (ix2 p k) * r (ix2 k c) := by
  show FloatOps.dotGeneral D none .single l r (ix2 p c) = _
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.HostProduct

end
-- ==== Proof.RefLayout.lean ====
/-
  The host's array operations of the tree-structured LSTM cell's reference program, each read at one entry.

  The reference works on whole arrays of N = 131072 nodes. Everything it does to an array is one of a few kinds of
  operation: a sum along one axis, a repetition of an array along a new or a unit axis, a regrouping of a row of 256 as
  two rows of 128, two arrays placed side by side, a block of 128 columns cut out of a row of 384, a product of a row
  with a weight matrix stored [out, in], and the layer normalisation of a row of 128 numbers written out in these
  operations. Each lemma here says what such an operation holds at one entry, in terms of the entries of its operands,
  so that the whole program can afterwards be read row by row.
-/
import proofs.«150032_j36447092473860_2_alg».proof.Proof.Gen.ReferenceIdeal.Run
import proofs.«150032_j36447092473860_2_alg».proof.Proof.Spec
import proofs.«150032_j36447092473860_2_alg».proof.Proof.LibHostLayout
import proofs.«150032_j36447092473860_2_alg».proof.Proof.LibHostProduct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.RefSide

open Idealize.ShloMosaic Idealize.ShloMosaic.ValueIdx Idealize.ShloMosaic.StableHlo Idealize.SL.Sem
open Cert.ReferenceIdeal Cert.ReferenceIdeal.Gen Cert.TreeCell Cert.HostLayout

/-! ## Sums over one axis -/

/-- The host's sum of an [N, 4, 128] array over its middle axis, from zero. -/
theorem sum_mid4 (x : S131072x4x128.Idx → EReal) (n : Fin 131072) (q : Fin 128) :
    Host.reduceAdd (F := Ideal) (φ := .f32) x (constant S_ .f32 0x00000000#32) reducesTo_S131072x4x128_S131072x128_d1 h_S_ (ix2 n q)
      = ∑ k : Fin 4, x (ix3 n k q) := by
  have hR : S131072x4x128.Reduces [1] S131072x128 := by decide
  show Ideal.hostReduceAdd reducesTo_S131072x4x128_S131072x128_d1 x (Ideal.ofBits .f32 0x00000000#32) (ix2 n q) = _
  rw [Ideal.hostReduceAdd_single _ hR x _ (ix2 n q), Ideal.ofBits_zero_f32, zero_add]
  refine Finset.sum_congr rfl fun k _ => congrArg x (funext fun a => Fin.ext ?_)
  match a with
  | ⟨0, _⟩ => rfl
  | ⟨1, _⟩ => rfl
  | ⟨2, _⟩ => rfl

/-- The host's sum of an [N, 2, 128] array over its middle axis, from zero. -/
theorem sum_mid2 (x : S131072x2x128.Idx → EReal) (n : Fin 131072) (q : Fin 128) :
    Host.reduceAdd (F := Ideal) (φ := .f32) x (constant S_ .f32 0x00000000#32) reducesTo_S131072x2x128_S131072x128_d1 h_S_ (ix2 n q)
      = ∑ k : Fin 2, x (ix3 n k q) := by
  have hR : S131072x2x128.Reduces [1] S131072x128 := by decide
  show Ideal.hostReduceAdd reducesTo_S131072x2x128_S131072x128_d1 x (Ideal.ofBits .f32 0x00000000#32) (ix2 n q) = _
  rw [Ideal.hostReduceAdd_single _ hR x _ (ix2 n q), Ideal.ofBits_zero_f32, zero_add]
  refine Finset.sum_congr rfl fun k _ => congrArg x (funext fun a => Fin.ext ?_)
  match a with
  | ⟨0, _⟩ => rfl
  | ⟨1, _⟩ => rfl
  | ⟨2, _⟩ => rfl

/-- The host's sum of an [N, 2, 128] array over its last axis, from zero. -/
theorem sum_last3 (x : S131072x2x128.Idx → EReal) (n : Fin 131072) (s : Fin 2) :
    Host.reduceAdd (F := Ideal) (φ := .f32) x (constant S_ .f32 0x00000000#32) reducesTo_S131072x2x128_S131072x2_d2 h_S_ (ix2 n s)
      = ∑ k : Fin 128, x (ix3 n s k) := by
  have hR : S131072x2x128.Reduces [2] S131072x2 := by decide
  show Ideal.hostReduceAdd reducesTo_S131072x2x128_S131072x2_d2 x (Ideal.ofBits .f32 0x00000000#32) (ix2 n s) = _
  rw [Ideal.hostReduceAdd_single _ hR x _ (ix2 n s), Ideal.ofBits_zero_f32, zero_add]
  refine Finset.sum_congr rfl fun k _ => congrArg x (funext fun a => Fin.ext ?_)
  match a with
  | ⟨0, _⟩ => rfl
  | ⟨1, _⟩ => rfl
  | ⟨2, _⟩ => rfl

/-- The host's sum of an [N, 128] array over its last axis, from zero. -/
theorem sum_last2 (x : S131072x128.Idx → EReal) (n : Fin 131072) :
    Host.reduceAdd (F := Ideal) (φ := .f32) x (constant S_ .f32 0x00000000#32) reducesTo_S131072x128_S131072_d1 h_S_ (ix1 n)
      = ∑ k : Fin 128, x (ix2 n k) := by
  have hR : S131072x128.Reduces [1] S131072 := by decide
  show Ideal.hostReduceAdd reducesTo_S131072x128_S131072_d1 x (Ideal.ofBits .f32 0x00000000#32) (ix1 n) = _
  rw [Ideal.hostReduceAdd_single _ hR x _ (ix1 n), Ideal.ofBits_zero_f32, zero_add]
  refine Finset.sum_congr rfl fun k _ => congrArg x (funext fun a => Fin.ext ?_)
  match a with
  | ⟨0, _⟩ => rfl
  | ⟨1, _⟩ => rfl

/-! ## Broadcasts of rank-3 arrays, read at an entry -/

variable {α : Type}

/-- [N, 4, 1] repeated along the last axis. -/
theorem bc_n41_n4q (x : S131072x4x1.Idx → α) (n : Fin 131072) (k : Fin 4) (q : Fin 128) :
    broadcastInDim S131072x4x128 ![0, 1, 2] bcast_S131072x4x1_S131072x4x128_0_1_2 x (ix3 n k q) = x (ix3 n k (0 : Fin 1)) := by
  refine broadcastInDim_apply _ _ x (ix3 n k q) (ix3 n k (0 : Fin 1)) fun a => ?_
  match a with
  | ⟨0, _⟩ => show n.val = if (131072 : ℕ) = 1 then 0 else n.val; rw [if_neg (by decide)]
  | ⟨1, _⟩ => show k.val = if (4 : ℕ) = 1 then 0 else k.val; rw [if_neg (by decide)]
  | ⟨2, _⟩ => show (0 : ℕ) = if (1 : ℕ) = 1 then 0 else q.val; rw [if_pos rfl]

/-- [N, 2, 1] repeated along the last axis. -/
theorem bc_n21_n2q (x : S131072x2x1.Idx → α) (n : Fin 131072) (s : Fin 2) (q : Fin 128) :
    broadcastInDim S131072x2x128 ![0, 1, 2] bcast_S131072x2x1_S131072x2x128_0_1_2 x (ix3 n s q) = x (ix3 n s (0 : Fin 1)) := by
  refine broadcastInDim_apply _ _ x (ix3 n s q) (ix3 n s (0 : Fin 1)) fun a => ?_
  match a with
  | ⟨0, _⟩ => show n.val = if (131072 : ℕ) = 1 then 0 else n.val; rw [if_neg (by decide)]
  | ⟨1, _⟩ => show s.val = if (2 : ℕ) = 1 then 0 else s.val; rw [if_neg (by decide)]
  | ⟨2, _⟩ => show (0 : ℕ) = if (1 : ℕ) = 1 then 0 else q.val; rw [if_pos rfl]

/-- [N, 2] with a unit last axis appended. -/
theorem bc_n2_n21 (x : S131072x2.Idx → α) (n : Fin 131072) (s : Fin 2) (u : Fin 1) :
    broadcastInDim S131072x2x1 ![0, 1] bcast_S131072x2_S131072x2x1_0_1 x (ix3 n s u) = x (ix2 n s) := by
  refine broadcastInDim_apply _ _ x (ix3 n s u) (ix2 n s) fun a => ?_
  match a with
  | ⟨0, _⟩ => show n.val = if (131072 : ℕ) = 1 then 0 else n.val; rw [if_neg (by decide)]
  | ⟨1, _⟩ => show s.val = if (2 : ℕ) = 1 then 0 else s.val; rw [if_neg (by decide)]

/-- [N, 1, 128] repeated along the middle axis. -/
theorem bc_n1q_n2q (x : S131072x1x128.Idx → α) (n : Fin 131072) (s : Fin 2) (q : Fin 128) :
    broadcastInDim S131072x2x128 ![0, 1, 2] bcast_S131072x1x128_S131072x2x128_0_1_2 x (ix3 n s q) = x (ix3 n (0 : Fin 1) q) := by
  refine broadcastInDim_apply _ _ x (ix3 n s q) (ix3 n (0 : Fin 1) q) fun a => ?_
  match a with
  | ⟨0, _⟩ => show n.val = if (131072 : ℕ) = 1 then 0 else n.val; rw [if_neg (by decide)]
  | ⟨1, _⟩ => show (0 : ℕ) = if (1 : ℕ) = 1 then 0 else s.val; rw [if_pos rfl]
  | ⟨2, _⟩ => show q.val = if (128 : ℕ) = 1 then 0 else q.val; rw [if_neg (by decide)]

/-- [N, 128] with a unit middle axis inserted. -/
theorem bc_nq_n1q (x : S131072x128.Idx → α) (n : Fin 131072) (u : Fin 1) (q : Fin 128) :
    broadcastInDim S131072x1x128 ![0, 2] bcast_S131072x128_S131072x1x128_0_2 x (ix3 n u q) = x (ix2 n q) := by
  refine broadcastInDim_apply _ _ x (ix3 n u q) (ix2 n q) fun a => ?_
  match a with
  | ⟨0, _⟩ => show n.val = if (131072 : ℕ) = 1 then 0 else n.val; rw [if_neg (by decide)]
  | ⟨1, _⟩ => show q.val = if (128 : ℕ) = 1 then 0 else q.val; rw [if_neg (by decide)]

/-- [1, 1, 128] repeated along the first two axes. -/
theorem bc_11q_n2q (x : S1x1x128.Idx → α) (n : Fin 131072) (s : Fin 2) (q : Fin 128) :
    broadcastInDim S131072x2x128 ![0, 1, 2] bcast_S1x1x128_S131072x2x128_0_1_2 x (ix3 n s q) = x (ix3 (0 : Fin 1) (0 : Fin 1) q) := by
  refine broadcastInDim_apply _ _ x (ix3 n s q) (ix3 (0 : Fin 1) (0 : Fin 1) q) fun a => ?_
  match a with
  | ⟨0, _⟩ => show (0 : ℕ) = if (1 : ℕ) = 1 then 0 else n.val; rw [if_pos rfl]
  | ⟨1, _⟩ => show (0 : ℕ) = if (1 : ℕ) = 1 then 0 else s.val; rw [if_pos rfl]
  | ⟨2, _⟩ => show q.val = if (128 : ℕ) = 1 then 0 else q.val; rw [if_neg (by decide)]

/-- [1, 128] with a unit axis put in front. -/
theorem bc_1q_11q (x : S1x128.Idx → α) (u v : Fin 1) (q : Fin 128) :
    broadcastInDim S1x1x128 ![1, 2] bcast_S1x128_S1x1x128_1_2 x (ix3 u v q) = x (ix2 (0 : Fin 1) q) := by
  refine broadcastInDim_apply _ _ x (ix3 u v q) (ix2 (0 : Fin 1) q) fun a => ?_
  match a with
  | ⟨0, _⟩ => show (0 : ℕ) = if (1 : ℕ) = 1 then 0 else v.val; rw [if_pos rfl]
  | ⟨1, _⟩ => show q.val = if (128 : ℕ) = 1 then 0 else q.val; rw [if_neg (by decide)]

/-- [128] with two unit axes put in front. -/
theorem bc_q_11q (x : S128.Idx → α) (u v : Fin 1) (q : Fin 128) :
    broadcastInDim S1x1x128 ![2] bcast_S128_S1x1x128_2 x (ix3 u v q) = x (ix1 q) := by
  refine broadcastInDim_apply _ _ x (ix3 u v q) (ix1 q) fun a => ?_
  match a with
  | ⟨0, _⟩ => show q.val = if (128 : ℕ) = 1 then 0 else q.val; rw [if_neg (by decide)]

/-- [N, 128] with a unit axis put in front. -/
theorem bc_nq_1nq (x : S131072x128.Idx → α) (u : Fin 1) (n : Fin 131072) (q : Fin 128) :
    broadcastInDim S1x131072x128 ![1, 2] bcast_S131072x128_S1x131072x128_1_2 x (ix3 u n q) = x (ix2 n q) := by
  refine broadcastInDim_apply _ _ x (ix3 u n q) (ix2 n q) fun a => ?_
  match a with
  | ⟨0, _⟩ => show n.val = if (131072 : ℕ) = 1 then 0 else n.val; rw [if_neg (by decide)]
  | ⟨1, _⟩ => show q.val = if (128 : ℕ) = 1 then 0 else q.val; rw [if_neg (by decide)]

/-- A row of 256 regrouped as two rows of 128. -/
theorem cast_n256_n2q (x : S131072x256.Idx → α) (n : Fin 131072) (s : Fin 2) (q : Fin 128) :
    shapeCast S131072x2x128 x shapeCasts_S131072x256_S131072x2x128 (ix3 n s q) = x (ix2 n (off2 s q)) :=
  shapeCast_apply x _ _ _ (by
    rw [Shape.rowMajor_val_three, Shape.rowMajor_val_two]
    show n.val * 256 + (s.val * 128 + q.val) = (n.val * 2 + s.val) * 128 + q.val
    omega)

/-! ## Two arrays side by side, read at an entry -/

/-- Two [N, 128] arrays side by side along the columns: a row of the result is the two rows side by side. -/
theorem cat_cols (x₁ x₂ : S131072x128.Idx → EReal) (n : Fin 131072) (k : Fin 256) :
    concatenate S131072x256 1 [⟨S131072x128, x₁⟩, ⟨S131072x128, x₂⟩] concatenates_S131072x128_S131072x128_S131072x256_d1 (ix2 n k)
      = cat (fun q => x₁ (ix2 n q)) (fun q => x₂ (ix2 n q)) k := by
  unfold cat
  split
  · next h =>
    refine concatenate_pair_apply_left (1 : Fin 2) x₁ x₂ _ (ix2 n k) rfl (ix2 n ⟨k.val, h⟩) fun b => ?_
    match b with
    | ⟨0, _⟩ => rfl
    | ⟨1, _⟩ => rfl
  · next h =>
    refine concatenate_pair_apply_right (1 : Fin 2) x₁ x₂ _ (ix2 n k) rfl rfl (ix2 n ⟨k.val - 128, by have := k.isLt; omega⟩) (fun b hb => ?_) ?_
    · match b with
      | ⟨0, _⟩ => rfl
      | ⟨1, _⟩ => exact absurd rfl hb
    · show (k.val - 128) + 128 = k.val
      omega

/-- Two [N, 1, 128] arrays stacked along the middle axis, at the first position. -/
theorem stack_mid_zero (x₁ x₂ : S131072x1x128.Idx → α) (n : Fin 131072) (q : Fin 128) :
    concatenate S131072x2x128 1 [⟨S131072x1x128, x₁⟩, ⟨S131072x1x128, x₂⟩] concatenates_S131072x1x128_S131072x1x128_S131072x2x128_d1 (ix3 n (0 : Fin 2) q)
      = x₁ (ix3 n (0 : Fin 1) q) := by
  refine concatenate_pair_apply_left (1 : Fin 3) x₁ x₂ _ (ix3 n (0 : Fin 2) q) rfl (ix3 n (0 : Fin 1) q) fun b => ?_
  match b with
  | ⟨0, _⟩ => rfl
  | ⟨1, _⟩ => rfl
  | ⟨2, _⟩ => rfl

/-- Two [N, 1, 128] arrays stacked along the middle axis, at the second position. -/
theorem stack_mid_one (x₁ x₂ : S131072x1x128.Idx → α) (n : Fin 131072) (q : Fin 128) :
    concatenate S131072x2x128 1 [⟨S131072x1x128, x₁⟩, ⟨S131072x1x128, x₂⟩] concatenates_S131072x1x128_S131072x1x128_S131072x2x128_d1 (ix3 n (1 : Fin 2) q)
      = x₂ (ix3 n (0 : Fin 1) q) := by
  refine concatenate_pair_apply_right (1 : Fin 3) x₁ x₂ _ (ix3 n (1 : Fin 2) q) rfl rfl (ix3 n (0 : Fin 1) q) (fun b hb => ?_) rfl
  match b with
  | ⟨0, _⟩ => rfl
  | ⟨1, _⟩ => exact absurd rfl hb
  | ⟨2, _⟩ => rfl

/-- Two [1, N, 128] arrays stacked along the first axis, at the first position. -/
theorem stack_front_zero (x₁ x₂ : S1x131072x128.Idx → α) (n : Fin 131072) (q : Fin 128) :
    concatenate S2x131072x128 0 [⟨S1x131072x128, x₁⟩, ⟨S1x131072x128, x₂⟩] concatenates_S1x131072x128_S1x131072x128_S2x131072x128_d0 (ix3 (0 : Fin 2) n q)
      = x₁ (ix3 (0 : Fin 1) n q) := by
  refine concatenate_pair_apply_left (0 : Fin 3) x₁ x₂ _ (ix3 (0 : Fin 2) n q) rfl (ix3 (0 : Fin 1) n q) fun b => ?_
  match b with
  | ⟨0, _⟩ => rfl
  | ⟨1, _⟩ => rfl
  | ⟨2, _⟩ => rfl

/-- Two [1, N, 128] arrays stacked along the first axis, at the second position. -/
theorem stack_front_one (x₁ x₂ : S1x131072x128.Idx → α) (n : Fin 131072) (q : Fin 128) :
    concatenate S2x131072x128 0 [⟨S1x131072x128, x₁⟩, ⟨S1x131072x128, x₂⟩] concatenates_S1x131072x128_S1x131072x128_S2x131072x128_d0 (ix3 (1 : Fin 2) n q)
      = x₂ (ix3 (0 : Fin 1) n q) := by
  refine concatenate_pair_apply_right (0 : Fin 3) x₁ x₂ _ (ix3 (1 : Fin 2) n q) rfl rfl (ix3 (0 : Fin 1) n q) (fun b hb => ?_) rfl
  match b with
  | ⟨0, _⟩ => exact absurd rfl hb
  | ⟨1, _⟩ => rfl
  | ⟨2, _⟩ => rfl

/-! ## The three column blocks of a row of 384 -/

theorem block0 (x : S131072x384.Idx → α) (n : Fin 131072) (q : Fin 128) :
    extractStridedSlice S131072x128 ![0, 0] x slices_S131072x384_S131072x128_0_0 (ix2 n q) = x (ix2 n (off3 0 q)) :=
  slice2_axis1_apply 0 x _ n q (off3 0 q) (by show 0 * 128 + q.val = 0 + q.val; omega)

theorem block1 (x : S131072x384.Idx → α) (n : Fin 131072) (q : Fin 128) :
    extractStridedSlice S131072x128 ![0, 128] x slices_S131072x384_S131072x128_0_128 (ix2 n q) = x (ix2 n (off3 1 q)) :=
  slice2_axis1_apply 128 x _ n q (off3 1 q) (by show 1 * 128 + q.val = 128 + q.val; omega)

theorem block2 (x : S131072x384.Idx → α) (n : Fin 131072) (q : Fin 128) :
    extractStridedSlice S131072x128 ![0, 256] x slices_S131072x384_S131072x128_0_256 (ix2 n q) = x (ix2 n (off3 2 q)) :=
  slice2_axis1_apply 256 x _ n q (off3 2 q) (by show 2 * 128 + q.val = 256 + q.val; omega)

/-! ## The four projections: a row times a weight matrix stored [out, in] -/

theorem proj_e_f (l : S131072x128.Idx → EReal) (W : S128x128.Idx → EReal) (n : Fin 131072) (j : Fin 128) :
    Host.dotGeneral (F := Ideal) (φ₁ := .f32) (φ₂ := .f32) dot_S131072x128_S128x128_S131072x128_1_0_0_1_n_n none l
        (transpose S128x128 [1, 0] W transposes_S128x128_S128x128_1_0) (ix2 n j)
      = ∑ k : Fin 128, l (ix2 n k) * W (ix2 j k) :=
  (Cert.HostProduct.dotGeneral_entry (M := 131072) (K := 128) (N := 128) dot_S131072x128_S128x128_S131072x128_1_0_0_1_n_n rfl rfl
    (fun _ _ => rfl) (fun _ _ => rfl) (fun _ _ => rfl) (fun _ _ => rfl) l _ n j).trans
    (Finset.sum_congr rfl fun k _ => by rw [transpose_ix2_apply])

theorem proj_h_f (l : S131072x256.Idx → EReal) (W : S256x256.Idx → EReal) (n : Fin 131072) (j : Fin 256) :
    Host.dotGeneral (F := Ideal) (φ₁ := .f32) (φ₂ := .f32) dot_S131072x256_S256x256_S131072x256_1_0_0_1_n_n none l
        (transpose S256x256 [1, 0] W transposes_S256x256_S256x256_1_0) (ix2 n j)
      = ∑ k : Fin 256, l (ix2 n k) * W (ix2 j k) :=
  (Cert.HostProduct.dotGeneral_entry (M := 131072) (K := 256) (N := 256) dot_S131072x256_S256x256_S131072x256_1_0_0_1_n_n rfl rfl
    (fun _ _ => rfl) (fun _ _ => rfl) (fun _ _ => rfl) (fun _ _ => rfl) l _ n j).trans
    (Finset.sum_congr rfl fun k _ => by rw [transpose_ix2_apply])

theorem proj_e_iou (l : S131072x128.Idx → EReal) (W : S384x128.Idx → EReal) (n : Fin 131072) (j : Fin 384) :
    Host.dotGeneral (F := Ideal) (φ₁ := .f32) (φ₂ := .f32) dot_S131072x128_S128x384_S131072x384_1_0_0_1_n_n none l
        (transpose S128x384 [1, 0] W transposes_S384x128_S128x384_1_0) (ix2 n j)
      = ∑ k : Fin 128, l (ix2 n k) * W (ix2 j k) :=
  (Cert.HostProduct.dotGeneral_entry (M := 131072) (K := 128) (N := 384) dot_S131072x128_S128x384_S131072x384_1_0_0_1_n_n rfl rfl
    (fun _ _ => rfl) (fun _ _ => rfl) (fun _ _ => rfl) (fun _ _ => rfl) l _ n j).trans
    (Finset.sum_congr rfl fun k _ => by rw [transpose_ix2_apply])

theorem proj_h_iou (l : S131072x256.Idx → EReal) (W : S384x256.Idx → EReal) (n : Fin 131072) (j : Fin 384) :
    Host.dotGeneral (F := Ideal) (φ₁ := .f32) (φ₂ := .f32) dot_S131072x256_S256x384_S131072x384_1_0_0_1_n_n none l
        (transpose S256x384 [1, 0] W transposes_S384x256_S256x384_1_0) (ix2 n j)
      = ∑ k : Fin 256, l (ix2 n k) * W (ix2 j k) :=
  (Cert.HostProduct.dotGeneral_entry (M := 131072) (K := 256) (N := 384) dot_S131072x256_S256x384_S131072x384_1_0_0_1_n_n rfl rfl
    (fun _ _ => rfl) (fun _ _ => rfl) (fun _ _ => rfl) (fun _ _ => rfl) l _ n j).trans
    (Finset.sum_congr rfl fun k _ => by rw [transpose_ix2_apply])

/-! ## The logistic function as the programs spell it -/

/-- 1 / (1 + exp (−y)), with the ones spelt as the pattern of 1.0 repeated over the shape. -/
theorem logistic_spelt {t : Shape} (h : S_.BroadcastsInDim t (![] : Fin 0 → Fin t.rank)) (y : FVec Ideal t .f32) (i : t.Idx) :
    Host.divf (F := Ideal) (φ := .f32) (broadcastInDim t ![] h (constant S_ .f32 0x3F800000#32))
        (addf (broadcastInDim t ![] h (constant S_ .f32 0x3F800000#32)) (Host.exp (Host.negf y))) i
      = Ideal.logistic (y i) := by
  show Ideal.div (broadcastInDim t ![] h (constant (F := Ideal) S_ .f32 0x3F800000#32) i)
      (broadcastInDim t ![] h (constant (F := Ideal) S_ .f32 0x3F800000#32) i + Ideal.exp (-(y i))) = _
  rw [broadcastInDim_scalar_apply]
  show Ideal.div (Ideal.ofBits .f32 0x3F800000#32) (Ideal.ofBits .f32 0x3F800000#32 + Ideal.exp (-(y i))) = _
  rw [ofBits_one32]
  rfl

/-! ## Layer normalisation of the rows of an [N, 128] array -/

/-- A row minus its mean. -/
theorem centre2 (x : FVec Ideal S131072x128 .f32) (n : Fin 131072) (q : Fin 128) :
    subf x (broadcastInDim S131072x128 ![0, 1] bcast_S131072x1_S131072x128_0_1
        (Host.divf (broadcastInDim S131072x1 ![0] bcast_S131072_S131072x1_0
            (Host.reduceAdd x (constant S_ .f32 0x00000000#32) reducesTo_S131072x128_S131072_d1 h_S_))
          (broadcastInDim S131072x1 ![] bcast_S_S131072x1 (constant S_ .f32 0x43000000#32)))) (ix2 n q)
      = ctr (fun k => x (ix2 n k)) q := by
  show x (ix2 n q) - _ = _
  rw [broadcastInDim_a1_ab_apply]
  show x (ix2 n q) - Ideal.div
      (broadcastInDim S131072x1 ![0] bcast_S131072_S131072x1_0
        (Host.reduceAdd x (constant S_ .f32 0x00000000#32) reducesTo_S131072x128_S131072_d1 h_S_) (ix2 n (0 : Fin 1)))
      (broadcastInDim S131072x1 ![] bcast_S_S131072x1 (constant (F := Ideal) S_ .f32 0x43000000#32) (ix2 n (0 : Fin 1))) = _
  rw [broadcastInDim_a_a1_apply, broadcastInDim_scalar_apply, sum_last2]
  rfl

/-- A centred row divided by the root of its mean square plus the small constant, scaled by a gain and shifted by a bias. -/
theorem scale2 (xc : FVec Ideal S131072x128 .f32) (g b : FVec Ideal S128 .f32) (n : Fin 131072) (q : Fin 128) :
    addf (mulf (mulf xc (broadcastInDim S131072x128 ![0, 1] bcast_S131072x1_S131072x128_0_1
        (Host.rsqrt (addf (Host.divf (broadcastInDim S131072x1 ![0] bcast_S131072_S131072x1_0
              (Host.reduceAdd (mulf xc xc) (constant S_ .f32 0x00000000#32) reducesTo_S131072x128_S131072_d1 h_S_))
            (broadcastInDim S131072x1 ![] bcast_S_S131072x1 (constant S_ .f32 0x43000000#32)))
          (broadcastInDim S131072x1 ![] bcast_S_S131072x1 (constant S_ .f32 0x3727C5AC#32))))))
        (broadcastInDim S131072x128 ![0, 1] bcast_S1x128_S131072x128_0_1 (broadcastInDim S1x128 ![1] bcast_S128_S1x128_1 g)))
      (broadcastInDim S131072x128 ![0, 1] bcast_S1x128_S131072x128_0_1 (broadcastInDim S1x128 ![1] bcast_S128_S1x128_1 b)) (ix2 n q)
      = scl (fun k => xc (ix2 n k)) (fun k => g (ix1 k)) (fun k => b (ix1 k)) q := by
  show xc (ix2 n q) * _ * _ + _ = _
  rw [broadcastInDim_a1_ab_apply, broadcastInDim_1b_ab_apply, broadcastInDim_1b_ab_apply, broadcastInDim_b_1b_apply,
    broadcastInDim_b_1b_apply]
  show xc (ix2 n q) * Ideal.rsqrt (Ideal.div
        (broadcastInDim S131072x1 ![0] bcast_S131072_S131072x1_0
          (Host.reduceAdd (mulf xc xc) (constant S_ .f32 0x00000000#32) reducesTo_S131072x128_S131072_d1 h_S_) (ix2 n (0 : Fin 1)))
        (broadcastInDim S131072x1 ![] bcast_S_S131072x1 (constant (F := Ideal) S_ .f32 0x43000000#32) (ix2 n (0 : Fin 1)))
      + broadcastInDim S131072x1 ![] bcast_S_S131072x1 (constant (F := Ideal) S_ .f32 0x3727C5AC#32) (ix2 n (0 : Fin 1)))
      * g (ix1 q) + b (ix1 q) = _
  rw [broadcastInDim_a_a1_apply, broadcastInDim_scalar_apply, broadcastInDim_scalar_apply, sum_last2]
  rfl

/-! ## Layer normalisation of the rows of an [N, 2, 128] array -/

/-- A row minus its mean. -/
theorem centre3 (x : FVec Ideal S131072x2x128 .f32) (n : Fin 131072) (s : Fin 2) (q : Fin 128) :
    subf x (broadcastInDim S131072x2x128 ![0, 1, 2] bcast_S131072x2x1_S131072x2x128_0_1_2
        (Host.divf (broadcastInDim S131072x2x1 ![0, 1] bcast_S131072x2_S131072x2x1_0_1
            (Host.reduceAdd x (constant S_ .f32 0x00000000#32) reducesTo_S131072x2x128_S131072x2_d2 h_S_))
          (broadcastInDim S131072x2x1 ![] bcast_S_S131072x2x1 (constant S_ .f32 0x43000000#32)))) (ix3 n s q)
      = ctr (fun k => x (ix3 n s k)) q := by
  show x (ix3 n s q) - _ = _
  rw [bc_n21_n2q]
  show x (ix3 n s q) - Ideal.div
      (broadcastInDim S131072x2x1 ![0, 1] bcast_S131072x2_S131072x2x1_0_1
        (Host.reduceAdd x (constant S_ .f32 0x00000000#32) reducesTo_S131072x2x128_S131072x2_d2 h_S_) (ix3 n s (0 : Fin 1)))
      (broadcastInDim S131072x2x1 ![] bcast_S_S131072x2x1 (constant (F := Ideal) S_ .f32 0x43000000#32) (ix3 n s (0 : Fin 1))) = _
  rw [bc_n2_n21, broadcastInDim_scalar_apply, sum_last3]
  rfl

/-- A centred row divided by the root of its mean square plus the small constant, scaled by a gain and shifted by a bias. -/
theorem scale3 (xc : FVec Ideal S131072x2x128 .f32) (g b : FVec Ideal S128 .f32) (n : Fin 131072) (s : Fin 2) (q : Fin 128) :
    addf (mulf (mulf xc (broadcastInDim S131072x2x128 ![0, 1, 2] bcast_S131072x2x1_S131072x2x128_0_1_2
        (Host.rsqrt (addf (Host.divf (broadcastInDim S131072x2x1 ![0, 1] bcast_S131072x2_S131072x2x1_0_1
              (Host.reduceAdd (mulf xc xc) (constant S_ .f32 0x00000000#32) reducesTo_S131072x2x128_S131072x2_d2 h_S_))
            (broadcastInDim S131072x2x1 ![] bcast_S_S131072x2x1 (constant S_ .f32 0x43000000#32)))
          (broadcastInDim S131072x2x1 ![] bcast_S_S131072x2x1 (constant S_ .f32 0x3727C5AC#32))))))
        (broadcastInDim S131072x2x128 ![0, 1, 2] bcast_S1x1x128_S131072x2x128_0_1_2 (broadcastInDim S1x1x128 ![2] bcast_S128_S1x1x128_2 g)))
      (broadcastInDim S131072x2x128 ![0, 1, 2] bcast_S1x1x128_S131072x2x128_0_1_2 (broadcastInDim S1x1x128 ![2] bcast_S128_S1x1x128_2 b)) (ix3 n s q)
      = scl (fun k => xc (ix3 n s k)) (fun k => g (ix1 k)) (fun k => b (ix1 k)) q := by
  show xc (ix3 n s q) * _ * _ + _ = _
  rw [bc_n21_n2q, bc_11q_n2q, bc_11q_n2q, bc_q_11q, bc_q_11q]
  show xc (ix3 n s q) * Ideal.rsqrt (Ideal.div
        (broadcastInDim S131072x2x1 ![0, 1] bcast_S131072x2_S131072x2x1_0_1
          (Host.reduceAdd (mulf xc xc) (constant S_ .f32 0x00000000#32) reducesTo_S131072x2x128_S131072x2_d2 h_S_) (ix3 n s (0 : Fin 1)))
        (broadcastInDim S131072x2x1 ![] bcast_S_S131072x2x1 (constant (F := Ideal) S_ .f32 0x43000000#32) (ix3 n s (0 : Fin 1)))
      + broadcastInDim S131072x2x1 ![] bcast_S_S131072x2x1 (constant (F := Ideal) S_ .f32 0x3727C5AC#32) (ix3 n s (0 : Fin 1)))
      * g (ix1 q) + b (ix1 q) = _
  rw [bc_n2_n21, broadcastInDim_scalar_apply, broadcastInDim_scalar_apply, sum_last3]
  rfl

end Cert.RefSide

end
-- ==== Proof.RefValue.lean ====
/-
  The reference program of the tree-structured LSTM cell computes, node by node, the cell of the specification.

  The reference's result is one term of its twenty argument arrays, built from whole-array operations. Reading that
  term at one entry, operation by operation, gives for node n: the children's type indicators; the children's hidden and
  cell rows pooled by type; the two pooled hidden rows side by side; the forget gates' arguments, their layer
  normalisation and the logistic function of it; the carried cell as the sum over the two types of gate times pooled
  cell row; the joint projection, its three blocks of 128 columns and their layer normalisations; the new cell row
  logistic(input) · tanh(update) + carried cell; and the new hidden row logistic(output) · tanh(normalised new cell).
  Each step is the corresponding definition of the specification at node n's data, so the result array [2, N, 128]
  holds the new hidden row at 0 and the new cell row at 1.
-/
import proofs.«150032_j36447092473860_2_alg».proof.Proof.RefLayout

set_option maxRecDepth 16384

noncomputable section

namespace Cert.RefSide

open Idealize.ShloMosaic Idealize.ShloMosaic.ValueIdx Idealize.ShloMosaic.StableHlo Idealize.SL.Sem
open Cert.ReferenceIdeal Cert.ReferenceIdeal.Gen Cert.ReferenceIdeal.Value Cert.TreeCell Cert.HostLayout

variable (V0 : Valuation τ sig (Elt Ideal))

/-- The weights, read off the reference's argument arrays. -/
def wts : Wts :=
  wtsOf (V0 (Proc.devRef .tc main_arg4)) (V0 (Proc.devRef .tc main_arg5)) (V0 (Proc.devRef .tc main_arg6))
    (V0 (Proc.devRef .tc main_arg7)) (V0 (Proc.devRef .tc main_arg8)) (V0 (Proc.devRef .tc main_arg9))
    (V0 (Proc.devRef .tc main_arg10)) (V0 (Proc.devRef .tc main_arg11)) (V0 (Proc.devRef .tc main_arg12))
    (V0 (Proc.devRef .tc main_arg13)) (V0 (Proc.devRef .tc main_arg14)) (V0 (Proc.devRef .tc main_arg15))
    (V0 (Proc.devRef .tc main_arg16)) (V0 (Proc.devRef .tc main_arg17)) (V0 (Proc.devRef .tc main_arg18))
    (V0 (Proc.devRef .tc main_arg19))

/-- Node n's data, read off the reference's argument arrays. -/
def node (n : Fin 131072) : Row :=
  rowOf (V0 (Proc.devRef .tc main_arg0)) (V0 (Proc.devRef .tc main_arg1)) (V0 (Proc.devRef .tc main_arg2))
    (V0 (Proc.devRef .tc main_arg3)) n

/-! ## The children's type indicators -/

theorem ind0 (n : Fin 131072) (k : Fin 4) (u : Fin 1) :
    res_main_v3 (F := Ideal) V0 (ix3 n k u) = (node V0 n).w0 k := by
  unfold res_main_v3
  show FloatOps.uitofp .f32 _ = _
  rw [broadcastInDim_apply _ _ _ (ix3 n k u) (ix2 n k) (fun a => by match a with | ⟨0, _⟩ => rfl | ⟨1, _⟩ => rfl)]
  show FloatOps.uitofp .f32 (IntOp.cmpi .eq _ (broadcastInDim S131072x4 ![] bcast_S_S131072x4 (constantI S_ 32 0#32) (ix2 n k))) = _
  rw [broadcastInDim_scalar_apply]
  rfl

theorem ind1 (n : Fin 131072) (k : Fin 4) (u : Fin 1) :
    res_main_v7 (F := Ideal) V0 (ix3 n k u) = (node V0 n).w1 k := by
  unfold res_main_v7
  show FloatOps.uitofp .f32 _ = _
  rw [broadcastInDim_apply _ _ _ (ix3 n k u) (ix2 n k) (fun a => by match a with | ⟨0, _⟩ => rfl | ⟨1, _⟩ => rfl)]
  show FloatOps.uitofp .f32 (IntOp.cmpi .eq _ (broadcastInDim S131072x4 ![] bcast_S_S131072x4 (constantI S_ 32 1#32) (ix2 n k))) = _
  rw [broadcastInDim_scalar_apply]
  rfl

/-! ## The pooled rows -/

/-- Children's rows times an indicator column, summed over the children. -/
theorem pool (A : FVec Ideal S131072x4x128 .f32) (M : FVec Ideal S131072x4x1 .f32) (n : Fin 131072) (q : Fin 128) :
    Host.reduceAdd (mulf A (broadcastInDim S131072x4x128 ![0, 1, 2] bcast_S131072x4x1_S131072x4x128_0_1_2 M))
        (constant S_ .f32 0x00000000#32) reducesTo_S131072x4x128_S131072x128_d1 h_S_ (ix2 n q)
      = ∑ k : Fin 4, A (ix3 n k q) * M (ix3 n k (0 : Fin 1)) :=
  (sum_mid4 _ n q).trans (Finset.sum_congr rfl fun k _ => by
    show A (ix3 n k q) * broadcastInDim S131072x4x128 ![0, 1, 2] bcast_S131072x4x1_S131072x4x128_0_1_2 M (ix3 n k q) = _
    rw [bc_n41_n4q])

theorem pool_h0 (n : Fin 131072) (q : Fin 128) :
    Host.reduceAdd (mulf (V0 (Proc.devRef .tc main_arg1)) (broadcastInDim S131072x4x128 ![0, 1, 2] bcast_S131072x4x1_S131072x4x128_0_1_2 (res_main_v3 V0)))
        (constant S_ .f32 0x00000000#32) reducesTo_S131072x4x128_S131072x128_d1 h_S_ (ix2 n q)
      = agg (node V0 n).hc (node V0 n).w0 q :=
  (pool _ _ n q).trans (Finset.sum_congr rfl fun k _ => by rw [ind0]; rfl)

theorem pool_h1 (n : Fin 131072) (q : Fin 128) :
    Host.reduceAdd (mulf (V0 (Proc.devRef .tc main_arg1)) (broadcastInDim S131072x4x128 ![0, 1, 2] bcast_S131072x4x1_S131072x4x128_0_1_2 (res_main_v7 V0)))
        (constant S_ .f32 0x00000000#32) reducesTo_S131072x4x128_S131072x128_d1 h_S_ (ix2 n q)
      = agg (node V0 n).hc (node V0 n).w1 q :=
  (pool _ _ n q).trans (Finset.sum_congr rfl fun k _ => by rw [ind1]; rfl)

theorem pool_c0 (n : Fin 131072) (q : Fin 128) :
    Host.reduceAdd (mulf (V0 (Proc.devRef .tc main_arg2)) (broadcastInDim S131072x4x128 ![0, 1, 2] bcast_S131072x4x1_S131072x4x128_0_1_2 (res_main_v3 V0)))
        (constant S_ .f32 0x00000000#32) reducesTo_S131072x4x128_S131072x128_d1 h_S_ (ix2 n q)
      = agg (node V0 n).cc (node V0 n).w0 q :=
  (pool _ _ n q).trans (Finset.sum_congr rfl fun k _ => by rw [ind0]; rfl)

theorem pool_c1 (n : Fin 131072) (q : Fin 128) :
    Host.reduceAdd (mulf (V0 (Proc.devRef .tc main_arg2)) (broadcastInDim S131072x4x128 ![0, 1, 2] bcast_S131072x4x1_S131072x4x128_0_1_2 (res_main_v7 V0)))
        (constant S_ .f32 0x00000000#32) reducesTo_S131072x4x128_S131072x128_d1 h_S_ (ix2 n q)
      = agg (node V0 n).cc (node V0 n).w1 q :=
  (pool _ _ n q).trans (Finset.sum_congr rfl fun k _ => by rw [ind1]; rfl)

/-- The two pooled hidden rows side by side. -/
theorem pooled_hidden (n : Fin 131072) (k : Fin 256) : res_main_v20 (F := Ideal) V0 (ix2 n k) = hio (node V0 n) k := by
  unfold res_main_v20
  rw [cat_cols]
  unfold hio
  exact congrArg₂ (fun a b => cat a b k) (funext fun q => pool_h0 V0 n q) (funext fun q => pool_h1 V0 n q)

/-! ## The forget gates and the carried cell -/

/-- The forget gate's argument, before normalisation. -/
theorem forget_pre (n : Fin 131072) (s : Fin 2) (q : Fin 128) :
    res_main_v31 (F := Ideal) V0 (ix3 n s q) = pre (wts V0) (node V0 n) s q := by
  unfold res_main_v31
  show _ + shapeCast S131072x2x128 _ shapeCasts_S131072x256_S131072x2x128 _ + _ = _
  rw [bc_n1q_n2q, bc_nq_n1q, cast_n256_n2q, bc_11q_n2q, bc_1q_11q, proj_e_f, proj_h_f]
  simp only [pooled_hidden]
  rfl

theorem forget_centred (n : Fin 131072) (s : Fin 2) (q : Fin 128) :
    res_main_v37 (F := Ideal) V0 (ix3 n s q) = ctr (pre (wts V0) (node V0 n) s) q := by
  unfold res_main_v37
  rw [centre3]
  exact congrArg (fun f => ctr f q) (funext fun k => forget_pre V0 n s k)

/-- The forget gate for child type s. -/
theorem forget_gate (n : Fin 131072) (s : Fin 2) (q : Fin 128) :
    Host.divf (broadcastInDim S131072x2x128 ![] bcast_S_S131072x2x128 (constant S_ .f32 0x3F800000#32))
      (addf (broadcastInDim S131072x2x128 ![] bcast_S_S131072x2x128 (constant S_ .f32 0x3F800000#32))
        (Host.exp (Host.negf
          (addf (mulf (mulf (res_main_v37 V0) (broadcastInDim S131072x2x128 ![0, 1, 2] bcast_S131072x2x1_S131072x2x128_0_1_2
              (Host.rsqrt (addf (Host.divf (broadcastInDim S131072x2x1 ![0, 1] bcast_S131072x2_S131072x2x1_0_1
                    (Host.reduceAdd (mulf (res_main_v37 V0) (res_main_v37 V0)) (constant S_ .f32 0x00000000#32) reducesTo_S131072x2x128_S131072x2_d2 h_S_))
                  (broadcastInDim S131072x2x1 ![] bcast_S_S131072x2x1 (constant S_ .f32 0x43000000#32)))
                (broadcastInDim S131072x2x1 ![] bcast_S_S131072x2x1 (constant S_ .f32 0x3727C5AC#32))))))
              (broadcastInDim S131072x2x128 ![0, 1, 2] bcast_S1x1x128_S131072x2x128_0_1_2 (broadcastInDim S1x1x128 ![2] bcast_S128_S1x1x128_2 (V0 (Proc.devRef .tc main_arg16)))))
            (broadcastInDim S131072x2x128 ![0, 1, 2] bcast_S1x1x128_S131072x2x128_0_1_2 (broadcastInDim S1x1x128 ![2] bcast_S128_S1x1x128_2 (V0 (Proc.devRef .tc main_arg17)))))))) (ix3 n s q)
      = fgate (wts V0) (node V0 n) s q := by
  rw [logistic_spelt, scale3]
  unfold fgate ln
  simp only [forget_centred]
  rfl

/-! ## The joint projection and its three blocks -/

theorem joint (n : Fin 131072) (s : Fin 3) (q : Fin 128) :
    res_main_v71 (F := Ideal) V0 (ix2 n (off3 s q)) = iou (wts V0) (node V0 n) s q := by
  unfold res_main_v71
  show _ + _ + _ = _
  rw [broadcastInDim_1b_ab_apply, proj_e_iou, proj_h_iou]
  simp only [pooled_hidden]
  rfl

theorem joint0 (n : Fin 131072) (q : Fin 128) : res_main_v72 (F := Ideal) V0 (ix2 n q) = iou (wts V0) (node V0 n) 0 q := by
  unfold res_main_v72; rw [block0]; exact joint V0 n 0 q

theorem joint1 (n : Fin 131072) (q : Fin 128) : res_main_v73 (F := Ideal) V0 (ix2 n q) = iou (wts V0) (node V0 n) 1 q := by
  unfold res_main_v73; rw [block1]; exact joint V0 n 1 q

theorem joint2 (n : Fin 131072) (q : Fin 128) : res_main_v74 (F := Ideal) V0 (ix2 n q) = iou (wts V0) (node V0 n) 2 q := by
  unfold res_main_v74; rw [block2]; exact joint V0 n 2 q

theorem centred0 (n : Fin 131072) (q : Fin 128) :
    res_main_v80 (F := Ideal) V0 (ix2 n q) = ctr (iou (wts V0) (node V0 n) 0) q := by
  unfold res_main_v80; rw [centre2]
  exact congrArg (fun f => ctr f q) (funext fun k => joint0 V0 n k)

theorem centred1 (n : Fin 131072) (q : Fin 128) :
    res_main_v108 (F := Ideal) V0 (ix2 n q) = ctr (iou (wts V0) (node V0 n) 1) q := by
  unfold res_main_v108; rw [centre2]
  exact congrArg (fun f => ctr f q) (funext fun k => joint1 V0 n k)

theorem centred2 (n : Fin 131072) (q : Fin 128) :
    res_main_v136 (F := Ideal) V0 (ix2 n q) = ctr (iou (wts V0) (node V0 n) 2) q := by
  unfold res_main_v136; rw [centre2]
  exact congrArg (fun f => ctr f q) (funext fun k => joint2 V0 n k)

/-! ## The new cell row -/

theorem new_cell (n : Fin 131072) (q : Fin 128) :
    res_main_v155 (F := Ideal) V0 (ix2 n q) = cnew (wts V0) (node V0 n) q := by
  unfold res_main_v155
  show _ * FloatOps.hostUnary .tanh _ + _ = _
  rw [logistic_spelt (t := S131072x128) bcast_S_S131072x128 _ (ix2 n q), scale2, scale2, sum_mid2, Fin.sum_univ_two]
  show _ + (_ * _ + _ * _) = _
  rw [stack_mid_zero, stack_mid_one, bc_nq_n1q, bc_nq_n1q, pool_c0, pool_c1, forget_gate, forget_gate]
  simp only [centred0, centred2]
  rfl

theorem new_cell_centred (n : Fin 131072) (q : Fin 128) :
    res_main_v161 (F := Ideal) V0 (ix2 n q) = ctr (cnew (wts V0) (node V0 n)) q := by
  unfold res_main_v161; rw [centre2]
  exact congrArg (fun f => ctr f q) (funext fun k => new_cell V0 n k)

/-! ## The new hidden row -/

theorem new_hidden (n : Fin 131072) (q : Fin 128) :
    mulf (Host.divf (broadcastInDim S131072x128 ![] bcast_S_S131072x128 (constant S_ .f32 0x3F800000#32))
        (addf (broadcastInDim S131072x128 ![] bcast_S_S131072x128 (constant S_ .f32 0x3F800000#32))
          (Host.exp (Host.negf (addf (mulf (mulf (res_main_v108 V0) (broadcastInDim S131072x128 ![0, 1] bcast_S131072x1_S131072x128_0_1
              (Host.rsqrt (addf (Host.divf (broadcastInDim S131072x1 ![0] bcast_S131072_S131072x1_0
                    (Host.reduceAdd (mulf (res_main_v108 V0) (res_main_v108 V0)) (constant S_ .f32 0x00000000#32) reducesTo_S131072x128_S131072_d1 h_S_))
                  (broadcastInDim S131072x1 ![] bcast_S_S131072x1 (constant S_ .f32 0x43000000#32)))
                (broadcastInDim S131072x1 ![] bcast_S_S131072x1 (constant S_ .f32 0x3727C5AC#32))))))
              (broadcastInDim S131072x128 ![0, 1] bcast_S1x128_S131072x128_0_1 (broadcastInDim S1x128 ![1] bcast_S128_S1x128_1 (V0 (Proc.devRef .tc main_arg12)))))
            (broadcastInDim S131072x128 ![0, 1] bcast_S1x128_S131072x128_0_1 (broadcastInDim S1x128 ![1] bcast_S128_S1x128_1 (V0 (Proc.devRef .tc main_arg13)))))))))
      (Host.tanh (addf (mulf (mulf (res_main_v161 V0) (broadcastInDim S131072x128 ![0, 1] bcast_S131072x1_S131072x128_0_1
          (Host.rsqrt (addf (Host.divf (broadcastInDim S131072x1 ![0] bcast_S131072_S131072x1_0
                (Host.reduceAdd (mulf (res_main_v161 V0) (res_main_v161 V0)) (constant S_ .f32 0x00000000#32) reducesTo_S131072x128_S131072_d1 h_S_))
              (broadcastInDim S131072x1 ![] bcast_S_S131072x1 (constant S_ .f32 0x43000000#32)))
            (broadcastInDim S131072x1 ![] bcast_S_S131072x1 (constant S_ .f32 0x3727C5AC#32))))))
          (broadcastInDim S131072x128 ![0, 1] bcast_S1x128_S131072x128_0_1 (broadcastInDim S1x128 ![1] bcast_S128_S1x128_1 (V0 (Proc.devRef .tc main_arg18)))))
        (broadcastInDim S131072x128 ![0, 1] bcast_S1x128_S131072x128_0_1 (broadcastInDim S1x128 ![1] bcast_S128_S1x128_1 (V0 (Proc.devRef .tc main_arg19)))))) (ix2 n q)
      = hnew (wts V0) (node V0 n) q := by
  show _ * FloatOps.hostUnary .tanh _ = _
  rw [logistic_spelt (t := S131072x128) bcast_S_S131072x128 _ (ix2 n q), scale2, scale2]
  simp only [centred1, new_cell_centred]
  rfl

/-! ## The whole result -/

/-- The reference's result array is the cell's hidden row and cell row, node by node. -/
theorem ref_eq :
    Cert.ReferenceIdeal.Value.val4 V0 (Proc.devRef .tc main_v182)
      = G (wtsOf (V0 (Proc.devRef .tc main_arg4)) (V0 (Proc.devRef .tc main_arg5)) (V0 (Proc.devRef .tc main_arg6))
            (V0 (Proc.devRef .tc main_arg7)) (V0 (Proc.devRef .tc main_arg8)) (V0 (Proc.devRef .tc main_arg9))
            (V0 (Proc.devRef .tc main_arg10)) (V0 (Proc.devRef .tc main_arg11)) (V0 (Proc.devRef .tc main_arg12))
            (V0 (Proc.devRef .tc main_arg13)) (V0 (Proc.devRef .tc main_arg14)) (V0 (Proc.devRef .tc main_arg15))
            (V0 (Proc.devRef .tc main_arg16)) (V0 (Proc.devRef .tc main_arg17)) (V0 (Proc.devRef .tc main_arg18))
            (V0 (Proc.devRef .tc main_arg19)))
          (V0 (Proc.devRef .tc main_arg0)) (V0 (Proc.devRef .tc main_arg1)) (V0 (Proc.devRef .tc main_arg2))
          (V0 (Proc.devRef .tc main_arg3)) := by
  refine (val4_main_v182 V0).trans ?_
  funext i
  obtain ⟨s, n, q, rfl⟩ : ∃ (s : Fin 2) (n : Fin 131072) (q : Fin 128), i = ix3 s n q := ⟨i 0, i 1, i 2, eq_ix3 i⟩
  show _ = out (wts V0) (node V0 n) s q
  match s with
  | ⟨0, _⟩ =>
    rw [show (⟨0, by omega⟩ : Fin 2) = 0 from rfl, stack_front_zero, bc_nq_1nq, new_hidden]
    rfl
  | ⟨1, _⟩ =>
    rw [show (⟨1, by omega⟩ : Fin 2) = 1 from rfl, stack_front_one, bc_nq_1nq, new_cell]
    rfl

end Cert.RefSide

end
-- ==== Proof.lean ====
/-
  A tree-structured LSTM cell over 131072 nodes, computed block by block on a grid of 128 points, against the same cell
  written with whole-array operations.

  Every node's result depends only on the node's own row of each input (its embedding, its four children's hidden and
  cell rows, its children's types) and on the weights, which are the same for every node. Proof/Spec.lean states that
  dependence once, as a function of one node's data: the children pooled by type, the projections as plain sums of
  products, the five layer normalisations, and the gates. The body of one grid point computes that function for each of
  its 1024 rows (Proof/KBody1.lean: the normalisations and gates read at a row and a column; Proof/KBody2.lean: the
  pooling and the two fused products; Proof/KBody3.lean: the stages put together, and the two stores as the two planes of
  the result's block). The blocks of the 128 points tile the result, each point reading rows t*1024 … t*1024+1023 of the
  inputs, and the fused weight matrices the points find are the transposed weights side by side, so the whole result is
  that function of every node (Proof/KernelArray.lean with Proof/KernelArrBlocks.lean and Proof/KernelArrHost.lean). The
  whole-array program computes the same function entry by entry (Proof/RefLayout.lean, Proof/RefValue.lean): its
  logistic function is spelt 1 / (1 + exp (-x)), which is the logistic function; its sums over the children and over the
  two types start from 0; its forget gates are normalised as one [131072, 2, 128] array. On the extended reals a change of
  float format is the identity and sums may be taken in any order, so no fact about the inputs is needed: the two
  results are the same function of arguments that agree.
-/
import proofs.«150032_j36447092473860_2_alg».proof.Defs
import proofs.«150032_j36447092473860_2_alg».proof.Proof.Gen.Kernel
import proofs.«150032_j36447092473860_2_alg».proof.Proof.Gen.Kernel.Skeleton
import proofs.«150032_j36447092473860_2_alg».proof.Proof.Gen.Kernel.Launch
import proofs.«150032_j36447092473860_2_alg».proof.Proof.Gen.Kernel.Points
import proofs.«150032_j36447092473860_2_alg».proof.Proof.Gen.Kernel.Frame
import proofs.«150032_j36447092473860_2_alg».proof.Proof.Gen.KernelIdeal
import proofs.«150032_j36447092473860_2_alg».proof.Proof.Gen.KernelIdeal.Skeleton
import proofs.«150032_j36447092473860_2_alg».proof.Proof.Gen.KernelIdeal.Launch
import proofs.«150032_j36447092473860_2_alg».proof.Proof.Gen.KernelIdeal.Points
import proofs.«150032_j36447092473860_2_alg».proof.Proof.Gen.KernelIdeal.Frame
import proofs.«150032_j36447092473860_2_alg».proof.Proof.Gen.ReferenceIdeal
import proofs.«150032_j36447092473860_2_alg».proof.Proof.Gen.KernelIdeal.Value
import proofs.«150032_j36447092473860_2_alg».proof.Proof.Gen.ReferenceIdeal.Run
import proofs.«150032_j36447092473860_2_alg».proof.Proof.Gen.Pre_finite_inputs
import proofs.«150032_j36447092473860_2_alg».proof.Proof.KBody3
import proofs.«150032_j36447092473860_2_alg».proof.Proof.KernelArray
import proofs.«150032_j36447092473860_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo Cert.Kernel

/-- The word-level program's runs end without a fault and leave the arguments as they were. -/
theorem frame_k [Cert.Kernel.Facts] [Cert.Pre_finite_inputs.Facts] : Cert.frame_Kernel := fun m ρ _ => Cert.Kernel.Gen.frame m ρ

/-- So do the runs of the same program read on the extended reals. -/
theorem frame_ki [Cert.KernelIdeal.Facts] [Cert.Pre_finite_inputs.Facts] : Cert.frame_KernelIdeal := fun m ρ _ => Cert.KernelIdeal.Gen.frame m ρ

/-- And the whole-array program's: its run with the result forgotten. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the cell of every node: the blockwise program by
    its 128 blocks, the whole-array program entry by entry. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelSide.Gm m c, Cert.KernelSide.run m Cert.KernelSide.block_eq ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Value.val4_main_v182 (launchContents m' c)).symm.trans (Cert.RefSide.ref_eq (launchContents m' c))).trans ?_
  obtain ⟨h0, h1, h2, h3, h4, h5, h6, h7, h8, h9, h10, h11, h12, h13, h14, h15, h16, h17, h18, h19⟩ := hagree c
  have e0 : launchContents m' c (Proc.devRef .tc Cert.ReferenceIdeal.main_arg0) = m ((c.tc : Thread Cert.KernelIdeal.nD Cert.KernelIdeal.τ).loc Cert.KernelIdeal.main_arg0) := h0
  have e1 : launchContents m' c (Proc.devRef .tc Cert.ReferenceIdeal.main_arg1) = m ((c.tc : Thread Cert.KernelIdeal.nD Cert.KernelIdeal.τ).loc Cert.KernelIdeal.main_arg1) := h1
  have e2 : launchContents m' c (Proc.devRef .tc Cert.ReferenceIdeal.main_arg2) = m ((c.tc : Thread Cert.KernelIdeal.nD Cert.KernelIdeal.τ).loc Cert.KernelIdeal.main_arg2) := h2
  have e3 : launchContents m' c (Proc.devRef .tc Cert.ReferenceIdeal.main_arg3) = m ((c.tc : Thread Cert.KernelIdeal.nD Cert.KernelIdeal.τ).loc Cert.KernelIdeal.main_arg3) := h3
  have e4 : launchContents m' c (Proc.devRef .tc Cert.ReferenceIdeal.main_arg4) = m ((c.tc : Thread Cert.KernelIdeal.nD Cert.KernelIdeal.τ).loc Cert.KernelIdeal.main_arg4) := h4
  have e5 : launchContents m' c (Proc.devRef .tc Cert.ReferenceIdeal.main_arg5) = m ((c.tc : Thread Cert.KernelIdeal.nD Cert.KernelIdeal.τ).loc Cert.KernelIdeal.main_arg5) := h5
  have e6 : launchContents m' c (Proc.devRef .tc Cert.ReferenceIdeal.main_arg6) = m ((c.tc : Thread Cert.KernelIdeal.nD Cert.KernelIdeal.τ).loc Cert.KernelIdeal.main_arg6) := h6
  have e7 : launchContents m' c (Proc.devRef .tc Cert.ReferenceIdeal.main_arg7) = m ((c.tc : Thread Cert.KernelIdeal.nD Cert.KernelIdeal.τ).loc Cert.KernelIdeal.main_arg7) := h7
  have e8 : launchContents m' c (Proc.devRef .tc Cert.ReferenceIdeal.main_arg8) = m ((c.tc : Thread Cert.KernelIdeal.nD Cert.KernelIdeal.τ).loc Cert.KernelIdeal.main_arg8) := h8
  have e9 : launchContents m' c (Proc.devRef .tc Cert.ReferenceIdeal.main_arg9) = m ((c.tc : Thread Cert.KernelIdeal.nD Cert.KernelIdeal.τ).loc Cert.KernelIdeal.main_arg9) := h9
  have e10 : launchContents m' c (Proc.devRef .tc Cert.ReferenceIdeal.main_arg10) = m ((c.tc : Thread Cert.KernelIdeal.nD Cert.KernelIdeal.τ).loc Cert.KernelIdeal.main_arg10) := h10
  have e11 : launchContents m' c (Proc.devRef .tc Cert.ReferenceIdeal.main_arg11) = m ((c.tc : Thread Cert.KernelIdeal.nD Cert.KernelIdeal.τ).loc Cert.KernelIdeal.main_arg11) := h11
  have e12 : launchContents m' c (Proc.devRef .tc Cert.ReferenceIdeal.main_arg12) = m ((c.tc : Thread Cert.KernelIdeal.nD Cert.KernelIdeal.τ).loc Cert.KernelIdeal.main_arg12) := h12
  have e13 : launchContents m' c (Proc.devRef .tc Cert.ReferenceIdeal.main_arg13) = m ((c.tc : Thread Cert.KernelIdeal.nD Cert.KernelIdeal.τ).loc Cert.KernelIdeal.main_arg13) := h13
  have e14 : launchContents m' c (Proc.devRef .tc Cert.ReferenceIdeal.main_arg14) = m ((c.tc : Thread Cert.KernelIdeal.nD Cert.KernelIdeal.τ).loc Cert.KernelIdeal.main_arg14) := h14
  have e15 : launchContents m' c (Proc.devRef .tc Cert.ReferenceIdeal.main_arg15) = m ((c.tc : Thread Cert.KernelIdeal.nD Cert.KernelIdeal.τ).loc Cert.KernelIdeal.main_arg15) := h15
  have e16 : launchContents m' c (Proc.devRef .tc Cert.ReferenceIdeal.main_arg16) = m ((c.tc : Thread Cert.KernelIdeal.nD Cert.KernelIdeal.τ).loc Cert.KernelIdeal.main_arg16) := h16
  have e17 : launchContents m' c (Proc.devRef .tc Cert.ReferenceIdeal.main_arg17) = m ((c.tc : Thread Cert.KernelIdeal.nD Cert.KernelIdeal.τ).loc Cert.KernelIdeal.main_arg17) := h17
  have e18 : launchContents m' c (Proc.devRef .tc Cert.ReferenceIdeal.main_arg18) = m ((c.tc : Thread Cert.KernelIdeal.nD Cert.KernelIdeal.τ).loc Cert.KernelIdeal.main_arg18) := h18
  have e19 : launchContents m' c (Proc.devRef .tc Cert.ReferenceIdeal.main_arg19) = m ((c.tc : Thread Cert.KernelIdeal.nD Cert.KernelIdeal.τ).loc Cert.KernelIdeal.main_arg19) := h19
  rw [e0, e1, e2, e3, e4, e5, e6, e7, e8, e9, e10, e11, e12, e13, e14, e15, e16, e17, e18, e19]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
